-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x512 : Shape := ⟨2, ![12000, 512]⟩
abbrev S2x400000 : Shape := ⟨2, ![2, 400000]⟩
abbrev S512x32 : Shape := ⟨2, ![512, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S_ : Shape := ⟨0, ![]⟩

class Facts : Prop where
  bcast_S_S12000x512 : S_.BroadcastsInDim S12000x512 (![] : Fin 0 → Fin S12000x512.rank)
  reducesTo_S12000x512_S_d0_1 : S12000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x6 .f32) (main_arg11 : FVec F S6 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x6 .f32 := Host.absf main_arg10
  let main_cst_16 : FVec F S_ .f32 := constant S_ .f32 0x7F800000#32
  let main_v45 : FVec F S128x6 .f32 := broadcastInDim S128x6 ![] bcast_S_S128x6 main_cst_16
  let main_v46 : IVec S128x6 1 := cmpf .olt main_v44 main_v45
  let main_c_17 : IVec S_ 1 := constantI S_ 1 1#1
  let main_v47 : IVec S_ 1 := (fun x v => Host.reduce IntOp.andi x v reducesTo_S128x6_S_d0_1 h_S_) main_v46 main_c_17
  let main_v48 : IVec S_ 1 := andi main_v43 main_v47
  let main_v49 : FVec F S6 .f32 := Host.absf main_arg11
  let main_cst_18 : FVec F S_ .f32 := constant S_ .f32 0x7F800000#32
  let main_v50 : FVec F S6 .f32 := broadcastInDim S6 ![] bcast_S_S6 main_cst_18
  fn_part3 (F := F) main_v48 main_v49 main_v50

def fn_part1 {F : FTy → Type} [FloatOps F] (main_arg5 : FVec F S64 .f32) (main_arg6 : FVec F S64x128 .f32) (main_arg7 : FVec F S128 .f32) (main_arg8 : FVec F S128x128 .f32) (main_arg9 : FVec F S128 .f32) (main_arg10 : FVec F S128x6 .f32) (main_arg11 : FVec F S6 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S12000x512 .f32) (main_arg1 : IVec S2x400000 32) (main_arg2 : FVec F S512x32 .f32) (main_arg3 : FVec F S32 .f32) (main_arg4 : FVec F S32x64 .f32) (main_arg5 : FVec F S64 .f32) (main_arg6 : FVec F S64x128 .f32) (main_arg7 : FVec F S128 .f32) (main_arg8 : FVec F S128x128 .f32) (main_arg9 : FVec F S128 .f32) (main_arg10 : FVec F S128x6 .f32) (main_arg11 : FVec F S6 .f32) : IVec S_ 1 :=
  let main_v0 : FVec F S12000x512 .f32 := Host.absf main_arg0
  let main_cst : FVec F S_ .f32 := constant S_ .f32 0x7F800000#32
  let main_v1 : FVec F S12000x512 .f32 := broadcastInDim S12000x512 ![] bcast_S_S12000x512 main_cst
  let main_v2 : IVec S12000x512 1 := cmpf .olt main_v0 main_v1
  let main_c : IVec S_ 1 := constantI S_ 1 1#1
  let main_v3 : IVec S_ 1 := (fun x v => Host.reduce IntOp.andi x v reducesTo_S12000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_v13 main_v16
-- ==== Kernel.lean ====
abbrev S12000x512 : Shape := ⟨2, ![12000, 512]⟩
abbrev S2x400000 : Shape := ⟨2, ![2, 400000]⟩
abbrev S512x32 : Shape := ⟨2, ![512, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S1x400000 : Shape := ⟨2, ![1, 400000]⟩
abbrev S400000 : Shape := ⟨1, ![400000]⟩
abbrev S12000 : Shape := ⟨1, ![12000]⟩
abbrev S_ : Shape := ⟨0, ![]⟩
abbrev S12000x12000 : Shape := ⟨2, ![12000, 12000]⟩
abbrev S400000x1 : Shape := ⟨2, ![400000, 1]⟩
abbrev S400000x2 : Shape := ⟨2, ![400000, 2]⟩
abbrev S12000x1 : Shape := ⟨2, ![12000, 1]⟩
abbrev S12000x2 : Shape := ⟨2, ![12000, 2]⟩
abbrev S1x12000 : Shape := ⟨2, ![1, 12000]⟩
abbrev S12288x12288 : Shape := ⟨2, ![12288, 12288]⟩
abbrev S12000x32 : Shape := ⟨2, ![12000, 32]⟩
abbrev S12288x32 : Shape := ⟨2, ![12288, 32]⟩
abbrev S1x32 : Shape := ⟨2, ![1, 32]⟩
abbrev S1536x1536 : Shape := ⟨2, ![1536, 1536]⟩
abbrev S1536x32 : Shape := ⟨2, ![1536, 32]⟩
abbrev S12000x64 : Shape := ⟨2, ![12000, 64]⟩
abbrev S12288x64 : Shape := ⟨2, ![12288, 64]⟩
abbrev S1x64 : Shape := ⟨2, ![1, 64]⟩
abbrev S1536x64 : Shape := ⟨2, ![1536, 64]⟩
abbrev S412000 : Shape := ⟨1, ![412000]⟩
abbrev S412000x1 : Shape := ⟨2, ![412000, 1]⟩
abbrev S12000x128 : Shape := ⟨2, ![12000, 128]⟩
abbrev S412000x128 : Shape := ⟨2, ![412000, 128]⟩
abbrev S1x128 : Shape := ⟨2, ![1, 128]⟩
abbrev S12000x6 : Shape := ⟨2, ![12000, 6]⟩
abbrev S412000x6 : Shape := ⟨2, ![412000, 6]⟩
abbrev S1x6 : Shape := ⟨2, ![1, 6]⟩

abbrev nBuf : Space → Nat
  | .hbm => 211
  | .vmem => 16
  | .smem => 0
  | _ => 0

abbrev hbmTy0_0 (i : Nat) : BufTy := match i % 128 with
  | 0 => ⟨S12000x512, .f32⟩
  | 1 => ⟨S2x400000, .i32⟩
  | 2 => ⟨S512x32, .f32⟩
  | 3 => ⟨S32, .f32⟩
  | 4 => ⟨S32x64, .f32⟩
  | 5 => ⟨S64, .f32⟩
  | 6 => ⟨S64x128, .f32⟩
  | 7 => ⟨S128, .f32⟩
  | 8 => ⟨S128x128, .f32⟩
  | 9 => ⟨S128, .f32⟩
  | 10 => ⟨S128x6, .f32⟩
  | 11 => ⟨S6, .f32⟩
  | 12 => ⟨S1x400000, .i32⟩
  | 13 => ⟨S400000, .i32⟩
  | 14 => ⟨S1x400000, .i32⟩
  | 15 => ⟨S400000, .i32⟩
  | 16 => ⟨S12000, .i32⟩
  | 17 => ⟨S_, .f32⟩
  | 18 => ⟨S12000x12000, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x1, .i32⟩
  | 35 => ⟨S400000x2, .i32⟩
  | 36 => ⟨S_, .f32⟩
  | 37 => ⟨S400000, .f32⟩
  | 38 => ⟨S12000x12000, .f32⟩
  | 39 => ⟨S_, .i32⟩
  | 40 => ⟨S12000, .i32⟩
  | 41 => ⟨S12000, .i1⟩
  | 42 => ⟨S_, .i32⟩
  | 43 => ⟨S12000, .i32⟩
  | 44 => ⟨S12000, .i32⟩
  | 45 => ⟨S12000, .i32⟩
  | 46 => ⟨S_, .i32⟩
  | 47 => ⟨S12000, .i32⟩
  | 48 => ⟨S12000, .i1⟩
  | 49 => ⟨S_, .i32⟩
  | 50 => ⟨S12000, .i32⟩
  | 51 => ⟨S12000, .i32⟩
  | 52 => ⟨S12000, .i32⟩
  | 53 => ⟨S12000x1, .i32⟩
  | 54 => ⟨S12000x1, .i32⟩
  | 55 => ⟨S12000x2, .i32⟩
  | 56 => ⟨S_, .f32⟩
  | 57 => ⟨S12000, .f32⟩
  | 58 => ⟨S12000x12000, .f32⟩
  | 59 => ⟨S_, .f32⟩
  | 60 => ⟨S12000, .f32⟩
  | 61 => ⟨S_, .f32⟩
  | 62 => ⟨S12000, .f32⟩
  | 63 => ⟨S12000, .f32⟩
  | 64 => ⟨S_, .f32⟩
  | 65 => ⟨S12000, .f32⟩
  | 66 => ⟨S12000, .f32⟩
  | 67 => ⟨S12000x1, .f32⟩
  | 68 => ⟨S12000x12000, .f32⟩
  | 69 => ⟨S12000x12000, .f32⟩
  | 70 => ⟨S1x12000, .f32⟩
  | 71 => ⟨S12000x12000, .f32⟩
  | 72 => ⟨S12000x12000, .f32⟩
  | 73 => ⟨S12000x12000, .bf16⟩
  | 74 => ⟨S_, .i32⟩
  | 75 => ⟨S_, .bf16⟩
  | 76 => ⟨S12288x12288, .bf16⟩
  | 77 => ⟨S12000x32, .f32⟩
  | 78 => ⟨S12000x32, .bf16⟩
  | 79 => ⟨S_, .i32⟩
  | 80 => ⟨S_, .bf16⟩
  | 81 => ⟨S12288x32, .bf16⟩
  | 82 => ⟨S1x32, .f32⟩
  | 83 => ⟨S12288x32, .f32⟩
  | 84 => ⟨S12000x32, .f32⟩
  | 85 => ⟨S12000x64, .f32⟩
  | 86 => ⟨S12000x64, .bf16⟩
  | 87 => ⟨S_, .i32⟩
  | 88 => ⟨S_, .bf16⟩
  | 89 => ⟨S12288x64, .bf16⟩
  | 90 => ⟨S1x64, .f32⟩
  | 91 => ⟨S12288x64, .f32⟩
  | 92 => ⟨S12000x64, .f32⟩
  | 93 => ⟨S412000, .i32⟩
  | 94 => ⟨S412000, .i32⟩
  | 95 => ⟨S_, .f32⟩
  | 96 => ⟨S412000, .f32⟩
  | 97 => ⟨S_, .f32⟩
  | 98 => ⟨S12000, .f32⟩
  | 99 => ⟨S412000x1, .i32⟩
  | 100 => ⟨S12000, .f32⟩
  | 101 => ⟨S_, .f32⟩
  | 102 => ⟨S12000, .f32⟩
  | 103 => ⟨S12000, .i1⟩
  | 104 => ⟨S_, .f32⟩
  | 105 => ⟨S12000, .f32⟩
  | 106 => ⟨S12000, .f32⟩
  | 107 => ⟨S_, .f32⟩
  | 108 => ⟨S_, .f32⟩
  | 109 => ⟨S12000, .f32⟩
  | 110 => ⟨S12000, .f32⟩
  | 111 => ⟨S_, .i32⟩
  | 112 => ⟨S412000, .i32⟩
  | 113 => ⟨S412000, .i1⟩
  | 114 => ⟨S_, .i32⟩
  | 115 => ⟨S412000, .i32⟩
  | 116 => ⟨S412000, .i32⟩
  | 117 => ⟨S412000, .i32⟩
  | 118 => ⟨S412000x1, .i32⟩
  | 119 => ⟨S412000, .f32⟩
  | 120 => ⟨S_, .i32⟩
  | 121 => ⟨S412000, .i32⟩
  | 122 => ⟨S412000, .i1⟩
  | 123 => ⟨S_, .i32⟩
  | 124 => ⟨S412000, .i32⟩
  | 125 => ⟨S412000, .i32⟩
  | 126 => ⟨S412000, .i32⟩
  | 127 => ⟨S412000x1, .i32⟩
  | _ => ⟨S12000x512, .f32⟩

abbrev hbmTy0_1 (i : Nat) : BufTy := match i % 128 with
  | 0 => ⟨S412000, .f32⟩
  | 1 => ⟨S412000, .f32⟩
  | 2 => ⟨S12000x128, .f32⟩
  | 3 => ⟨S412000x1, .f32⟩
  | 4 => ⟨S_, .i32⟩
  | 5 => ⟨S412000, .i32⟩
  | 6 => ⟨S412000, .i1⟩
  | 7 => ⟨S_, .i32⟩
  | 8 => ⟨S412000, .i32⟩
  | 9 => ⟨S412000, .i32⟩
  | 10 => ⟨S412000, .i32⟩
  | 11 => ⟨S412000x1, .i32⟩
  | 12 => ⟨S412000x128, .f32⟩
  | 13 => ⟨S412000x128, .f32⟩
  | 14 => ⟨S412000x128, .f32⟩
  | 15 => ⟨S_, .f32⟩
  | 16 => ⟨S12000x128, .f32⟩
  | 17 => ⟨S412000x1, .i32⟩
  | 18 => ⟨S12000x128, .f32⟩
  | 19 => ⟨S1x128, .f32⟩
  | 20 => ⟨S12000x128, .f32⟩
  | 21 => ⟨S12000x128, .f32⟩
  | 22 => ⟨S_, .f32⟩
  | 23 => ⟨S12000x128, .f32⟩
  | 24 => ⟨S12000x128, .f32⟩
  | 25 => ⟨S12000x128, .f32⟩
  | 26 => ⟨S412000x1, .f32⟩
  | 27 => ⟨S_, .i32⟩
  | 28 => ⟨S412000, .i32⟩
  | 29 => ⟨S412000, .i1⟩
  | 30 => ⟨S_, .i32⟩
  | 31 => ⟨S412000, .i32⟩
  | 32 => ⟨S412000, .i32⟩
  | 33 => ⟨S412000, .i32⟩
  | 34 => ⟨S412000x1, .i32⟩
  | 35 => ⟨S412000x128, .f32⟩
  | 36 => ⟨S412000x128, .f32⟩
  | 37 => ⟨S412000x128, .f32⟩
  | 38 => ⟨S_, .f32⟩
  | 39 => ⟨S12000x128, .f32⟩
  | 40 => ⟨S412000x1, .i32⟩
  | 41 => ⟨S12000x128, .f32⟩
  | 42 => ⟨S1x128, .f32⟩
  | 43 => ⟨S12000x128, .f32⟩
  | 44 => ⟨S12000x128, .f32⟩
  | 45 => ⟨S_, .f32⟩
  | 46 => ⟨S12000x128, .f32⟩
  | 47 => ⟨S12000x128, .f32⟩
  | 48 => ⟨S12000x6, .f32⟩
  | 49 => ⟨S412000x1, .f32⟩
  | 50 => ⟨S_, .i32⟩
  | 51 => ⟨S412000, .i32⟩
  | 52 => ⟨S412000, .i1⟩
  | 53 => ⟨S_, .i32⟩
  | 54 => ⟨S412000, .i32⟩
  | 55 => ⟨S412000, .i32⟩
  | 56 => ⟨S412000, .i32⟩
  | 57 => ⟨S412000x1, .i32⟩
  | 58 => ⟨S412000x6, .f32⟩
  | 59 => ⟨S412000x6, .f32⟩
  | 60 => ⟨S412000x6, .f32⟩
  | 61 => ⟨S_, .f32⟩
  | 62 => ⟨S12000x6, .f32⟩
  | 63 => ⟨S412000x1, .i32⟩
  | 64 => ⟨S12000x6, .f32⟩
  | 65 => ⟨S1x6, .f32⟩
  | 66 => ⟨S12000x6, .f32⟩
  | 67 => ⟨S12000x6, .f32⟩
  | 68 => ⟨S_, .f32⟩
  | 69 => ⟨S12000, .f32⟩
  | 70 => ⟨S_, .f32⟩
  | 71 => ⟨S12000, .f32⟩
  | 72 => ⟨S12000, .f32⟩
  | 73 => ⟨S12000x1, .f32⟩
  | 74 => ⟨S12000x6, .f32⟩
  | 75 => ⟨S12000x6, .f32⟩
  | 76 => ⟨S12000x6, .f32⟩
  | 77 => ⟨S_, .f32⟩
  | 78 => ⟨S12000, .f32⟩
  | 79 => ⟨S12000x1, .f32⟩
  | 80 => ⟨S12000x1, .f32⟩
  | 81 => ⟨S12000x6, .f32⟩
  | 82 => ⟨S12000x6, .f32⟩
  | _ => ⟨S12000x512, .f32⟩

abbrev hbmTy (i : Nat) : BufTy := match i / 128 with
  | 0 => hbmTy0_0 i
  | 1 => hbmTy0_1 i
  | _ => ⟨S12000x512, .f32⟩

abbrev bufTy : (tb : Table) → Fin (tcTables nBuf tb) → BufTy
  | .hbm, ⟨i, _⟩ => hbmTy i
  | .local _ .vmem, ⟨0, _⟩ => ⟨S1536x1536, .bf16⟩
  | .local _ .vmem, ⟨1, _⟩ => ⟨S1536x1536, .bf16⟩
  | .local _ .vmem, ⟨2, _⟩ => ⟨S1536x32, .bf16⟩
  | .local _ .vmem, ⟨3, _⟩ => ⟨S1536x32, .bf16⟩
  | .local _ .vmem, ⟨4, _⟩ => ⟨S1x32, .f32⟩
  | .local _ .vmem, ⟨5, _⟩ => ⟨S1536x32, .f32⟩
  | .local _ .vmem, ⟨6, _⟩ => ⟨S1536x32, .f32⟩
  | .local _ .vmem, ⟨7, _⟩ => ⟨S1536x32, .f32⟩
  | .local _ .vmem, ⟨8, _⟩ => ⟨S1536x1536, .bf16⟩
  | .local _ .vmem, ⟨9, _⟩ => ⟨S1536x1536, .bf16⟩
  | .local _ .vmem, ⟨10, _⟩ => ⟨S1536x64, .bf16⟩
  | .local _ .vmem, ⟨11, _⟩ => ⟨S1536x64, .bf16⟩
  | .local _ .vmem, ⟨12, _⟩ => ⟨S1x64, .f32⟩
  | .local _ .vmem, ⟨13, _⟩ => ⟨S1536x64, .f32⟩
  | .local _ .vmem, ⟨14, _⟩ => ⟨S1536x64, .f32⟩
  | .local _ .vmem, ⟨15, _⟩ => ⟨S1536x64, .f32⟩
  | _, _ => ⟨S12000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_call0_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_call1_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_call2_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_17 : Ref sig .tc := ⟨.hbm, 101, rfl⟩
abbrev main_v67 : Ref sig .tc := ⟨.hbm, 102, rfl⟩
abbrev main_v68 : Ref sig .tc := ⟨.hbm, 103, rfl⟩
abbrev main_cst_18 : Ref sig .tc := ⟨.hbm, 104, rfl⟩
abbrev main_v69 : Ref sig .tc := ⟨.hbm, 105, rfl⟩
abbrev main_v70 : Ref sig .tc := ⟨.hbm, 106, rfl⟩
abbrev main_cst_19 : Ref sig .tc := ⟨.hbm, 107, rfl⟩
abbrev main_call3_v0 : Ref sig .tc := ⟨.hbm, 108, rfl⟩
abbrev main_call3_v1 : Ref sig .tc := ⟨.hbm, 109, rfl⟩
abbrev main_v71 : Ref sig .tc := ⟨.hbm, 110, rfl⟩
abbrev main_c_20 : Ref sig .tc := ⟨.hbm, 111, rfl⟩
abbrev main_v72 : Ref sig .tc := ⟨.hbm, 112, rfl⟩
abbrev main_v73 : Ref sig .tc := ⟨.hbm, 113, rfl⟩
abbrev main_c_21 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_22 : Ref sig .tc := ⟨.hbm, 120, rfl⟩
abbrev main_v79 : Ref sig .tc := ⟨.hbm, 121, rfl⟩
abbrev main_v80 : Ref sig .tc := ⟨.hbm, 122, rfl⟩
abbrev main_c_23 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_24 : Ref sig .tc := ⟨.hbm, 132, rfl⟩
abbrev main_v89 : Ref sig .tc := ⟨.hbm, 133, rfl⟩
abbrev main_v90 : Ref sig .tc := ⟨.hbm, 134, rfl⟩
abbrev main_c_25 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_26 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_call4_cst : Ref sig .tc := ⟨.hbm, 150, rfl⟩
abbrev main_call4_v0 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_27 : Ref sig .tc := ⟨.hbm, 155, rfl⟩
abbrev main_v107 : Ref sig .tc := ⟨.hbm, 156, rfl⟩
abbrev main_v108 : Ref sig .tc := ⟨.hbm, 157, rfl⟩
abbrev main_c_28 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_29 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_call5_cst : Ref sig .tc := ⟨.hbm, 173, rfl⟩
abbrev main_call5_v0 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_30 : Ref sig .tc := ⟨.hbm, 178, rfl⟩
abbrev main_v125 : Ref sig .tc := ⟨.hbm, 179, rfl⟩
abbrev main_v126 : Ref sig .tc := ⟨.hbm, 180, rfl⟩
abbrev main_c_31 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_32 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_call6_cst : Ref sig .tc := ⟨.hbm, 196, rfl⟩
abbrev main_call6_v0 : Ref sig .tc := ⟨.hbm, 197, rfl⟩
abbrev main_call6_cst_0 : Ref sig .tc := ⟨.hbm, 198, rfl⟩
abbrev main_call6_v1 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_call6_v5 : Ref sig .tc := ⟨.hbm, 203, rfl⟩
abbrev main_call6_v6 : Ref sig .tc := ⟨.hbm, 204, rfl⟩
abbrev main_call6_cst_1 : Ref sig .tc := ⟨.hbm, 205, rfl⟩
abbrev main_call6_v7 : Ref sig .tc := ⟨.hbm, 206, rfl⟩
abbrev main_call6_v8 : Ref sig .tc := ⟨.hbm, 207, rfl⟩
abbrev main_call6_v9 : Ref sig .tc := ⟨.hbm, 208, rfl⟩
abbrev main_call6_v10 : Ref sig .tc := ⟨.hbm, 209, rfl⟩
abbrev main_v140 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1536x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1536x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1536x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1536x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S12000x12000 : S_.BroadcastsInDim S12000x12000 (![] : Fin 0 → Fin S12000x12000.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bcast_S_S12000 : S_.BroadcastsInDim S12000 (![] : Fin 0 → Fin S12000.rank)
  bcast_S12000_S12000x1_0 : S12000.BroadcastsInDim S12000x1 (![0] : Fin 1 → Fin S12000x1.rank)
  concatenates_S12000x1_S12000x1_S12000x2_d1 : Shape.Concatenates [S12000x1, S12000x1] S12000x2 1
  reducesTo_S12000x12000_S12000_d1 : S12000x12000.ReducesTo [1] S12000
  h_S_ : 0 < S_.numel
  bcast_S12000x1_S12000x12000_0_1 : S12000x1.BroadcastsInDim S12000x12000 (![0, 1] : Fin 2 → Fin S12000x12000.rank)
  bcast_S12000_S1x12000_1 : S12000.BroadcastsInDim S1x12000 (![1] : Fin 1 → Fin S1x12000.rank)
  bcast_S1x12000_S12000x12000_0_1 : S1x12000.BroadcastsInDim S12000x12000 (![0, 1] : Fin 2 → Fin S12000x12000.rank)
  bitsLt_bf16_f32 : FTy.bits .bf16 < FTy.bits .f32
  pads_S12000x12000_S12288x12288_02880_02880 : S12000x12000.Pads (![0, 0] : Fin 2 → Nat) ![288, 288] ![0, 0] S12288x12288
  pads_S12000x32_S12288x32_02880_000 : S12000x32.Pads (![0, 0] : Fin 2 → Nat) ![288, 0] ![0, 0] S12288x32
  shapeCasts_S32_S1x32 : S32.ShapeCasts S1x32
  inb_S1536x32_S1536x32_0_0 : ∀ a, (![0, 0] : Fin 2 → Nat) a + S1536x32.size a ≤ S1536x32.size a
  h_S1536x32 : 0 < S1536x32.numel
  shapeCasts_S1536x32_S1536x32 : S1536x32.ShapeCasts S1536x32
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1536x32 : S1x32.Broadcasts S1536x32
  slices_S12288x32_S12000x32_0_0 : S12288x32.Slices ![0, 0] S12000x32
  pads_S12000x64_S12288x64_02880_000 : S12000x64.Pads (![0, 0] : Fin 2 → Nat) ![288, 0] ![0, 0] S12288x64
  shapeCasts_S64_S1x64 : S64.ShapeCasts S1x64
  inb_S1536x64_S1536x64_0_0 : ∀ a, (![0, 0] : Fin 2 → Nat) a + S1536x64.size a ≤ S1536x64.size a
  h_S1536x64 : 0 < S1536x64.numel
  shapeCasts_S1536x64_S1536x64 : S1536x64.ShapeCasts S1536x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1536x64 : S1x64.Broadcasts S1536x64
  slices_S12288x64_S12000x64_0_0 : S12288x64.Slices ![0, 0] S12000x64
  concatenates_S400000_S12000_S412000_d0 : Shape.Concatenates [S400000, S12000] S412000 0
  bcast_S_S412000 : S_.BroadcastsInDim S412000 (![] : Fin 0 → Fin S412000.rank)
  bcast_S412000_S412000x1_0 : S412000.BroadcastsInDim S412000x1 (![0] : Fin 1 → Fin S412000x1.rank)
  bcast_S412000x1_S412000x128_0_1 : S412000x1.BroadcastsInDim S412000x128 (![0, 1] : Fin 2 → Fin S412000x128.rank)
  bcast_S_S12000x128 : S_.BroadcastsInDim S12000x128 (![] : Fin 0 → Fin S12000x128.rank)
  bcast_S128_S1x128_1 : S128.BroadcastsInDim S1x128 (![1] : Fin 1 → Fin S1x128.rank)
  bcast_S1x128_S12000x128_0_1 : S1x128.BroadcastsInDim S12000x128 (![0, 1] : Fin 2 → Fin S12000x128.rank)
  bcast_S412000x1_S412000x6_0_1 : S412000x1.BroadcastsInDim S412000x6 (![0, 1] : Fin 2 → Fin S412000x6.rank)
  bcast_S_S12000x6 : S_.BroadcastsInDim S12000x6 (![] : Fin 0 → Fin S12000x6.rank)
  bcast_S6_S1x6_1 : S6.BroadcastsInDim S1x6 (![1] : Fin 1 → Fin S1x6.rank)
  bcast_S1x6_S12000x6_0_1 : S1x6.BroadcastsInDim S12000x6 (![0, 1] : Fin 2 → Fin S12000x6.rank)
  reducesTo_S12000x6_S12000_d1 : S12000x6.ReducesTo [1] S12000
  bcast_S12000x1_S12000x6_0_1 : S12000x1.BroadcastsInDim S12000x6 (![0, 1] : Fin 2 → Fin S12000x6.rank)
  scatter_S12000x12000_S400000x2_S400000_n_01_01_1_wf : ScatterDims.WF S12000x12000 S400000x2 S400000 [] [0, 1] [0, 1] 1
  scatter_S12000x12000_S12000x2_S12000_n_01_01_1_wf : ScatterDims.WF S12000x12000 S12000x2 S12000 [] [0, 1] [0, 1] 1
  dot_S12000x512_S512x32_S12000x32_1_0_0_1_n_n_wf : DotDims.WF S12000x512 S512x32 S12000x32 [1] [0] [0] [1] [] []
  dot_S1536x1536_S1536x32_S1536x32_1_0_0_1_n_n_wf : DotDims.WF S1536x1536 S1536x32 S1536x32 [1] [0] [0] [1] [] []
  dot_S12000x32_S32x64_S12000x64_1_0_0_1_n_n_wf : DotDims.WF S12000x32 S32x64 S12000x64 [1] [0] [0] [1] [] []
  dot_S1536x1536_S1536x64_S1536x64_1_0_0_1_n_n_wf : DotDims.WF S1536x1536 S1536x64 S1536x64 [1] [0] [0] [1] [] []
  scatter_S12000_S412000x1_S412000_n_0_0_1_wf : ScatterDims.WF S12000 S412000x1 S412000 [] [0] [0] 1
  gather_S12000_S412000x1_S412000_n_0_n_n_0_1_1_wf : GatherDims.WF S12000 S412000x1 S412000 [] [0] [] [0] [] 1 ![1]
  dot_S12000x64_S64x128_S12000x128_1_0_0_1_n_n_wf : DotDims.WF S12000x64 S64x128 S12000x128 [1] [0] [0] [1] [] []
  gather_S12000x128_S412000x1_S412000x128_1_0_n_n_0_1_1128_wf : GatherDims.WF S12000x128 S412000x1 S412000x128 [1] [0] [] [0] [] 1 ![1, 128]
  scatter_S12000x128_S412000x1_S412000x128_1_0_0_1_wf : ScatterDims.WF S12000x128 S412000x1 S412000x128 [1] [0] [0] 1
  dot_S12000x128_S128x128_S12000x128_1_0_0_1_n_n_wf : DotDims.WF S12000x128 S128x128 S12000x128 [1] [0] [0] [1] [] []
  dot_S12000x128_S128x6_S12000x6_1_0_0_1_n_n_wf : DotDims.WF S12000x128 S128x6 S12000x6 [1] [0] [0] [1] [] []
  gather_S12000x6_S412000x1_S412000x6_1_0_n_n_0_1_16_wf : GatherDims.WF S12000x6 S412000x1 S412000x6 [1] [0] [] [0] [] 1 ![1, 6]
  scatter_S12000x6_S412000x1_S412000x6_1_0_0_1_wf : ScatterDims.WF S12000x6 S412000x1 S412000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x1536.size a ≤ S12288x12288.size a
  hwx0_0 : ∀ i : grid0.Coords, EltTy.bits .bf16 = 32 ∨ (Rect.block (s := S12288x12288) S1536x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x32.size a ≤ S12288x32.size a
  hwx0_1 : ∀ i : grid0.Coords, EltTy.bits .bf16 = 32 ∨ (Rect.block (s := S12288x32) S1536x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1536x32.size a ≤ S12288x32.size a
  hwx0_3 : ∀ i : grid0.Coords, EltTy.bits .f32 = 32 ∨ (Rect.block (s := S12288x32) S1536x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x1536.size a ≤ S12288x12288.size a
  hwx1_0 : ∀ i : grid1.Coords, EltTy.bits .bf16 = 32 ∨ (Rect.block (s := S12288x12288) S1536x1536.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x64.size a ≤ S12288x64.size a
  hwx1_1 : ∀ i : grid1.Coords, EltTy.bits .bf16 = 32 ∨ (Rect.block (s := S12288x64) S1536x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1536x64.size a ≤ S12288x64.size a
  hwx1_3 : ∀ i : grid1.Coords, EltTy.bits .f32 = 32 ∨ (Rect.block (s := S12288x64) S1536x64.size (cc1_transform_3 i) (hinb1_3 i)).WholeWords (EltTy.packing .f32)

variable [Facts₀]

def scatter_S12000x12000_S400000x2_S400000_n_01_01_1 : ScatterDims S12000x12000 S400000x2 S400000 where
  updateWindowDims := []
  insertedWindowDims := [0, 1]
  scatterDimsToOperandDims := [0, 1]
  indexVectorDim := 1
  wf := scatter_S12000x12000_S400000x2_S400000_n_01_01_1_wf
def scatter_S12000x12000_S12000x2_S12000_n_01_01_1 : ScatterDims S12000x12000 S12000x2 S12000 where
  updateWindowDims := []
  insertedWindowDims := [0, 1]
  scatterDimsToOperandDims := [0, 1]
  indexVectorDim := 1
  wf := scatter_S12000x12000_S12000x2_S12000_n_01_01_1_wf
def dot_S12000x512_S512x32_S12000x32_1_0_0_1_n_n : DotDims S12000x512 S512x32 S12000x32 where
  lhsContracting := [1]
  rhsContracting := [0]
  lhsNonContracting := [0]
  rhsNonContracting := [1]
  lhsBatch := []
  rhsBatch := []
  wf := dot_S12000x512_S512x32_S12000x32_1_0_0_1_n_n_wf
def dot_S1536x1536_S1536x32_S1536x32_1_0_0_1_n_n : DotDims S1536x1536 S1536x32 S1536x32 where
  lhsContracting := [1]
  rhsContracting := [0]
  lhsNonContracting := [0]
  rhsNonContracting := [1]
  lhsBatch := []
  rhsBatch := []
  wf := dot_S1536x1536_S1536x32_S1536x32_1_0_0_1_n_n_wf
def dot_S12000x32_S32x64_S12000x64_1_0_0_1_n_n : DotDims S12000x32 S32x64 S12000x64 where
  lhsContracting := [1]
  rhsContracting := [0]
  lhsNonContracting := [0]
  rhsNonContracting := [1]
  lhsBatch := []
  rhsBatch := []
  wf := dot_S12000x32_S32x64_S12000x64_1_0_0_1_n_n_wf
def dot_S1536x1536_S1536x64_S1536x64_1_0_0_1_n_n : DotDims S1536x1536 S1536x64 S1536x64 where
  lhsContracting := [1]
  rhsContracting := [0]
  lhsNonContracting := [0]
  rhsNonContracting := [1]
  lhsBatch := []
  rhsBatch := []
  wf := dot_S1536x1536_S1536x64_S1536x64_1_0_0_1_n_n_wf
def scatter_S12000_S412000x1_S412000_n_0_0_1 : ScatterDims S12000 S412000x1 S412000 where
  updateWindowDims := []
  insertedWindowDims := [0]
  scatterDimsToOperandDims := [0]
  indexVectorDim := 1
  wf := scatter_S12000_S412000x1_S412000_n_0_0_1_wf
def gather_S12000_S412000x1_S412000_n_0_n_n_0_1_1 : GatherDims S12000 S412000x1 S412000 where
  offsetDims := []
  collapsedSliceDims := [0]
  operandBatchingDims := []
  startIndicesBatchingDims := []
  startIndexMap := [0]
  indexVectorDim := 1
  sliceSizes := ![1]
  wf := gather_S12000_S412000x1_S412000_n_0_n_n_0_1_1_wf
def dot_S12000x64_S64x128_S12000x128_1_0_0_1_n_n : DotDims S12000x64 S64x128 S12000x128 where
  lhsContracting := [1]
  rhsContracting := [0]
  lhsNonContracting := [0]
  rhsNonContracting := [1]
  lhsBatch := []
  rhsBatch := []
  wf := dot_S12000x64_S64x128_S12000x128_1_0_0_1_n_n_wf
def gather_S12000x128_S412000x1_S412000x128_1_0_n_n_0_1_1128 : GatherDims S12000x128 S412000x1 S412000x128 where
  offsetDims := [1]
  collapsedSliceDims := [0]
  operandBatchingDims := []
  startIndicesBatchingDims := []
  startIndexMap := [0]
  indexVectorDim := 1
  sliceSizes := ![1, 128]
  wf := gather_S12000x128_S412000x1_S412000x128_1_0_n_n_0_1_1128_wf
def scatter_S12000x128_S412000x1_S412000x128_1_0_0_1 : ScatterDims S12000x128 S412000x1 S412000x128 where
  updateWindowDims := [1]
  insertedWindowDims := [0]
  scatterDimsToOperandDims := [0]
  indexVectorDim := 1
  wf := scatter_S12000x128_S412000x1_S412000x128_1_0_0_1_wf
def dot_S12000x128_S128x128_S12000x128_1_0_0_1_n_n : DotDims S12000x128 S128x128 S12000x128 where
  lhsContracting := [1]
  rhsContracting := [0]
  lhsNonContracting := [0]
  rhsNonContracting := [1]
  lhsBatch := []
  rhsBatch := []
  wf := dot_S12000x128_S128x128_S12000x128_1_0_0_1_n_n_wf
def dot_S12000x128_S128x6_S12000x6_1_0_0_1_n_n : DotDims S12000x128 S128x6 S12000x6 where
  lhsContracting := [1]
  rhsContracting := [0]
  lhsNonContracting := [0]
  rhsNonContracting := [1]
  lhsBatch := []
  rhsBatch := []
  wf := dot_S12000x128_S128x6_S12000x6_1_0_0_1_n_n_wf
def gather_S12000x6_S412000x1_S412000x6_1_0_n_n_0_1_16 : GatherDims S12000x6 S412000x1 S412000x6 where
  offsetDims := [1]
  collapsedSliceDims := [0]
  operandBatchingDims := []
  startIndicesBatchingDims := []
  startIndexMap := [0]
  indexVectorDim := 1
  sliceSizes := ![1, 6]
  wf := gather_S12000x6_S412000x1_S412000x6_1_0_n_n_0_1_16_wf
def scatter_S12000x6_S412000x1_S412000x6_1_0_0_1 : ScatterDims S12000x6 S412000x1 S412000x6 where
  updateWindowDims := [1]
  insertedWindowDims := [0]
  scatterDimsToOperandDims := [0]
  indexVectorDim := 1
  wf := scatter_S12000x6_S412000x1_S412000x6_1_0_0_1_wf

abbrev win0_0 : Pipeline.Window sig grid0 :=
  Pipeline.Window.ofSpec (Memref.whole main_v48) S1536x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S1536x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1536x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v48) S1536x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1536x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1536x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S12000x512 : Shape := ⟨2, ![12000, 512]⟩
abbrev S2x400000 : Shape := ⟨2, ![2, 400000]⟩
abbrev S512x32 : Shape := ⟨2, ![512, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S1x400000 : Shape := ⟨2, ![1, 400000]⟩
abbrev S400000 : Shape := ⟨1, ![400000]⟩
abbrev S12000 : Shape := ⟨1, ![12000]⟩
abbrev S_ : Shape := ⟨0, ![]⟩
abbrev S12000x12000 : Shape := ⟨2, ![12000, 12000]⟩
abbrev S400000x1 : Shape := ⟨2, ![400000, 1]⟩
abbrev S400000x2 : Shape := ⟨2, ![400000, 2]⟩
abbrev S12000x1 : Shape := ⟨2, ![12000, 1]⟩
abbrev S12000x2 : Shape := ⟨2, ![12000, 2]⟩
abbrev S1x12000 : Shape := ⟨2, ![1, 12000]⟩
abbrev S12000x32 : Shape := ⟨2, ![12000, 32]⟩
abbrev S1x32 : Shape := ⟨2, ![1, 32]⟩
abbrev S12000x64 : Shape := ⟨2, ![12000, 64]⟩
abbrev S1x64 : Shape := ⟨2, ![1, 64]⟩
abbrev S412000 : Shape := ⟨1, ![412000]⟩
abbrev S412000x1 : Shape := ⟨2, ![412000, 1]⟩
abbrev S12000x128 : Shape := ⟨2, ![12000, 128]⟩
abbrev S412000x128 : Shape := ⟨2, ![412000, 128]⟩
abbrev S1x128 : Shape := ⟨2, ![1, 128]⟩
abbrev S12000x6 : Shape := ⟨2, ![12000, 6]⟩
abbrev S412000x6 : Shape := ⟨2, ![412000, 6]⟩
abbrev S1x6 : Shape := ⟨2, ![1, 6]⟩

abbrev nBuf : Space → Nat
  | .hbm => 207
  | .vmem => 0
  | .smem => 0
  | _ => 0

abbrev hbmTy0_0 (i : Nat) : BufTy := match i % 128 with
  | 0 => ⟨S12000x512, .f32⟩
  | 1 => ⟨S2x400000, .i32⟩
  | 2 => ⟨S512x32, .f32⟩
  | 3 => ⟨S32, .f32⟩
  | 4 => ⟨S32x64, .f32⟩
  | 5 => ⟨S64, .f32⟩
  | 6 => ⟨S64x128, .f32⟩
  | 7 => ⟨S128, .f32⟩
  | 8 => ⟨S128x128, .f32⟩
  | 9 => ⟨S128, .f32⟩
  | 10 => ⟨S128x6, .f32⟩
  | 11 => ⟨S6, .f32⟩
  | 12 => ⟨S1x400000, .i32⟩
  | 13 => ⟨S400000, .i32⟩
  | 14 => ⟨S1x400000, .i32⟩
  | 15 => ⟨S400000, .i32⟩
  | 16 => ⟨S12000, .i32⟩
  | 17 => ⟨S_, .f32⟩
  | 18 => ⟨S12000x12000, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x1, .i32⟩
  | 35 => ⟨S400000x2, .i32⟩
  | 36 => ⟨S_, .f32⟩
  | 37 => ⟨S400000, .f32⟩
  | 38 => ⟨S12000x12000, .f32⟩
  | 39 => ⟨S_, .i32⟩
  | 40 => ⟨S12000, .i32⟩
  | 41 => ⟨S12000, .i1⟩
  | 42 => ⟨S_, .i32⟩
  | 43 => ⟨S12000, .i32⟩
  | 44 => ⟨S12000, .i32⟩
  | 45 => ⟨S12000, .i32⟩
  | 46 => ⟨S_, .i32⟩
  | 47 => ⟨S12000, .i32⟩
  | 48 => ⟨S12000, .i1⟩
  | 49 => ⟨S_, .i32⟩
  | 50 => ⟨S12000, .i32⟩
  | 51 => ⟨S12000, .i32⟩
  | 52 => ⟨S12000, .i32⟩
  | 53 => ⟨S12000x1, .i32⟩
  | 54 => ⟨S12000x1, .i32⟩
  | 55 => ⟨S12000x2, .i32⟩
  | 56 => ⟨S_, .f32⟩
  | 57 => ⟨S12000, .f32⟩
  | 58 => ⟨S12000x12000, .f32⟩
  | 59 => ⟨S_, .f32⟩
  | 60 => ⟨S12000, .f32⟩
  | 61 => ⟨S_, .f32⟩
  | 62 => ⟨S12000, .f32⟩
  | 63 => ⟨S12000, .f32⟩
  | 64 => ⟨S_, .f32⟩
  | 65 => ⟨S12000, .f32⟩
  | 66 => ⟨S12000, .f32⟩
  | 67 => ⟨S12000x1, .f32⟩
  | 68 => ⟨S12000x12000, .f32⟩
  | 69 => ⟨S12000x12000, .f32⟩
  | 70 => ⟨S1x12000, .f32⟩
  | 71 => ⟨S12000x12000, .f32⟩
  | 72 => ⟨S12000x12000, .f32⟩
  | 73 => ⟨S12000x32, .f32⟩
  | 74 => ⟨S12000x32, .f32⟩
  | 75 => ⟨S1x32, .f32⟩
  | 76 => ⟨S12000x32, .f32⟩
  | 77 => ⟨S12000x32, .f32⟩
  | 78 => ⟨S_, .f32⟩
  | 79 => ⟨S12000x32, .f32⟩
  | 80 => ⟨S12000x32, .f32⟩
  | 81 => ⟨S12000x64, .f32⟩
  | 82 => ⟨S12000x64, .f32⟩
  | 83 => ⟨S1x64, .f32⟩
  | 84 => ⟨S12000x64, .f32⟩
  | 85 => ⟨S12000x64, .f32⟩
  | 86 => ⟨S_, .f32⟩
  | 87 => ⟨S12000x64, .f32⟩
  | 88 => ⟨S12000x64, .f32⟩
  | 89 => ⟨S412000, .i32⟩
  | 90 => ⟨S412000, .i32⟩
  | 91 => ⟨S_, .f32⟩
  | 92 => ⟨S412000, .f32⟩
  | 93 => ⟨S_, .f32⟩
  | 94 => ⟨S12000, .f32⟩
  | 95 => ⟨S412000x1, .i32⟩
  | 96 => ⟨S12000, .f32⟩
  | 97 => ⟨S_, .f32⟩
  | 98 => ⟨S12000, .f32⟩
  | 99 => ⟨S12000, .i1⟩
  | 100 => ⟨S_, .f32⟩
  | 101 => ⟨S12000, .f32⟩
  | 102 => ⟨S12000, .f32⟩
  | 103 => ⟨S_, .f32⟩
  | 104 => ⟨S_, .f32⟩
  | 105 => ⟨S12000, .f32⟩
  | 106 => ⟨S12000, .f32⟩
  | 107 => ⟨S_, .i32⟩
  | 108 => ⟨S412000, .i32⟩
  | 109 => ⟨S412000, .i1⟩
  | 110 => ⟨S_, .i32⟩
  | 111 => ⟨S412000, .i32⟩
  | 112 => ⟨S412000, .i32⟩
  | 113 => ⟨S412000, .i32⟩
  | 114 => ⟨S412000x1, .i32⟩
  | 115 => ⟨S412000, .f32⟩
  | 116 => ⟨S_, .i32⟩
  | 117 => ⟨S412000, .i32⟩
  | 118 => ⟨S412000, .i1⟩
  | 119 => ⟨S_, .i32⟩
  | 120 => ⟨S412000, .i32⟩
  | 121 => ⟨S412000, .i32⟩
  | 122 => ⟨S412000, .i32⟩
  | 123 => ⟨S412000x1, .i32⟩
  | 124 => ⟨S412000, .f32⟩
  | 125 => ⟨S412000, .f32⟩
  | 126 => ⟨S12000x128, .f32⟩
  | 127 => ⟨S412000x1, .f32⟩
  | _ => ⟨S12000x512, .f32⟩

abbrev hbmTy0_1 (i : Nat) : BufTy := match i % 128 with
  | 0 => ⟨S_, .i32⟩
  | 1 => ⟨S412000, .i32⟩
  | 2 => ⟨S412000, .i1⟩
  | 3 => ⟨S_, .i32⟩
  | 4 => ⟨S412000, .i32⟩
  | 5 => ⟨S412000, .i32⟩
  | 6 => ⟨S412000, .i32⟩
  | 7 => ⟨S412000x1, .i32⟩
  | 8 => ⟨S412000x128, .f32⟩
  | 9 => ⟨S412000x128, .f32⟩
  | 10 => ⟨S412000x128, .f32⟩
  | 11 => ⟨S_, .f32⟩
  | 12 => ⟨S12000x128, .f32⟩
  | 13 => ⟨S412000x1, .i32⟩
  | 14 => ⟨S12000x128, .f32⟩
  | 15 => ⟨S1x128, .f32⟩
  | 16 => ⟨S12000x128, .f32⟩
  | 17 => ⟨S12000x128, .f32⟩
  | 18 => ⟨S_, .f32⟩
  | 19 => ⟨S12000x128, .f32⟩
  | 20 => ⟨S12000x128, .f32⟩
  | 21 => ⟨S12000x128, .f32⟩
  | 22 => ⟨S412000x1, .f32⟩
  | 23 => ⟨S_, .i32⟩
  | 24 => ⟨S412000, .i32⟩
  | 25 => ⟨S412000, .i1⟩
  | 26 => ⟨S_, .i32⟩
  | 27 => ⟨S412000, .i32⟩
  | 28 => ⟨S412000, .i32⟩
  | 29 => ⟨S412000, .i32⟩
  | 30 => ⟨S412000x1, .i32⟩
  | 31 => ⟨S412000x128, .f32⟩
  | 32 => ⟨S412000x128, .f32⟩
  | 33 => ⟨S412000x128, .f32⟩
  | 34 => ⟨S_, .f32⟩
  | 35 => ⟨S12000x128, .f32⟩
  | 36 => ⟨S412000x1, .i32⟩
  | 37 => ⟨S12000x128, .f32⟩
  | 38 => ⟨S1x128, .f32⟩
  | 39 => ⟨S12000x128, .f32⟩
  | 40 => ⟨S12000x128, .f32⟩
  | 41 => ⟨S_, .f32⟩
  | 42 => ⟨S12000x128, .f32⟩
  | 43 => ⟨S12000x128, .f32⟩
  | 44 => ⟨S12000x6, .f32⟩
  | 45 => ⟨S412000x1, .f32⟩
  | 46 => ⟨S_, .i32⟩
  | 47 => ⟨S412000, .i32⟩
  | 48 => ⟨S412000, .i1⟩
  | 49 => ⟨S_, .i32⟩
  | 50 => ⟨S412000, .i32⟩
  | 51 => ⟨S412000, .i32⟩
  | 52 => ⟨S412000, .i32⟩
  | 53 => ⟨S412000x1, .i32⟩
  | 54 => ⟨S412000x6, .f32⟩
  | 55 => ⟨S412000x6, .f32⟩
  | 56 => ⟨S412000x6, .f32⟩
  | 57 => ⟨S_, .f32⟩
  | 58 => ⟨S12000x6, .f32⟩
  | 59 => ⟨S412000x1, .i32⟩
  | 60 => ⟨S12000x6, .f32⟩
  | 61 => ⟨S1x6, .f32⟩
  | 62 => ⟨S12000x6, .f32⟩
  | 63 => ⟨S12000x6, .f32⟩
  | 64 => ⟨S_, .f32⟩
  | 65 => ⟨S12000, .f32⟩
  | 66 => ⟨S_, .f32⟩
  | 67 => ⟨S12000, .f32⟩
  | 68 => ⟨S12000, .f32⟩
  | 69 => ⟨S12000x1, .f32⟩
  | 70 => ⟨S12000x6, .f32⟩
  | 71 => ⟨S12000x6, .f32⟩
  | 72 => ⟨S12000x6, .f32⟩
  | 73 => ⟨S_, .f32⟩
  | 74 => ⟨S12000, .f32⟩
  | 75 => ⟨S12000x1, .f32⟩
  | 76 => ⟨S12000x1, .f32⟩
  | 77 => ⟨S12000x6, .f32⟩
  | 78 => ⟨S12000x6, .f32⟩
  | _ => ⟨S12000x512, .f32⟩

abbrev hbmTy (i : Nat) : BufTy := match i / 128 with
  | 0 => hbmTy0_0 i
  | 1 => hbmTy0_1 i
  | _ => ⟨S12000x512, .f32⟩

abbrev bufTy : (tb : Table) → Fin (tcTables nBuf tb) → BufTy
  | .hbm, ⟨i, _⟩ => hbmTy i
  | _, _ => ⟨S12000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call0_cst : Ref sig .tc := ⟨.hbm, 78, rfl⟩
abbrev main_call0_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call1_cst : Ref sig .tc := ⟨.hbm, 86, rfl⟩
abbrev main_call1_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_cst_15 : Ref sig .tc := ⟨.hbm, 100, rfl⟩
abbrev main_v67 : Ref sig .tc := ⟨.hbm, 101, rfl⟩
abbrev main_v68 : Ref sig .tc := ⟨.hbm, 102, rfl⟩
abbrev main_cst_16 : Ref sig .tc := ⟨.hbm, 103, rfl⟩
abbrev main_call2_v0 : Ref sig .tc := ⟨.hbm, 104, rfl⟩
abbrev main_call2_v1 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_c_18 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_19 : Ref sig .tc := ⟨.hbm, 116, rfl⟩
abbrev main_v77 : Ref sig .tc := ⟨.hbm, 117, rfl⟩
abbrev main_v78 : Ref sig .tc := ⟨.hbm, 118, rfl⟩
abbrev main_c_20 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_21 : Ref sig .tc := ⟨.hbm, 128, rfl⟩
abbrev main_v87 : Ref sig .tc := ⟨.hbm, 129, rfl⟩
abbrev main_v88 : Ref sig .tc := ⟨.hbm, 130, rfl⟩
abbrev main_c_22 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_23 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call3_cst : Ref sig .tc := ⟨.hbm, 146, rfl⟩
abbrev main_call3_v0 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_24 : Ref sig .tc := ⟨.hbm, 151, rfl⟩
abbrev main_v105 : Ref sig .tc := ⟨.hbm, 152, rfl⟩
abbrev main_v106 : Ref sig .tc := ⟨.hbm, 153, rfl⟩
abbrev main_c_25 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_26 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_call4_cst : Ref sig .tc := ⟨.hbm, 169, rfl⟩
abbrev main_call4_v0 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_27 : Ref sig .tc := ⟨.hbm, 174, rfl⟩
abbrev main_v123 : Ref sig .tc := ⟨.hbm, 175, rfl⟩
abbrev main_v124 : Ref sig .tc := ⟨.hbm, 176, rfl⟩
abbrev main_c_28 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_29 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_call5_cst : Ref sig .tc := ⟨.hbm, 192, rfl⟩
abbrev main_call5_v0 : Ref sig .tc := ⟨.hbm, 193, rfl⟩
abbrev main_call5_cst_0 : Ref sig .tc := ⟨.hbm, 194, rfl⟩
abbrev main_call5_v1 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_v6 : Ref sig .tc := ⟨.hbm, 200, rfl⟩
abbrev main_call5_cst_1 : Ref sig .tc := ⟨.hbm, 201, rfl⟩
abbrev main_call5_v7 : Ref sig .tc := ⟨.hbm, 202, rfl⟩
abbrev main_call5_v8 : Ref sig .tc := ⟨.hbm, 203, rfl⟩
abbrev main_call5_v9 : Ref sig .tc := ⟨.hbm, 204, rfl⟩
abbrev main_call5_v10 : Ref sig .tc := ⟨.hbm, 205, rfl⟩
abbrev main_v138 : Ref sig .tc := ⟨.hbm, 206, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S12000x12000 : S_.BroadcastsInDim S12000x12000 (![] : Fin 0 → Fin S12000x12000.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bcast_S_S12000 : S_.BroadcastsInDim S12000 (![] : Fin 0 → Fin S12000.rank)
  bcast_S12000_S12000x1_0 : S12000.BroadcastsInDim S12000x1 (![0] : Fin 1 → Fin S12000x1.rank)
  concatenates_S12000x1_S12000x1_S12000x2_d1 : Shape.Concatenates [S12000x1, S12000x1] S12000x2 1
  reducesTo_S12000x12000_S12000_d1 : S12000x12000.ReducesTo [1] S12000
  h_S_ : 0 < S_.numel
  bcast_S12000x1_S12000x12000_0_1 : S12000x1.BroadcastsInDim S12000x12000 (![0, 1] : Fin 2 → Fin S12000x12000.rank)
  bcast_S12000_S1x12000_1 : S12000.BroadcastsInDim S1x12000 (![1] : Fin 1 → Fin S1x12000.rank)
  bcast_S1x12000_S12000x12000_0_1 : S1x12000.BroadcastsInDim S12000x12000 (![0, 1] : Fin 2 → Fin S12000x12000.rank)
  bcast_S32_S1x32_1 : S32.BroadcastsInDim S1x32 (![1] : Fin 1 → Fin S1x32.rank)
  bcast_S1x32_S12000x32_0_1 : S1x32.BroadcastsInDim S12000x32 (![0, 1] : Fin 2 → Fin S12000x32.rank)
  bcast_S_S12000x32 : S_.BroadcastsInDim S12000x32 (![] : Fin 0 → Fin S12000x32.rank)
  bcast_S64_S1x64_1 : S64.BroadcastsInDim S1x64 (![1] : Fin 1 → Fin S1x64.rank)
  bcast_S1x64_S12000x64_0_1 : S1x64.BroadcastsInDim S12000x64 (![0, 1] : Fin 2 → Fin S12000x64.rank)
  bcast_S_S12000x64 : S_.BroadcastsInDim S12000x64 (![] : Fin 0 → Fin S12000x64.rank)
  concatenates_S400000_S12000_S412000_d0 : Shape.Concatenates [S400000, S12000] S412000 0
  bcast_S_S412000 : S_.BroadcastsInDim S412000 (![] : Fin 0 → Fin S412000.rank)
  bcast_S412000_S412000x1_0 : S412000.BroadcastsInDim S412000x1 (![0] : Fin 1 → Fin S412000x1.rank)
  bcast_S412000x1_S412000x128_0_1 : S412000x1.BroadcastsInDim S412000x128 (![0, 1] : Fin 2 → Fin S412000x128.rank)
  bcast_S_S12000x128 : S_.BroadcastsInDim S12000x128 (![] : Fin 0 → Fin S12000x128.rank)
  bcast_S128_S1x128_1 : S128.BroadcastsInDim S1x128 (![1] : Fin 1 → Fin S1x128.rank)
  bcast_S1x128_S12000x128_0_1 : S1x128.BroadcastsInDim S12000x128 (![0, 1] : Fin 2 → Fin S12000x128.rank)
  bcast_S412000x1_S412000x6_0_1 : S412000x1.BroadcastsInDim S412000x6 (![0, 1] : Fin 2 → Fin S412000x6.rank)
  bcast_S_S12000x6 : S_.BroadcastsInDim S12000x6 (![] : Fin 0 → Fin S12000x6.rank)
  bcast_S6_S1x6_1 : S6.BroadcastsInDim S1x6 (![1] : Fin 1 → Fin S1x6.rank)
  bcast_S1x6_S12000x6_0_1 : S1x6.BroadcastsInDim S12000x6 (![0, 1] : Fin 2 → Fin S12000x6.rank)
  reducesTo_S12000x6_S12000_d1 : S12000x6.ReducesTo [1] S12000
  bcast_S12000x1_S12000x6_0_1 : S12000x1.BroadcastsInDim S12000x6 (![0, 1] : Fin 2 → Fin S12000x6.rank)
  scatter_S12000x12000_S400000x2_S400000_n_01_01_1_wf : ScatterDims.WF S12000x12000 S400000x2 S400000 [] [0, 1] [0, 1] 1
  scatter_S12000x12000_S12000x2_S12000_n_01_01_1_wf : ScatterDims.WF S12000x12000 S12000x2 S12000 [] [0, 1] [0, 1] 1
  dot_S12000x512_S512x32_S12000x32_1_0_0_1_n_n_wf : DotDims.WF S12000x512 S512x32 S12000x32 [1] [0] [0] [1] [] []
  dot_S12000x12000_S12000x32_S12000x32_1_0_0_1_n_n_wf : DotDims.WF S12000x12000 S12000x32 S12000x32 [1] [0] [0] [1] [] []
  dot_S12000x32_S32x64_S12000x64_1_0_0_1_n_n_wf : DotDims.WF S12000x32 S32x64 S12000x64 [1] [0] [0] [1] [] []
  dot_S12000x12000_S12000x64_S12000x64_1_0_0_1_n_n_wf : DotDims.WF S12000x12000 S12000x64 S12000x64 [1] [0] [0] [1] [] []
  scatter_S12000_S412000x1_S412000_n_0_0_1_wf : ScatterDims.WF S12000 S412000x1 S412000 [] [0] [0] 1
  gather_S12000_S412000x1_S412000_n_0_n_n_0_1_1_wf : GatherDims.WF S12000 S412000x1 S412000 [] [0] [] [0] [] 1 ![1]
  dot_S12000x64_S64x128_S12000x128_1_0_0_1_n_n_wf : DotDims.WF S12000x64 S64x128 S12000x128 [1] [0] [0] [1] [] []
  gather_S12000x128_S412000x1_S412000x128_1_0_n_n_0_1_1128_wf : GatherDims.WF S12000x128 S412000x1 S412000x128 [1] [0] [] [0] [] 1 ![1, 128]
  scatter_S12000x128_S412000x1_S412000x128_1_0_0_1_wf : ScatterDims.WF S12000x128 S412000x1 S412000x128 [1] [0] [0] 1
  dot_S12000x128_S128x128_S12000x128_1_0_0_1_n_n_wf : DotDims.WF S12000x128 S128x128 S12000x128 [1] [0] [0] [1] [] []
  dot_S12000x128_S128x6_S12000x6_1_0_0_1_n_n_wf : DotDims.WF S12000x128 S128x6 S12000x6 [1] [0] [0] [1] [] []
  gather_S12000x6_S412000x1_S412000x6_1_0_n_n_0_1_16_wf : GatherDims.WF S12000x6 S412000x1 S412000x6 [1] [0] [] [0] [] 1 ![1, 6]
  scatter_S12000x6_S412000x1_S412000x6_1_0_0_1_wf : ScatterDims.WF S12000x6 S412000x1 S412000x6 [1] [0] [0] 1

variable [Facts₀]

def scatter_S12000x12000_S400000x2_S400000_n_01_01_1 : ScatterDims S12000x12000 S400000x2 S400000 where
  updateWindowDims := []
  insertedWindowDims := [0, 1]
  scatterDimsToOperandDims := [0, 1]
  indexVectorDim := 1
  wf := scatter_S12000x12000_S400000x2_S400000_n_01_01_1_wf
def scatter_S12000x12000_S12000x2_S12000_n_01_01_1 : ScatterDims S12000x12000 S12000x2 S12000 where
  updateWindowDims := []
  insertedWindowDims := [0, 1]
  scatterDimsToOperandDims := [0, 1]
  indexVectorDim := 1
  wf := scatter_S12000x12000_S12000x2_S12000_n_01_01_1_wf
def dot_S12000x512_S512x32_S12000x32_1_0_0_1_n_n : DotDims S12000x512 S512x32 S12000x32 where
  lhsContracting := [1]
  rhsContracting := [0]
  lhsNonContracting := [0]
  rhsNonContracting := [1]
  lhsBatch := []
  rhsBatch := []
  wf := dot_S12000x512_S512x32_S12000x32_1_0_0_1_n_n_wf
def dot_S12000x12000_S12000x32_S12000x32_1_0_0_1_n_n : DotDims S12000x12000 S12000x32 S12000x32 where
  lhsContracting := [1]
  rhsContracting := [0]
  lhsNonContracting := [0]
  rhsNonContracting := [1]
  lhsBatch := []
  rhsBatch := []
  wf := dot_S12000x12000_S12000x32_S12000x32_1_0_0_1_n_n_wf
def dot_S12000x32_S32x64_S12000x64_1_0_0_1_n_n : DotDims S12000x32 S32x64 S12000x64 where
  lhsContracting := [1]
  rhsContracting := [0]
  lhsNonContracting := [0]
  rhsNonContracting := [1]
  lhsBatch := []
  rhsBatch := []
  wf := dot_S12000x32_S32x64_S12000x64_1_0_0_1_n_n_wf
def dot_S12000x12000_S12000x64_S12000x64_1_0_0_1_n_n : DotDims S12000x12000 S12000x64 S12000x64 where
  lhsContracting := [1]
  rhsContracting := [0]
  lhsNonContracting := [0]
  rhsNonContracting := [1]
  lhsBatch := []
  rhsBatch := []
  wf := dot_S12000x12000_S12000x64_S12000x64_1_0_0_1_n_n_wf
def scatter_S12000_S412000x1_S412000_n_0_0_1 : ScatterDims S12000 S412000x1 S412000 where
  updateWindowDims := []
  insertedWindowDims := [0]
  scatterDimsToOperandDims := [0]
  indexVectorDim := 1
  wf := scatter_S12000_S412000x1_S412000_n_0_0_1_wf
def gather_S12000_S412000x1_S412000_n_0_n_n_0_1_1 : GatherDims S12000 S412000x1 S412000 where
  offsetDims := []
  collapsedSliceDims := [0]
  operandBatchingDims := []
  startIndicesBatchingDims := []
  startIndexMap := [0]
  indexVectorDim := 1
  sliceSizes := ![1]
  wf := gather_S12000_S412000x1_S412000_n_0_n_n_0_1_1_wf
def dot_S12000x64_S64x128_S12000x128_1_0_0_1_n_n : DotDims S12000x64 S64x128 S12000x128 where
  lhsContracting := [1]
  rhsContracting := [0]
  lhsNonContracting := [0]
  rhsNonContracting := [1]
  lhsBatch := []
  rhsBatch := []
  wf := dot_S12000x64_S64x128_S12000x128_1_0_0_1_n_n_wf
def gather_S12000x128_S412000x1_S412000x128_1_0_n_n_0_1_1128 : GatherDims S12000x128 S412000x1 S412000x128 where
  offsetDims := [1]
  collapsedSliceDims := [0]
  operandBatchingDims := []
  startIndicesBatchingDims := []
  startIndexMap := [0]
  indexVectorDim := 1
  sliceSizes := ![1, 128]
  wf := gather_S12000x128_S412000x1_S412000x128_1_0_n_n_0_1_1128_wf
def scatter_S12000x128_S412000x1_S412000x128_1_0_0_1 : ScatterDims S12000x128 S412000x1 S412000x128 where
  updateWindowDims := [1]
  insertedWindowDims := [0]
  scatterDimsToOperandDims := [0]
  indexVectorDim := 1
  wf := scatter_S12000x128_S412000x1_S412000x128_1_0_0_1_wf
def dot_S12000x128_S128x128_S12000x128_1_0_0_1_n_n : DotDims S12000x128 S128x128 S12000x128 where
  lhsContracting := [1]
  rhsContracting := [0]
  lhsNonContracting := [0]
  rhsNonContracting := [1]
  lhsBatch := []
  rhsBatch := []
  wf := dot_S12000x128_S128x128_S12000x128_1_0_0_1_n_n_wf
def dot_S12000x128_S128x6_S12000x6_1_0_0_1_n_n : DotDims S12000x128 S128x6 S12000x6 where
  lhsContracting := [1]
  rhsContracting := [0]
  lhsNonContracting := [0]
  rhsNonContracting := [1]
  lhsBatch := []
  rhsBatch := []
  wf := dot_S12000x128_S128x6_S12000x6_1_0_0_1_n_n_wf
def gather_S12000x6_S412000x1_S412000x6_1_0_n_n_0_1_16 : GatherDims S12000x6 S412000x1 S412000x6 where
  offsetDims := [1]
  collapsedSliceDims := [0]
  operandBatchingDims := []
  startIndicesBatchingDims := []
  startIndexMap := [0]
  indexVectorDim := 1
  sliceSizes := ![1, 6]
  wf := gather_S12000x6_S412000x1_S412000x6_1_0_n_n_0_1_16_wf
def scatter_S12000x6_S412000x1_S412000x6_1_0_0_1 : ScatterDims S12000x6 S412000x1 S412000x6 where
  updateWindowDims := [1]
  insertedWindowDims := [0]
  scatterDimsToOperandDims := [0]
  indexVectorDim := 1
  wf := scatter_S12000x6_S412000x1_S412000x6_1_0_0_1_wf

class Facts : Prop extends Facts₀ where

variable [Facts]
-- ==== Proof.BR0a.lean ====
/- Region 0 (the first dense layer's tiled product): what its three control cases are stated over.
   A point of the 8 x 8 grid is t = 8 * i + k: row tile i of the padded adjacency, reduction tile k.
   The accumulator is zeroed where k = 0 and the output tile is stored where k = 7. -/
import proofs.«101834_j14396730376572_1_alg».proof.Proof.Gen.Kernel.Launch
import proofs.«101834_j14396730376572_1_alg».proof.Proof.Gen.Kernel.Skeleton
import proofs.«101834_j14396730376572_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The reduction coordinate is 0: the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The reduction coordinate is 7: the output tile is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-- One staging buffer of the output window, through which its contents are stated. -/
abbrev VO0_3 : View sig .tc .vmem S1536x32 .f32 := (Memref.whole cc0_stg3_0 : Memref sig .tc .vmem S1536x32 .f32).view
abbrev ms0_0 (t : Fin cfg0.N) : Memref sig .tc .vmem S1536x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x32 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1536x32 .f32 := Memref.whole cc0_scratch0
abbrev VS0_0 : View sig .tc .vmem S1536x32 .f32 := scM0_0.view

/-- The scoped buffers this region never touches (the other region's staging buffers and accumulator), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.Kernel.Frm

end
-- ==== Proof.BR0A.lean ====
/- Region 0, a point with reduction coordinate 0: the accumulator is zeroed, then the first tile product is added.
   The output tile's buffer is handed back untouched. -/
import proofs.«101834_j14396730376572_1_alg».proof.Proof.BR0a

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body runs to the continuation holding
    the inputs as they were, the untouched output buffer, and the accumulator with its pieces written. -/
noncomputable def kernelRun0_A (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : cond0_0 i) (hc1 : ¬cond0_1 i)
    (x0 : Vec F S1536x1536 .bf16) (x1 : Vec F S1536x32 .bf16) (x2 : Vec F S1x32 .f32) :
    Σ' (L3 : List (View.Piece (Elt F) S1536x32 .f32)), { LS0 : List (View.Piece (Elt F) S1536x32 .f32) //
      ∀ (xi3 : Vec F S1536x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__dense_matmul_kernel i arg2 harg2 arg3 harg3 arg4 harg4 arg5 harg5 arg6 harg6) K } := by
  refine ⟨[], ?_, fun xi3 E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.BR0B.lean ====
/- Region 0, a point with reduction coordinate 1 to 6: one more tile product is added to the accumulator,
   which holds what the point before left. The output tile's buffer is handed back untouched. -/
import proofs.«101834_j14396730376572_1_alg».proof.Proof.BR0a

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : ¬cond0_1 i)
    (x0 : Vec F S1536x1536 .bf16) (x1 : Vec F S1536x32 .bf16) (x2 : Vec F S1x32 .f32) (xs0 : Vec F S1536x32 .f32) :
    Σ' (L3 : List (View.Piece (Elt F) S1536x32 .f32)), { LS0 : List (View.Piece (Elt F) S1536x32 .f32) //
      ∀ (xi3 : Vec F S1536x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__dense_matmul_kernel i arg2 harg2 arg3 harg3 arg4 harg4 arg5 harg5 arg6 harg6) K } := by
  refine ⟨[], ?_, fun xi3 E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.BR0C.lean ====
/- Region 0, a point with reduction coordinate 7: the last tile product is added, then the bias row is added to the
   accumulator, the result clamped below at zero, and stored as the output tile. -/
import proofs.«101834_j14396730376572_1_alg».proof.Proof.BR0a

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) :
    Σ' (L3 : List (View.Piece (Elt F) S1536x32 .f32)), { LS0 : List (View.Piece (Elt F) S1536x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__dense_matmul_kernel i arg2 harg2 arg3 harg3 arg4 harg4 arg5 harg5 arg6 harg6) K } := by
  refine ⟨?_, ?_, fun E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frm

end
-- ==== Proof.BR0.lean ====
/- Region 0 assembled: what each control case leaves in the accumulator and in the output tile's buffer, those
   contents point by point along the grid (the accumulator after point t is what the case at t makes of the blocks at t
   and of the accumulator after point t - 1), the region's invariant, its proof data and the body obligation. -/
import proofs.«101834_j14396730376572_1_alg».proof.Proof.BR0A
import proofs.«101834_j14396730376572_1_alg».proof.Proof.BR0B
import proofs.«101834_j14396730376572_1_alg».proof.Proof.BR0C

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Reduction coordinate 0 stores nothing into the output tile's buffer: a placeholder nothing consults. -/
def out0_A_3 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : cond0_0 i) (hc1 : ¬cond0_1 i)
    (x0 : Vec F S1536x1536 .bf16) (x1 : Vec F S1536x32 .bf16) (x2 : Vec F S1x32 .f32) : Vec F S1536x32 .f32 :=
  VO0_3.read (Elt F) (VO0_3.writes (Elt F) VO0_3.junk (kernelRun0_A c i arg2 harg2 arg3 harg3 arg4 harg4 arg5 harg5 arg6 harg6 hc0 hc1 x0 x1 x2).1)

/-- Its stores into the accumulator cover it. -/
theorem scover0_A_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : cond0_0 i) (hc1 : ¬cond0_1 i)
    (x0 : Vec F S1536x1536 .bf16) (x1 : Vec F S1536x32 .bf16) (x2 : Vec F S1x32 .f32) (y : S1536x32.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1536x32.size (by sl_kernel_rfl) y

/-- What reduction coordinate 0 leaves in the accumulator. -/
def sout0_A_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : cond0_0 i) (hc1 : ¬cond0_1 i)
    (x0 : Vec F S1536x1536 .bf16) (x1 : Vec F S1536x32 .bf16) (x2 : Vec F S1x32 .f32) : Vec F S1536x32 .f32 :=
  VS0_0.read (Elt F) (VS0_0.writes (Elt F) VS0_0.junk (kernelRun0_A c i arg2 harg2 arg3 harg3 arg4 harg4 arg5 harg5 arg6 harg6 hc0 hc1 x0 x1 x2).2.1)

def out0_B_3 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : ¬cond0_1 i)
    (x0 : Vec F S1536x1536 .bf16) (x1 : Vec F S1536x32 .bf16) (x2 : Vec F S1x32 .f32) (xs0 : Vec F S1536x32 .f32) : Vec F S1536x32 .f32 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : ¬cond0_1 i)
    (x0 : Vec F S1536x1536 .bf16) (x1 : Vec F S1536x32 .bf16) (x2 : Vec F S1x32 .f32) (xs0 : Vec F S1536x32 .f32) (y : S1536x32.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1536x32.size (by sl_kernel_rfl) y

/-- What a middle reduction coordinate leaves in the accumulator. -/
def sout0_B_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : ¬cond0_1 i)
    (x0 : Vec F S1536x1536 .bf16) (x1 : Vec F S1536x32 .bf16) (x2 : Vec F S1x32 .f32) (xs0 : Vec F S1536x32 .f32) : Vec F S1536x32 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At reduction coordinate 7 the one store into the output tile's buffer covers it. -/
theorem cover0_C_3 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) (y : S1536x32.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1536x32.size (by sl_kernel_rfl) y

/-- What reduction coordinate 7 leaves in the output tile's buffer. -/
def out0_C_3 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) : Vec F S1536x32 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) (y : S1536x32.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1536x32.size (by sl_kernel_rfl) y

/-- What reduction coordinate 7 leaves in the accumulator. -/
def sout0_C_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) : Vec F S1536x32 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The contents point by point -/

/-- After the body at position `n`: the output tile's buffer and the accumulator. -/
def outsAt0 (c : Dev nD) : (n : ℕ) → n < cfg0.N → Vec F S1536x32 .f32 × Vec F S1536x32 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at first the class's (every scoped buffer at anything); afterwards
    the accumulator at what the point before left, the untouched scoped buffers, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' buffers hold their blocks; the remainder of the point's position modulo 8 says
    which case applies; the invariant hands the body the accumulator at what the point before left (at anything at the
    very first point) and takes it back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · by_cases h1 : t.val % 8 = 7
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Frm

end
-- ==== Proof.BR1a.lean ====
/- Region 1 (the second dense layer's tiled product): what its three control cases are stated over.
   A point of the 8 x 8 grid is t = 8 * i + k: row tile i of the padded adjacency, reduction tile k.
   The accumulator is zeroed where k = 0 and the output tile is stored where k = 7. -/
import proofs.«101834_j14396730376572_1_alg».proof.Proof.Gen.Kernel.Launch
import proofs.«101834_j14396730376572_1_alg».proof.Proof.Gen.Kernel.Skeleton
import proofs.«101834_j14396730376572_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The reduction coordinate is 0: the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The reduction coordinate is 7: the output tile is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S1536x64 .f32 := (Memref.whole cc1_stg3_0 : Memref sig .tc .vmem S1536x64 .f32).view
abbrev ms1_0 (t : Fin cfg1.N) : Memref sig .tc .vmem S1536x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1536x64 .f32 := Memref.whole cc1_scratch0
abbrev VS1_0 : View sig .tc .vmem S1536x64 .f32 := scM1_0.view

/-- The scoped buffers this region never touches (the other region's staging buffers and accumulator), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant hands out the accumulator (the last of the scoped buffers in the class's own order) beside the rest. -/
theorem PhiA1_out (c : Dev nD) : (Pipeline.ΦA spec1 c : sProp 𝕄) ⊢ iprop(iprop((∃ d, owns (c : Thread nD τ) scM1_0 fullShare d) ∗ rest1 c) ∗ (∃ r, prngReg c r)) := by
  unfold Pipeline.ΦA rest1; rw [scopedRest1_eq]; simp only [scM1_0, owns_whole]
  iintro ⟨⟨H1, H2, H3, H4, H5, H6, H7, H8, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And takes it back. -/
theorem PhiA1_in (c : Dev nD) : (iprop(iprop((∃ d, owns (c : Thread nD τ) scM1_0 fullShare d) ∗ rest1 c) ∗ (∃ r, prngReg c r)) : sProp 𝕄) ⊢ Pipeline.ΦA spec1 c := by
  unfold Pipeline.ΦA rest1; rw [scopedRest1_eq]; simp only [scM1_0, owns_whole]
  iintro ⟨⟨HS, H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-- The two are rearrangements of one another, hence equal. -/
theorem PhiA1_eq (c : Dev nD) :
    (Pipeline.ΦA spec1 c : sProp 𝕄) = iprop(iprop((∃ d, owns (c : Thread nD τ) scM1_0 fullShare d) ∗ rest1 c) ∗ (∃ r, prngReg c r)) :=
  equiv_iff.mp ⟨PhiA1_out c, PhiA1_in c⟩

end Cert.Kernel.Frm

end
-- ==== Proof.BR1A.lean ====
/- Region 1, a point with reduction coordinate 0: the accumulator is zeroed, then the first tile product is added.
   The output tile's buffer is handed back untouched. -/
import proofs.«101834_j14396730376572_1_alg».proof.Proof.BR1a

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body runs to the continuation holding
    the inputs as they were, the untouched output buffer, and the accumulator with its pieces written. -/
noncomputable def kernelRun1_A (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : cond1_0 i) (hc1 : ¬cond1_1 i)
    (x0 : Vec F S1536x1536 .bf16) (x1 : Vec F S1536x64 .bf16) (x2 : Vec F S1x64 .f32) :
    Σ' (L3 : List (View.Piece (Elt F) S1536x64 .f32)), { LS0 : List (View.Piece (Elt F) S1536x64 .f32) //
      ∀ (xi3 : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__dense_matmul_kernel i arg2 harg2 arg3 harg3 arg4 harg4 arg5 harg5 arg6 harg6) K } := by
  refine ⟨[], ?_, fun xi3 E K => ?run⟩
  case run =>
    simp only [cc1__dense_matmul_kernel_eq_skeleton]; unfold cc1__dense_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.BR1B.lean ====
/- Region 1, a point with reduction coordinate 1 to 6: one more tile product is added to the accumulator,
   which holds what the point before left. The output tile's buffer is handed back untouched. -/
import proofs.«101834_j14396730376572_1_alg».proof.Proof.BR1a

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : ¬cond1_1 i)
    (x0 : Vec F S1536x1536 .bf16) (x1 : Vec F S1536x64 .bf16) (x2 : Vec F S1x64 .f32) (xs0 : Vec F S1536x64 .f32) :
    Σ' (L3 : List (View.Piece (Elt F) S1536x64 .f32)), { LS0 : List (View.Piece (Elt F) S1536x64 .f32) //
      ∀ (xi3 : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__dense_matmul_kernel i arg2 harg2 arg3 harg3 arg4 harg4 arg5 harg5 arg6 harg6) K } := by
  refine ⟨[], ?_, fun xi3 E K => ?run⟩
  case run =>
    simp only [cc1__dense_matmul_kernel_eq_skeleton]; unfold cc1__dense_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.BR1C.lean ====
/- Region 1, a point with reduction coordinate 7: the last tile product is added, then the bias row is added to the
   accumulator, the result clamped below at zero, and stored as the output tile. -/
import proofs.«101834_j14396730376572_1_alg».proof.Proof.BR1a

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) :
    Σ' (L3 : List (View.Piece (Elt F) S1536x64 .f32)), { LS0 : List (View.Piece (Elt F) S1536x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__dense_matmul_kernel i arg2 harg2 arg3 harg3 arg4 harg4 arg5 harg5 arg6 harg6) K } := by
  refine ⟨?_, ?_, fun E K => ?run⟩
  case run =>
    simp only [cc1__dense_matmul_kernel_eq_skeleton]; unfold cc1__dense_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frm

end
-- ==== Proof.BR1.lean ====
/- Region 1 assembled: what each control case leaves in the accumulator and in the output tile's buffer, those
   contents point by point along the grid (the accumulator after point t is what the case at t makes of the blocks at t
   and of the accumulator after point t - 1), the region's invariant, its proof data and the body obligation. -/
import proofs.«101834_j14396730376572_1_alg».proof.Proof.BR1A
import proofs.«101834_j14396730376572_1_alg».proof.Proof.BR1B
import proofs.«101834_j14396730376572_1_alg».proof.Proof.BR1C

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Reduction coordinate 0 stores nothing into the output tile's buffer: a placeholder nothing consults. -/
def out1_A_3 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : cond1_0 i) (hc1 : ¬cond1_1 i)
    (x0 : Vec F S1536x1536 .bf16) (x1 : Vec F S1536x64 .bf16) (x2 : Vec F S1x64 .f32) : Vec F S1536x64 .f32 :=
  VO1_3.read (Elt F) (VO1_3.writes (Elt F) VO1_3.junk (kernelRun1_A c i arg2 harg2 arg3 harg3 arg4 harg4 arg5 harg5 arg6 harg6 hc0 hc1 x0 x1 x2).1)

/-- Its stores into the accumulator cover it. -/
theorem scover1_A_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : cond1_0 i) (hc1 : ¬cond1_1 i)
    (x0 : Vec F S1536x1536 .bf16) (x1 : Vec F S1536x64 .bf16) (x2 : Vec F S1x64 .f32) (y : S1536x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1536x64.size (by sl_kernel_rfl) y

/-- What reduction coordinate 0 leaves in the accumulator. -/
def sout1_A_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : cond1_0 i) (hc1 : ¬cond1_1 i)
    (x0 : Vec F S1536x1536 .bf16) (x1 : Vec F S1536x64 .bf16) (x2 : Vec F S1x64 .f32) : Vec F S1536x64 .f32 :=
  VS1_0.read (Elt F) (VS1_0.writes (Elt F) VS1_0.junk (kernelRun1_A c i arg2 harg2 arg3 harg3 arg4 harg4 arg5 harg5 arg6 harg6 hc0 hc1 x0 x1 x2).2.1)

def out1_B_3 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : ¬cond1_1 i)
    (x0 : Vec F S1536x1536 .bf16) (x1 : Vec F S1536x64 .bf16) (x2 : Vec F S1x64 .f32) (xs0 : Vec F S1536x64 .f32) : Vec F S1536x64 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : ¬cond1_1 i)
    (x0 : Vec F S1536x1536 .bf16) (x1 : Vec F S1536x64 .bf16) (x2 : Vec F S1x64 .f32) (xs0 : Vec F S1536x64 .f32) (y : S1536x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1536x64.size (by sl_kernel_rfl) y

/-- What a middle reduction coordinate leaves in the accumulator. -/
def sout1_B_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : ¬cond1_1 i)
    (x0 : Vec F S1536x1536 .bf16) (x1 : Vec F S1536x64 .bf16) (x2 : Vec F S1x64 .f32) (xs0 : Vec F S1536x64 .f32) : Vec F S1536x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- At reduction coordinate 7 the one store into the output tile's buffer covers it. -/
theorem cover1_C_3 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) (y : S1536x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1536x64.size (by sl_kernel_rfl) y

/-- What reduction coordinate 7 leaves in the output tile's buffer. -/
def out1_C_3 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) : Vec F S1536x64 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) (y : S1536x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1536x64.size (by sl_kernel_rfl) y

/-- What reduction coordinate 7 leaves in the accumulator. -/
def sout1_C_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) : Vec F S1536x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## The contents point by point -/

/-- After the body at position `n`: the output tile's buffer and the accumulator. -/
def outsAt1 (c : Dev nD) : (n : ℕ) → n < cfg1.N → Vec F S1536x64 .f32 × Vec F S1536x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at first the class's (every scoped buffer at anything); afterwards
    the accumulator at what the point before left, the untouched scoped buffers, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the remainder of the point's position modulo 8 says
    which case applies; the invariant hands the body the accumulator at what the point before left (at anything at the
    very first point) and takes it back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Frm

end
-- ==== Proof.BRun.lean ====
/- The whole program's run. Between two items of @main a core holds every unscoped buffer at a valuation: the launch
   memory, then each stretch of host operations applied in turn, and after a region its result array replaced by
   what the region's write-backs leave (the array assembled from the output tiles stored at reduction coordinate 7).
   Each region is entered from those buffers, the generator register at some state and nothing owed, and left the same way. -/
import proofs.«101834_j14396730376572_1_alg».proof.Proof.BR0
import proofs.«101834_j14396730376572_1_alg».proof.Proof.BR1
import proofs.«101834_j14396730376572_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The buffers as region 0 finds them. -/
abbrev Vt5 : (c : Dev nD) → (b : Ref sig .tc) → Buf (Elt F) ((c : Thread nD τ).loc b) := fun c b => V5 m c b

/-- What region 0's write-backs leave in its result array. -/
def res0 (c : Dev nD) : Buf (Elt F) ((c : Thread nD τ).loc main_v53) := (dat0 (Vt5 m) c).arrAt 3 cfg0.N

/-- The regions' results so far: region 0's. -/
def outsA : Outs (F := F) := fun _ r c =>
  Function.update (fun r' : Ref sig .tc => (m ((c : Thread nD τ).loc r') : Buf (Elt F) ((c : Thread nD τ).loc r'))) main_v53 (res0 m c) r

/-- The buffers as region 1 finds them. -/
abbrev Vt9 : (c : Dev nD) → (b : Ref sig .tc) → Buf (Elt F) ((c : Thread nD τ).loc b) := fun c b => V9 m (outsA m) c b

/-- What region 1's write-backs leave in its result array. -/
def res1 (c : Dev nD) : Buf (Elt F) ((c : Thread nD τ).loc main_v59) := (dat1 (Vt9 m) c).arrAt 3 cfg1.N

/-- Both regions' results. -/
def outs : Outs (F := F) := fun _ r c =>
  Function.update (Function.update (fun r' : Ref sig .tc => (m ((c : Thread nD τ).loc r') : Buf (Elt F) ((c : Thread nD τ).loc r'))) main_v53 (res0 m c)) main_v59 (res1 m c) r

theorem outsA_v53 (c : Dev nD) : outsA m 6 main_v53 c = res0 m c := by
  unfold outsA; exact Function.update_self _ _ _

theorem outs_v53 (c : Dev nD) : outs m 6 main_v53 c = res0 m c := by
  unfold outs
  rw [Function.update_of_ne (by decide : (main_v53 : Ref sig .tc) ≠ main_v59)]
  exact Function.update_self _ _ _

theorem outs_v59 (c : Dev nD) : outs m 10 main_v59 c = res1 m c := by
  unfold outs; exact Function.update_self _ _ _

/-- Region 1 is entered from the same buffers whichever of the two tables is read: only region 0's result matters there. -/
theorem V9_outs (c : Dev nD) : V9 m (outs m) c = V9 m (outsA m) c := by
  show StableHlo.after hostOps1_2 (StableHlo.after hostOps1_1 (StableHlo.after hostOps1 (Function.update (V5 m c) main_v53 (outs m 6 main_v53 c))))
     = StableHlo.after hostOps1_2 (StableHlo.after hostOps1_1 (StableHlo.after hostOps1 (Function.update (V5 m c) main_v53 (outsA m 6 main_v53 c))))
  rw [outs_v53, outsA_v53]

/-- Every pipeline's proof data, each at its region's entry contents. -/
def pdats : (p : Fin 2) → (c : Dev nD) → Dat τ (Elt F) Unit ℕ (UR sig nD τ) ℕ (cfgs p) c
  | ⟨0, _⟩ => fun c => dat0 (Vt5 m) c
  | ⟨1, _⟩ => fun c => dat1 (Vt9 m) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- At region 0's exit each of its arrays holds what the pipeline leaves, -/
theorem hF0 (c : Dev nD) (w : Fin cfg0.W) : (pdats m 0 c).arrAt w cfg0.N = V6 m (outs m) c (Pipeline.arrRef spec0 w) := by
  show (dat0 (Vt5 m) c).arrAt w cfg0.N = _
  match w with
  | ⟨0, _⟩ => exact ((dat0 (Vt5 m) c).arrAt_in 0 rfl _).trans ((A_eq0 (Vt5 m) c 0).trans (V6_of m (outs m) c main_v48 (by decide)).symm)
  | ⟨1, _⟩ => exact ((dat0 (Vt5 m) c).arrAt_in 1 rfl _).trans ((A_eq0 (Vt5 m) c 1).trans (V6_of m (outs m) c main_v51 (by decide)).symm)
  | ⟨2, _⟩ => exact ((dat0 (Vt5 m) c).arrAt_in 2 rfl _).trans ((A_eq0 (Vt5 m) c 2).trans (V6_of m (outs m) c main_v52 (by decide)).symm)
  | ⟨3, _⟩ =>
    show res0 m c = Function.update (V5 m c) main_v53 (outs m 6 main_v53 c) main_v53
    rw [Function.update_self, outs_v53]

/-- and every other buffer what it held at entry. -/
theorem hrest0 (c : Dev nD) : ∀ b : Ref sig .tc, b ∉ Finset.univ.image (Pipeline.arrRef spec0) → V6 m (outs m) c b = V5 m c b :=
  fun b hb => V6_of m (outs m) c b (by
    intro h
    rw [List.mem_singleton] at h
    exact hb (Finset.mem_image.mpr ⟨3, Finset.mem_univ _, h.symm⟩))

theorem hF1 (c : Dev nD) (w : Fin cfg1.W) : (pdats m 1 c).arrAt w cfg1.N = V10 m (outs m) c (Pipeline.arrRef spec1 w) := by
  show (dat1 (Vt9 m) c).arrAt w cfg1.N = _
  match w with
  | ⟨0, _⟩ => exact ((dat1 (Vt9 m) c).arrAt_in 0 rfl _).trans ((A_eq1 (Vt9 m) c 0).trans ((congrFun (V9_outs m c) _).symm.trans (V10_of m (outs m) c main_v48 (by decide)).symm))
  | ⟨1, _⟩ => exact ((dat1 (Vt9 m) c).arrAt_in 1 rfl _).trans ((A_eq1 (Vt9 m) c 1).trans ((congrFun (V9_outs m c) _).symm.trans (V10_of m (outs m) c main_v57 (by decide)).symm))
  | ⟨2, _⟩ => exact ((dat1 (Vt9 m) c).arrAt_in 2 rfl _).trans ((A_eq1 (Vt9 m) c 2).trans ((congrFun (V9_outs m c) _).symm.trans (V10_of m (outs m) c main_v58 (by decide)).symm))
  | ⟨3, _⟩ =>
    show res1 m c = Function.update (V9 m (outs m) c) main_v59 (outs m 10 main_v59 c) main_v59
    rw [Function.update_self, outs_v59]

theorem hrest1 (c : Dev nD) : ∀ b : Ref sig .tc, b ∉ Finset.univ.image (Pipeline.arrRef spec1) → V10 m (outs m) c b = Vt9 m c b :=
  fun b hb => (V10_of m (outs m) c b (by
    intro h
    rw [List.mem_singleton] at h
    exact hb (Finset.mem_image.mpr ⟨3, Finset.mem_univ _, h.symm⟩))).trans (congrFun (V9_outs m c) _)

-- a library lemma stated over the pinned configuration unifies with the printed one only when unification may unfold
-- plain definitions in a metavariable's type
set_option backward.isDefEq.respectTransparency.types false in
/-- Region 0 over the thread state: its arrays split out of the unscoped buffers and put back at the exit contents;
    the generator register into the region's invariant and out; nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vt5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (Vt5 m) c
    unfold Pipeline.ΦA at h
    show (dat0 (Vt5 m) c).Φ (Fin.last cfg0.N) ⊢ _
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: its arrays split out of the unscoped buffers and put back at the exit contents;
    the generator register into the region's invariant and out; nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt9 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vt9 m c)
  hentry c := by
    rw [Pipeline.ownSems0_none, V9_outs m c]
    have hsplit := Pipeline.arrays_of_unscopedBufs (p := 1) (pcfgs (F := F)) adm (pdats m) launch1.win launch1.arr_whole c
      ((pdats m 1 c).share_full fun _ => rfl) (Vt9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (Vt9 m) c
    unfold Pipeline.ΦA at h
    show (dat1 (Vt9 m) c).Φ (Fin.last cfg1.N) ⊢ _
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt9 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without what is owed: every unscoped buffer at the last valuation. -/
abbrev Tₙ (c : Dev nD) : sProp 𝕄 := StableHlo.held (c : Thread nD τ) (Pipeline.ucRefs τ sig) (V18 m (outs m) c)

-- the launch theorem's implicit arguments are found by unifying its conclusion with this one, which takes unfolding
-- plain definitions in a metavariable's type
set_option backward.isDefEq.respectTransparency.types false in
/-- THE RUN. From any memory with zero counters every weakly fair execution of @main terminates, nothing faulting, and
    every final memory holds every unscoped buffer at the last valuation: the launch memory, each stretch of host
    operations applied in turn, each region's result array at what its write-backs leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V18 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := Tₙ m)
    (hch := fun c => ⟨.rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V18 m (outs m) c b)
    (hfin := fun c s' => by
      unfold Tₙ StableHlo.held
      iintro ⟨Hh, HSI⟩
      imodintro
      iapply (pointsTo_read_all (Pipeline.ucRefs τ sig) (fun b => (((c : Thread nD τ)).1, b)) (V18 m (outs m) c) s')
      isplitl [Hh] <;> iassumption)
    (hQ := fun _ h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the arguments end as launched (no stretch writes one, no region may change one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (V18_main_arg0 m (outs m) c),
     (h c _ (mem_uc main_arg1 (by decide))).trans (V18_main_arg1 m (outs m) c),
     (h c _ (mem_uc main_arg2 (by decide))).trans (V18_main_arg2 m (outs m) c),
     (h c _ (mem_uc main_arg3 (by decide))).trans (V18_main_arg3 m (outs m) c),
     (h c _ (mem_uc main_arg4 (by decide))).trans (V18_main_arg4 m (outs m) c),
     (h c _ (mem_uc main_arg5 (by decide))).trans (V18_main_arg5 m (outs m) c),
     (h c _ (mem_uc main_arg6 (by decide))).trans (V18_main_arg6 m (outs m) c),
     (h c _ (mem_uc main_arg7 (by decide))).trans (V18_main_arg7 m (outs m) c),
     (h c _ (mem_uc main_arg8 (by decide))).trans (V18_main_arg8 m (outs m) c),
     (h c _ (mem_uc main_arg9 (by decide))).trans (V18_main_arg9 m (outs m) c),
     (h c _ (mem_uc main_arg10 (by decide))).trans (V18_main_arg10 m (outs m) c),
     (h c _ (mem_uc main_arg11 (by decide))).trans (V18_main_arg11 m (outs m) c)⟩) (run_all m ρ)

end Cert.Kernel.Frm

end
-- ==== Proof.IR0a.lean ====
/- Region 0 (the first dense layer's tiled product): what its three control cases are stated over.
   A point of the 8 x 8 grid is t = 8 * i + k: row tile i of the padded adjacency, reduction tile k.
   The accumulator is zeroed where k = 0 and the output tile is stored where k = 7. -/
import proofs.«101834_j14396730376572_1_alg».proof.Proof.Gen.KernelIdeal.Launch
import proofs.«101834_j14396730376572_1_alg».proof.Proof.Gen.KernelIdeal.Skeleton
import proofs.«101834_j14396730376572_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The reduction coordinate is 0: the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The reduction coordinate is 7: the output tile is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-- One staging buffer of the output window, through which its contents are stated. -/
abbrev VO0_3 : View sig .tc .vmem S1536x32 .f32 := (Memref.whole cc0_stg3_0 : Memref sig .tc .vmem S1536x32 .f32).view
abbrev ms0_0 (t : Fin cfg0.N) : Memref sig .tc .vmem S1536x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x32 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1536x32 .f32 := Memref.whole cc0_scratch0
abbrev VS0_0 : View sig .tc .vmem S1536x32 .f32 := scM0_0.view

/-- The scoped buffers this region never touches (the other region's staging buffers and accumulator), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.KernelIdeal.Frm

end
-- ==== Proof.IR0A.lean ====
/- Region 0, a point with reduction coordinate 0: the accumulator is zeroed, then the first tile product is added.
   The output tile's buffer is handed back untouched. -/
import proofs.«101834_j14396730376572_1_alg».proof.Proof.IR0a

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body runs to the continuation holding
    the inputs as they were, the untouched output buffer, and the accumulator with its pieces written. -/
noncomputable def kernelRun0_A (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : cond0_0 i) (hc1 : ¬cond0_1 i)
    (x0 : Vec F S1536x1536 .bf16) (x1 : Vec F S1536x32 .bf16) (x2 : Vec F S1x32 .f32) :
    Σ' (L3 : List (View.Piece (Elt F) S1536x32 .f32)), { LS0 : List (View.Piece (Elt F) S1536x32 .f32) //
      ∀ (xi3 : Vec F S1536x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__dense_matmul_kernel i arg2 harg2 arg3 harg3 arg4 harg4 arg5 harg5 arg6 harg6) K } := by
  refine ⟨[], ?_, fun xi3 E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.IR0B.lean ====
/- Region 0, a point with reduction coordinate 1 to 6: one more tile product is added to the accumulator,
   which holds what the point before left. The output tile's buffer is handed back untouched. -/
import proofs.«101834_j14396730376572_1_alg».proof.Proof.IR0a

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : ¬cond0_1 i)
    (x0 : Vec F S1536x1536 .bf16) (x1 : Vec F S1536x32 .bf16) (x2 : Vec F S1x32 .f32) (xs0 : Vec F S1536x32 .f32) :
    Σ' (L3 : List (View.Piece (Elt F) S1536x32 .f32)), { LS0 : List (View.Piece (Elt F) S1536x32 .f32) //
      ∀ (xi3 : Vec F S1536x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__dense_matmul_kernel i arg2 harg2 arg3 harg3 arg4 harg4 arg5 harg5 arg6 harg6) K } := by
  refine ⟨[], ?_, fun xi3 E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.IR0C.lean ====
/- Region 0, a point with reduction coordinate 7: the last tile product is added, then the bias row is added to the
   accumulator, the result clamped below at zero, and stored as the output tile. -/
import proofs.«101834_j14396730376572_1_alg».proof.Proof.IR0a

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) :
    Σ' (L3 : List (View.Piece (Elt F) S1536x32 .f32)), { LS0 : List (View.Piece (Elt F) S1536x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__dense_matmul_kernel i arg2 harg2 arg3 harg3 arg4 harg4 arg5 harg5 arg6 harg6) K } := by
  refine ⟨?_, ?_, fun E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frm

end
-- ==== Proof.IR0.lean ====
/- Region 0 assembled: what each control case leaves in the accumulator and in the output tile's buffer, those
   contents point by point along the grid (the accumulator after point t is what the case at t makes of the blocks at t
   and of the accumulator after point t - 1), the region's invariant, its proof data and the body obligation. -/
import proofs.«101834_j14396730376572_1_alg».proof.Proof.IR0A
import proofs.«101834_j14396730376572_1_alg».proof.Proof.IR0B
import proofs.«101834_j14396730376572_1_alg».proof.Proof.IR0C

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Reduction coordinate 0 stores nothing into the output tile's buffer: a placeholder nothing consults. -/
def out0_A_3 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : cond0_0 i) (hc1 : ¬cond0_1 i)
    (x0 : Vec F S1536x1536 .bf16) (x1 : Vec F S1536x32 .bf16) (x2 : Vec F S1x32 .f32) : Vec F S1536x32 .f32 :=
  VO0_3.read (Elt F) (VO0_3.writes (Elt F) VO0_3.junk (kernelRun0_A c i arg2 harg2 arg3 harg3 arg4 harg4 arg5 harg5 arg6 harg6 hc0 hc1 x0 x1 x2).1)

/-- Its stores into the accumulator cover it. -/
theorem scover0_A_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : cond0_0 i) (hc1 : ¬cond0_1 i)
    (x0 : Vec F S1536x1536 .bf16) (x1 : Vec F S1536x32 .bf16) (x2 : Vec F S1x32 .f32) (y : S1536x32.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1536x32.size (by sl_kernel_rfl) y

/-- What reduction coordinate 0 leaves in the accumulator. -/
def sout0_A_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : cond0_0 i) (hc1 : ¬cond0_1 i)
    (x0 : Vec F S1536x1536 .bf16) (x1 : Vec F S1536x32 .bf16) (x2 : Vec F S1x32 .f32) : Vec F S1536x32 .f32 :=
  VS0_0.read (Elt F) (VS0_0.writes (Elt F) VS0_0.junk (kernelRun0_A c i arg2 harg2 arg3 harg3 arg4 harg4 arg5 harg5 arg6 harg6 hc0 hc1 x0 x1 x2).2.1)

def out0_B_3 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : ¬cond0_1 i)
    (x0 : Vec F S1536x1536 .bf16) (x1 : Vec F S1536x32 .bf16) (x2 : Vec F S1x32 .f32) (xs0 : Vec F S1536x32 .f32) : Vec F S1536x32 .f32 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : ¬cond0_1 i)
    (x0 : Vec F S1536x1536 .bf16) (x1 : Vec F S1536x32 .bf16) (x2 : Vec F S1x32 .f32) (xs0 : Vec F S1536x32 .f32) (y : S1536x32.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1536x32.size (by sl_kernel_rfl) y

/-- What a middle reduction coordinate leaves in the accumulator. -/
def sout0_B_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : ¬cond0_1 i)
    (x0 : Vec F S1536x1536 .bf16) (x1 : Vec F S1536x32 .bf16) (x2 : Vec F S1x32 .f32) (xs0 : Vec F S1536x32 .f32) : Vec F S1536x32 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At reduction coordinate 7 the one store into the output tile's buffer covers it. -/
theorem cover0_C_3 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) (y : S1536x32.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1536x32.size (by sl_kernel_rfl) y

/-- What reduction coordinate 7 leaves in the output tile's buffer. -/
def out0_C_3 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) : Vec F S1536x32 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) (y : S1536x32.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1536x32.size (by sl_kernel_rfl) y

/-- What reduction coordinate 7 leaves in the accumulator. -/
def sout0_C_0 (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i)
    (x0 : Vec F S1536x1536 .bf16) (x1 : Vec F S1536x32 .bf16) (x2 : Vec F S1x32 .f32) (xs0 : Vec F S1536x32 .f32) : Vec F S1536x32 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The contents point by point -/

/-- After the body at position `n`: the output tile's buffer and the accumulator. -/
def outsAt0 (c : Dev nD) : (n : ℕ) → n < cfg0.N → Vec F S1536x32 .f32 × Vec F S1536x32 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at first the class's (every scoped buffer at anything); afterwards
    the accumulator at what the point before left, the untouched scoped buffers, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' buffers hold their blocks; the remainder of the point's position modulo 8 says
    which case applies; the invariant hands the body the accumulator at what the point before left (at anything at the
    very first point) and takes it back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · by_cases h1 : t.val % 8 = 7
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Frm

end
-- ==== Proof.IR1a.lean ====
/- Region 1 (the second dense layer's tiled product): what its three control cases are stated over.
   A point of the 8 x 8 grid is t = 8 * i + k: row tile i of the padded adjacency, reduction tile k.
   The accumulator is zeroed where k = 0 and the output tile is stored where k = 7. -/
import proofs.«101834_j14396730376572_1_alg».proof.Proof.Gen.KernelIdeal.Launch
import proofs.«101834_j14396730376572_1_alg».proof.Proof.Gen.KernelIdeal.Skeleton
import proofs.«101834_j14396730376572_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The reduction coordinate is 0: the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The reduction coordinate is 7: the output tile is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S1536x64 .f32 := (Memref.whole cc1_stg3_0 : Memref sig .tc .vmem S1536x64 .f32).view
abbrev ms1_0 (t : Fin cfg1.N) : Memref sig .tc .vmem S1536x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1536x64 .f32 := Memref.whole cc1_scratch0
abbrev VS1_0 : View sig .tc .vmem S1536x64 .f32 := scM1_0.view

/-- The scoped buffers this region never touches (the other region's staging buffers and accumulator), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant hands out the accumulator (the last of the scoped buffers in the class's own order) beside the rest. -/
theorem PhiA1_out (c : Dev nD) : (Pipeline.ΦA spec1 c : sProp 𝕄) ⊢ iprop(iprop((∃ d, owns (c : Thread nD τ) scM1_0 fullShare d) ∗ rest1 c) ∗ (∃ r, prngReg c r)) := by
  unfold Pipeline.ΦA rest1; rw [scopedRest1_eq]; simp only [scM1_0, owns_whole]
  iintro ⟨⟨H1, H2, H3, H4, H5, H6, H7, H8, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And takes it back. -/
theorem PhiA1_in (c : Dev nD) : (iprop(iprop((∃ d, owns (c : Thread nD τ) scM1_0 fullShare d) ∗ rest1 c) ∗ (∃ r, prngReg c r)) : sProp 𝕄) ⊢ Pipeline.ΦA spec1 c := by
  unfold Pipeline.ΦA rest1; rw [scopedRest1_eq]; simp only [scM1_0, owns_whole]
  iintro ⟨⟨HS, H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-- The two are rearrangements of one another, hence equal. -/
theorem PhiA1_eq (c : Dev nD) :
    (Pipeline.ΦA spec1 c : sProp 𝕄) = iprop(iprop((∃ d, owns (c : Thread nD τ) scM1_0 fullShare d) ∗ rest1 c) ∗ (∃ r, prngReg c r)) :=
  equiv_iff.mp ⟨PhiA1_out c, PhiA1_in c⟩

end Cert.KernelIdeal.Frm

end
-- ==== Proof.IR1A.lean ====
/- Region 1, a point with reduction coordinate 0: the accumulator is zeroed, then the first tile product is added.
   The output tile's buffer is handed back untouched. -/
import proofs.«101834_j14396730376572_1_alg».proof.Proof.IR1a

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body runs to the continuation holding
    the inputs as they were, the untouched output buffer, and the accumulator with its pieces written. -/
noncomputable def kernelRun1_A (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : cond1_0 i) (hc1 : ¬cond1_1 i)
    (x0 : Vec F S1536x1536 .bf16) (x1 : Vec F S1536x64 .bf16) (x2 : Vec F S1x64 .f32) :
    Σ' (L3 : List (View.Piece (Elt F) S1536x64 .f32)), { LS0 : List (View.Piece (Elt F) S1536x64 .f32) //
      ∀ (xi3 : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__dense_matmul_kernel i arg2 harg2 arg3 harg3 arg4 harg4 arg5 harg5 arg6 harg6) K } := by
  refine ⟨[], ?_, fun xi3 E K => ?run⟩
  case run =>
    simp only [cc1__dense_matmul_kernel_eq_skeleton]; unfold cc1__dense_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.IR1B.lean ====
/- Region 1, a point with reduction coordinate 1 to 6: one more tile product is added to the accumulator,
   which holds what the point before left. The output tile's buffer is handed back untouched. -/
import proofs.«101834_j14396730376572_1_alg».proof.Proof.IR1a

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : ¬cond1_1 i)
    (x0 : Vec F S1536x1536 .bf16) (x1 : Vec F S1536x64 .bf16) (x2 : Vec F S1x64 .f32) (xs0 : Vec F S1536x64 .f32) :
    Σ' (L3 : List (View.Piece (Elt F) S1536x64 .f32)), { LS0 : List (View.Piece (Elt F) S1536x64 .f32) //
      ∀ (xi3 : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__dense_matmul_kernel i arg2 harg2 arg3 harg3 arg4 harg4 arg5 harg5 arg6 harg6) K } := by
  refine ⟨[], ?_, fun xi3 E K => ?run⟩
  case run =>
    simp only [cc1__dense_matmul_kernel_eq_skeleton]; unfold cc1__dense_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.IR1C.lean ====
/- Region 1, a point with reduction coordinate 7: the last tile product is added, then the bias row is added to the
   accumulator, the result clamped below at zero, and stored as the output tile. -/
import proofs.«101834_j14396730376572_1_alg».proof.Proof.IR1a

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) :
    Σ' (L3 : List (View.Piece (Elt F) S1536x64 .f32)), { LS0 : List (View.Piece (Elt F) S1536x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__dense_matmul_kernel i arg2 harg2 arg3 harg3 arg4 harg4 arg5 harg5 arg6 harg6) K } := by
  refine ⟨?_, ?_, fun E K => ?run⟩
  case run =>
    simp only [cc1__dense_matmul_kernel_eq_skeleton]; unfold cc1__dense_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frm

end
-- ==== Proof.IR1.lean ====
/- Region 1 assembled: what each control case leaves in the accumulator and in the output tile's buffer, those
   contents point by point along the grid (the accumulator after point t is what the case at t makes of the blocks at t
   and of the accumulator after point t - 1), the region's invariant, its proof data and the body obligation. -/
import proofs.«101834_j14396730376572_1_alg».proof.Proof.IR1A
import proofs.«101834_j14396730376572_1_alg».proof.Proof.IR1B
import proofs.«101834_j14396730376572_1_alg».proof.Proof.IR1C

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Reduction coordinate 0 stores nothing into the output tile's buffer: a placeholder nothing consults. -/
def out1_A_3 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : cond1_0 i) (hc1 : ¬cond1_1 i)
    (x0 : Vec F S1536x1536 .bf16) (x1 : Vec F S1536x64 .bf16) (x2 : Vec F S1x64 .f32) : Vec F S1536x64 .f32 :=
  VO1_3.read (Elt F) (VO1_3.writes (Elt F) VO1_3.junk (kernelRun1_A c i arg2 harg2 arg3 harg3 arg4 harg4 arg5 harg5 arg6 harg6 hc0 hc1 x0 x1 x2).1)

/-- Its stores into the accumulator cover it. -/
theorem scover1_A_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : cond1_0 i) (hc1 : ¬cond1_1 i)
    (x0 : Vec F S1536x1536 .bf16) (x1 : Vec F S1536x64 .bf16) (x2 : Vec F S1x64 .f32) (y : S1536x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1536x64.size (by sl_kernel_rfl) y

/-- What reduction coordinate 0 leaves in the accumulator. -/
def sout1_A_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : cond1_0 i) (hc1 : ¬cond1_1 i)
    (x0 : Vec F S1536x1536 .bf16) (x1 : Vec F S1536x64 .bf16) (x2 : Vec F S1x64 .f32) : Vec F S1536x64 .f32 :=
  VS1_0.read (Elt F) (VS1_0.writes (Elt F) VS1_0.junk (kernelRun1_A c i arg2 harg2 arg3 harg3 arg4 harg4 arg5 harg5 arg6 harg6 hc0 hc1 x0 x1 x2).2.1)

def out1_B_3 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : ¬cond1_1 i)
    (x0 : Vec F S1536x1536 .bf16) (x1 : Vec F S1536x64 .bf16) (x2 : Vec F S1x64 .f32) (xs0 : Vec F S1536x64 .f32) : Vec F S1536x64 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : ¬cond1_1 i)
    (x0 : Vec F S1536x1536 .bf16) (x1 : Vec F S1536x64 .bf16) (x2 : Vec F S1x64 .f32) (xs0 : Vec F S1536x64 .f32) (y : S1536x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1536x64.size (by sl_kernel_rfl) y

/-- What a middle reduction coordinate leaves in the accumulator. -/
def sout1_B_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : ¬cond1_1 i)
    (x0 : Vec F S1536x1536 .bf16) (x1 : Vec F S1536x64 .bf16) (x2 : Vec F S1x64 .f32) (xs0 : Vec F S1536x64 .f32) : Vec F S1536x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- At reduction coordinate 7 the one store into the output tile's buffer covers it. -/
theorem cover1_C_3 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) (y : S1536x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1536x64.size (by sl_kernel_rfl) y

/-- What reduction coordinate 7 leaves in the output tile's buffer. -/
def out1_C_3 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) : Vec F S1536x64 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) (y : S1536x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1536x64.size (by sl_kernel_rfl) y

/-- What reduction coordinate 7 leaves in the accumulator. -/
def sout1_C_0 (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i)
    (x0 : Vec F S1536x1536 .bf16) (x1 : Vec F S1536x64 .bf16) (x2 : Vec F S1x64 .f32) (xs0 : Vec F S1536x64 .f32) : Vec F S1536x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## The contents point by point -/

/-- After the body at position `n`: the output tile's buffer and the accumulator. -/
def outsAt1 (c : Dev nD) : (n : ℕ) → n < cfg1.N → Vec F S1536x64 .f32 × Vec F S1536x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at first the class's (every scoped buffer at anything); afterwards
    the accumulator at what the point before left, the untouched scoped buffers, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the remainder of the point's position modulo 8 says
    which case applies; the invariant hands the body the accumulator at what the point before left (at anything at the
    very first point) and takes it back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frm

end
-- ==== Proof.IRun.lean ====
/- The whole program's run. Between two items of @main a core holds every unscoped buffer at a valuation: the launch
   memory, then each stretch of host operations applied in turn, and after a region its result array replaced by
   what the region's write-backs leave (the array assembled from the output tiles stored at reduction coordinate 7).
   Each region is entered from those buffers, the generator register at some state and nothing owed, and left the same way. -/
import proofs.«101834_j14396730376572_1_alg».proof.Proof.IR0
import proofs.«101834_j14396730376572_1_alg».proof.Proof.IR1
import proofs.«101834_j14396730376572_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The buffers as region 0 finds them. -/
abbrev Vt5 : (c : Dev nD) → (b : Ref sig .tc) → Buf (Elt F) ((c : Thread nD τ).loc b) := fun c b => V5 m c b

/-- What region 0's write-backs leave in its result array. -/
def res0 (c : Dev nD) : Buf (Elt F) ((c : Thread nD τ).loc main_v53) := (dat0 (Vt5 m) c).arrAt 3 cfg0.N

/-- The regions' results so far: region 0's. -/
def outsA : Outs (F := F) := fun _ r c =>
  Function.update (fun r' : Ref sig .tc => (m ((c : Thread nD τ).loc r') : Buf (Elt F) ((c : Thread nD τ).loc r'))) main_v53 (res0 m c) r

/-- The buffers as region 1 finds them. -/
abbrev Vt9 : (c : Dev nD) → (b : Ref sig .tc) → Buf (Elt F) ((c : Thread nD τ).loc b) := fun c b => V9 m (outsA m) c b

/-- What region 1's write-backs leave in its result array. -/
def res1 (c : Dev nD) : Buf (Elt F) ((c : Thread nD τ).loc main_v59) := (dat1 (Vt9 m) c).arrAt 3 cfg1.N

/-- Both regions' results. -/
def outs : Outs (F := F) := fun _ r c =>
  Function.update (Function.update (fun r' : Ref sig .tc => (m ((c : Thread nD τ).loc r') : Buf (Elt F) ((c : Thread nD τ).loc r'))) main_v53 (res0 m c)) main_v59 (res1 m c) r

theorem outsA_v53 (c : Dev nD) : outsA m 6 main_v53 c = res0 m c := by
  unfold outsA; exact Function.update_self _ _ _

theorem outs_v53 (c : Dev nD) : outs m 6 main_v53 c = res0 m c := by
  unfold outs
  rw [Function.update_of_ne (by decide : (main_v53 : Ref sig .tc) ≠ main_v59)]
  exact Function.update_self _ _ _

theorem outs_v59 (c : Dev nD) : outs m 10 main_v59 c = res1 m c := by
  unfold outs; exact Function.update_self _ _ _

/-- Region 1 is entered from the same buffers whichever of the two tables is read: only region 0's result matters there. -/
theorem V9_outs (c : Dev nD) : V9 m (outs m) c = V9 m (outsA m) c := by
  show StableHlo.after hostOps1_2 (StableHlo.after hostOps1_1 (StableHlo.after hostOps1 (Function.update (V5 m c) main_v53 (outs m 6 main_v53 c))))
     = StableHlo.after hostOps1_2 (StableHlo.after hostOps1_1 (StableHlo.after hostOps1 (Function.update (V5 m c) main_v53 (outsA m 6 main_v53 c))))
  rw [outs_v53, outsA_v53]

/-- Every pipeline's proof data, each at its region's entry contents. -/
def pdats : (p : Fin 2) → (c : Dev nD) → Dat τ (Elt F) Unit ℕ (UR sig nD τ) ℕ (cfgs p) c
  | ⟨0, _⟩ => fun c => dat0 (Vt5 m) c
  | ⟨1, _⟩ => fun c => dat1 (Vt9 m) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- At region 0's exit each of its arrays holds what the pipeline leaves, -/
theorem hF0 (c : Dev nD) (w : Fin cfg0.W) : (pdats m 0 c).arrAt w cfg0.N = V6 m (outs m) c (Pipeline.arrRef spec0 w) := by
  show (dat0 (Vt5 m) c).arrAt w cfg0.N = _
  match w with
  | ⟨0, _⟩ => exact ((dat0 (Vt5 m) c).arrAt_in 0 rfl _).trans ((A_eq0 (Vt5 m) c 0).trans (V6_of m (outs m) c main_v48 (by decide)).symm)
  | ⟨1, _⟩ => exact ((dat0 (Vt5 m) c).arrAt_in 1 rfl _).trans ((A_eq0 (Vt5 m) c 1).trans (V6_of m (outs m) c main_v51 (by decide)).symm)
  | ⟨2, _⟩ => exact ((dat0 (Vt5 m) c).arrAt_in 2 rfl _).trans ((A_eq0 (Vt5 m) c 2).trans (V6_of m (outs m) c main_v52 (by decide)).symm)
  | ⟨3, _⟩ =>
    show res0 m c = Function.update (V5 m c) main_v53 (outs m 6 main_v53 c) main_v53
    rw [Function.update_self, outs_v53]

/-- and every other buffer what it held at entry. -/
theorem hrest0 (c : Dev nD) : ∀ b : Ref sig .tc, b ∉ Finset.univ.image (Pipeline.arrRef spec0) → V6 m (outs m) c b = V5 m c b :=
  fun b hb => V6_of m (outs m) c b (by
    intro h
    rw [List.mem_singleton] at h
    exact hb (Finset.mem_image.mpr ⟨3, Finset.mem_univ _, h.symm⟩))

theorem hF1 (c : Dev nD) (w : Fin cfg1.W) : (pdats m 1 c).arrAt w cfg1.N = V10 m (outs m) c (Pipeline.arrRef spec1 w) := by
  show (dat1 (Vt9 m) c).arrAt w cfg1.N = _
  match w with
  | ⟨0, _⟩ => exact ((dat1 (Vt9 m) c).arrAt_in 0 rfl _).trans ((A_eq1 (Vt9 m) c 0).trans ((congrFun (V9_outs m c) _).symm.trans (V10_of m (outs m) c main_v48 (by decide)).symm))
  | ⟨1, _⟩ => exact ((dat1 (Vt9 m) c).arrAt_in 1 rfl _).trans ((A_eq1 (Vt9 m) c 1).trans ((congrFun (V9_outs m c) _).symm.trans (V10_of m (outs m) c main_v57 (by decide)).symm))
  | ⟨2, _⟩ => exact ((dat1 (Vt9 m) c).arrAt_in 2 rfl _).trans ((A_eq1 (Vt9 m) c 2).trans ((congrFun (V9_outs m c) _).symm.trans (V10_of m (outs m) c main_v58 (by decide)).symm))
  | ⟨3, _⟩ =>
    show res1 m c = Function.update (V9 m (outs m) c) main_v59 (outs m 10 main_v59 c) main_v59
    rw [Function.update_self, outs_v59]

theorem hrest1 (c : Dev nD) : ∀ b : Ref sig .tc, b ∉ Finset.univ.image (Pipeline.arrRef spec1) → V10 m (outs m) c b = Vt9 m c b :=
  fun b hb => (V10_of m (outs m) c b (by
    intro h
    rw [List.mem_singleton] at h
    exact hb (Finset.mem_image.mpr ⟨3, Finset.mem_univ _, h.symm⟩))).trans (congrFun (V9_outs m c) _)

-- a library lemma stated over the pinned configuration unifies with the printed one only when unification may unfold
-- plain definitions in a metavariable's type
set_option backward.isDefEq.respectTransparency.types false in
/-- Region 0 over the thread state: its arrays split out of the unscoped buffers and put back at the exit contents;
    the generator register into the region's invariant and out; nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vt5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (Vt5 m) c
    unfold Pipeline.ΦA at h
    show (dat0 (Vt5 m) c).Φ (Fin.last cfg0.N) ⊢ _
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: its arrays split out of the unscoped buffers and put back at the exit contents;
    the generator register into the region's invariant and out; nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt9 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vt9 m c)
  hentry c := by
    rw [Pipeline.ownSems0_none, V9_outs m c]
    have hsplit := Pipeline.arrays_of_unscopedBufs (p := 1) (pcfgs (F := F)) adm (pdats m) launch1.win launch1.arr_whole c
      ((pdats m 1 c).share_full fun _ => rfl) (Vt9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (Vt9 m) c
    unfold Pipeline.ΦA at h
    show (dat1 (Vt9 m) c).Φ (Fin.last cfg1.N) ⊢ _
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt9 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without what is owed: every unscoped buffer at the last valuation. -/
abbrev Tₙ (c : Dev nD) : sProp 𝕄 := StableHlo.held (c : Thread nD τ) (Pipeline.ucRefs τ sig) (V18 m (outs m) c)

-- the launch theorem's implicit arguments are found by unifying its conclusion with this one, which takes unfolding
-- plain definitions in a metavariable's type
set_option backward.isDefEq.respectTransparency.types false in
/-- THE RUN. From any memory with zero counters every weakly fair execution of @main terminates, nothing faulting, and
    every final memory holds every unscoped buffer at the last valuation: the launch memory, each stretch of host
    operations applied in turn, each region's result array at what its write-backs leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V18 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := Tₙ m)
    (hch := fun c => ⟨.rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V18 m (outs m) c b)
    (hfin := fun c s' => by
      unfold Tₙ StableHlo.held
      iintro ⟨Hh, HSI⟩
      imodintro
      iapply (pointsTo_read_all (Pipeline.ucRefs τ sig) (fun b => (((c : Thread nD τ)).1, b)) (V18 m (outs m) c) s')
      isplitl [Hh] <;> iassumption)
    (hQ := fun _ h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the arguments end as launched (no stretch writes one, no region may change one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (V18_main_arg0 m (outs m) c),
     (h c _ (mem_uc main_arg1 (by decide))).trans (V18_main_arg1 m (outs m) c),
     (h c _ (mem_uc main_arg2 (by decide))).trans (V18_main_arg2 m (outs m) c),
     (h c _ (mem_uc main_arg3 (by decide))).trans (V18_main_arg3 m (outs m) c),
     (h c _ (mem_uc main_arg4 (by decide))).trans (V18_main_arg4 m (outs m) c),
     (h c _ (mem_uc main_arg5 (by decide))).trans (V18_main_arg5 m (outs m) c),
     (h c _ (mem_uc main_arg6 (by decide))).trans (V18_main_arg6 m (outs m) c),
     (h c _ (mem_uc main_arg7 (by decide))).trans (V18_main_arg7 m (outs m) c),
     (h c _ (mem_uc main_arg8 (by decide))).trans (V18_main_arg8 m (outs m) c),
     (h c _ (mem_uc main_arg9 (by decide))).trans (V18_main_arg9 m (outs m) c),
     (h c _ (mem_uc main_arg10 (by decide))).trans (V18_main_arg10 m (outs m) c),
     (h c _ (mem_uc main_arg11 (by decide))).trans (V18_main_arg11 m (outs m) c)⟩) (run_all m ρ)

end Cert.KernelIdeal.Frm

end
-- ==== Proof.LibRun.lean ====
/-
  Three small facts for reading back a line of host operations.
  A two-piece concatenation with its pieces as plain arguments: in `concatenate` the evidence that the pieces' shapes
  add up is typed over the LIST of pieces, so no rewrite can reach a piece inside the list; `concat2` takes the two
  pieces one by one and its evidence speaks of the two shapes alone, so the pieces can be rewritten.
  Contents written through a typed reference and read back through it are the contents; and the launch contents of a
  device's buffer are the launch memory at that device and buffer.
-/
import Idealize.ShloMosaic.Lib.StableHlo.Run

noncomputable section

namespace Idealize.ShloMosaic

/-- A two-piece concatenation along axis `a`, the pieces as arguments. -/
def concat2 {α : Type} (t : Shape) (a : Fin t.rank) (s₁ s₂ : Shape) (x₁ : s₁.Idx → α) (x₂ : s₂.Idx → α)
    (h : Shape.Concatenates [s₁, s₂] t a) : t.Idx → α := concatenate t a [⟨s₁, x₁⟩, ⟨s₂, x₂⟩] h

/-- It is the library's concatenation of the two-element list. -/
theorem concat2_eq {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ x₁ x₂ h := rfl

namespace StableHlo

variable {τ : Topo} {sig : RefSig} {Val : EltTy → Type} {nD : Nat}

/-- Written through a typed reference and read back through it: the value. -/
theorem ofBuf_toBuf {T : BufTy} (x : TRef sig T) (v : T.Contents Val) : x.ofBuf (x.toBuf v) = v := by
  obtain ⟨r, h, h1, h2⟩ := x; subst h; rfl

/-- The launch contents of a device's buffer: the launch memory there. -/
theorem launchContents_apply (m : (ℓ : Loc nD τ sig) → Buf Val ℓ) (d : Dev nD) (b : DevRef τ sig) :
    launchContents m d b = m (d, b) := rfl

end StableHlo

end Idealize.ShloMosaic

end
-- ==== Proof.HTail.lean ====
/- After the second dense layer both programs do the same thing to its output h (one row of 64 features per node): three sparse
   graph-convolution layers — multiply by a weight matrix, gather the rows along the edge list extended by one self loop per node, scale
   each gathered row by the symmetric normalization 1/sqrt(deg src * deg dst), sum the rows arriving at each node, add the bias,
   clamp below at zero after the first two — and then a row-wise log-softmax (subtract the row maximum, subtract the logarithm of
   the row's sum of exponentials). Here that whole stretch is ONE function of h, of the two rows s and d of the edge list, of the
   node numbering io and of the six parameters x6 .. x11, written stage by stage. Nothing below is ever opened: both programs'
   results are this function at equal arguments. -/
import proofs.«101834_j14396730376572_1_alg».proof.Proof.RefRead

noncomputable section

namespace Cert.Bridge

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

def u_main_v59 (s : (⟨S400000, .i32⟩ : BufTy).Contents (Elt F)) (io : (⟨S12000, .i32⟩ : BufTy).Contents (Elt F)) : (⟨S412000, .i32⟩ : BufTy).Contents (Elt F) :=
  concatenate S412000 0 [⟨S400000, (s)⟩, ⟨S12000, (io)⟩] concatenates_S400000_S12000_S412000_d0
def u_main_v60 (d : (⟨S400000, .i32⟩ : BufTy).Contents (Elt F)) (io : (⟨S12000, .i32⟩ : BufTy).Contents (Elt F)) : (⟨S412000, .i32⟩ : BufTy).Contents (Elt F) :=
  concatenate S412000 0 [⟨S400000, (d)⟩, ⟨S12000, (io)⟩] concatenates_S400000_S12000_S412000_d0
def u_main_cst_12 : (⟨S_, .f32⟩ : BufTy).Contents (Elt F) :=
  constant S_ .f32 0x3F800000#32
def u_main_v61 : (⟨S412000, .f32⟩ : BufTy).Contents (Elt F) :=
  broadcastInDim S412000 ![] bcast_S_S412000 (u_main_cst_12 (F := F))
def u_main_cst_13 : (⟨S_, .f32⟩ : BufTy).Contents (Elt F) :=
  constant S_ .f32 0x00000000#32
def u_main_v62 : (⟨S12000, .f32⟩ : BufTy).Contents (Elt F) :=
  broadcastInDim S12000 ![] bcast_S_S12000 (u_main_cst_13 (F := F))
def u_main_v63 (d : (⟨S400000, .i32⟩ : BufTy).Contents (Elt F)) (io : (⟨S12000, .i32⟩ : BufTy).Contents (Elt F)) : (⟨S412000x1, .i32⟩ : BufTy).Contents (Elt F) :=
  broadcastInDim S412000x1 ![0] bcast_S412000_S412000x1_0 (u_main_v60 (F := F) d io)
def u_main_v64 (d : (⟨S400000, .i32⟩ : BufTy).Contents (Elt F)) (io : (⟨S12000, .i32⟩ : BufTy).Contents (Elt F)) : (⟨S12000, .f32⟩ : BufTy).Contents (Elt F) :=
  Host.scatterAdd scatter_S12000_S412000x1_S412000_n_0_0_1 (u_main_v62 (F := F)) (u_main_v63 (F := F) d io) (u_main_v61 (F := F))
def u_main_cst_14 : (⟨S_, .f32⟩ : BufTy).Contents (Elt F) :=
  constant S_ .f32 0x00000000#32
def u_main_v65 : (⟨S12000, .f32⟩ : BufTy).Contents (Elt F) :=
  broadcastInDim S12000 ![] bcast_S_S12000 (u_main_cst_14 (F := F))
def u_main_v66 (d : (⟨S400000, .i32⟩ : BufTy).Contents (Elt F)) (io : (⟨S12000, .i32⟩ : BufTy).Contents (Elt F)) : (⟨S12000, .i1⟩ : BufTy).Contents (Elt F) :=
  cmpf .ogt (u_main_v64 (F := F) d io) (u_main_v65 (F := F))
def u_main_cst_15 : (⟨S_, .f32⟩ : BufTy).Contents (Elt F) :=
  constant S_ .f32 0xBF000000#32
def u_main_v67 : (⟨S12000, .f32⟩ : BufTy).Contents (Elt F) :=
  broadcastInDim S12000 ![] bcast_S_S12000 (u_main_cst_15 (F := F))
def u_main_v68 (d : (⟨S400000, .i32⟩ : BufTy).Contents (Elt F)) (io : (⟨S12000, .i32⟩ : BufTy).Contents (Elt F)) : (⟨S12000, .f32⟩ : BufTy).Contents (Elt F) :=
  Host.powf (u_main_v64 (F := F) d io) (u_main_v67 (F := F))
def u_main_cst_16 : (⟨S_, .f32⟩ : BufTy).Contents (Elt F) :=
  constant S_ .f32 0x00000000#32
def u_main_call2_v0 : (⟨S_, .f32⟩ : BufTy).Contents (Elt F) :=
  id (u_main_cst_16 (F := F))
def u_main_call2_v1 : (⟨S12000, .f32⟩ : BufTy).Contents (Elt F) :=
  broadcastInDim S12000 ![] bcast_S_S12000 (u_main_call2_v0 (F := F))
def u_main_v69 (d : (⟨S400000, .i32⟩ : BufTy).Contents (Elt F)) (io : (⟨S12000, .i32⟩ : BufTy).Contents (Elt F)) : (⟨S12000, .f32⟩ : BufTy).Contents (Elt F) :=
  select (u_main_v66 (F := F) d io) (u_main_v68 (F := F) d io) (u_main_call2_v1 (F := F))
def u_main_c_17 : (⟨S_, .i32⟩ : BufTy).Contents (Elt F) :=
  constantI S_ 32 0#32
def u_main_v70 : (⟨S412000, .i32⟩ : BufTy).Contents (Elt F) :=
  broadcastInDim S412000 ![] bcast_S_S412000 (u_main_c_17 (F := F))
def u_main_v71 (s : (⟨S400000, .i32⟩ : BufTy).Contents (Elt F)) (io : (⟨S12000, .i32⟩ : BufTy).Contents (Elt F)) : (⟨S412000, .i1⟩ : BufTy).Contents (Elt F) :=
  cmpi .slt (u_main_v59 (F := F) s io) (u_main_v70 (F := F))
def u_main_c_18 : (⟨S_, .i32⟩ : BufTy).Contents (Elt F) :=
  constantI S_ 32 12000#32
def u_main_v72 : (⟨S412000, .i32⟩ : BufTy).Contents (Elt F) :=
  broadcastInDim S412000 ![] bcast_S_S412000 (u_main_c_18 (F := F))
def u_main_v73 (s : (⟨S400000, .i32⟩ : BufTy).Contents (Elt F)) (io : (⟨S12000, .i32⟩ : BufTy).Contents (Elt F)) : (⟨S412000, .i32⟩ : BufTy).Contents (Elt F) :=
  addi (u_main_v59 (F := F) s io) (u_main_v72 (F := F))
def u_main_v74 (s : (⟨S400000, .i32⟩ : BufTy).Contents (Elt F)) (io : (⟨S12000, .i32⟩ : BufTy).Contents (Elt F)) : (⟨S412000, .i32⟩ : BufTy).Contents (Elt F) :=
  select (u_main_v71 (F := F) s io) (u_main_v73 (F := F) s io) (u_main_v59 (F := F) s io)
def u_main_v75 (s : (⟨S400000, .i32⟩ : BufTy).Contents (Elt F)) (io : (⟨S12000, .i32⟩ : BufTy).Contents (Elt F)) : (⟨S412000x1, .i32⟩ : BufTy).Contents (Elt F) :=
  broadcastInDim S412000x1 ![0] bcast_S412000_S412000x1_0 (u_main_v74 (F := F) s io)
def u_main_v76 (s : (⟨S400000, .i32⟩ : BufTy).Contents (Elt F)) (d : (⟨S400000, .i32⟩ : BufTy).Contents (Elt F)) (io : (⟨S12000, .i32⟩ : BufTy).Contents (Elt F)) : (⟨S412000, .f32⟩ : BufTy).Contents (Elt F) :=
  Host.gather gather_S12000_S412000x1_S412000_n_0_n_n_0_1_1 (u_main_v69 (F := F) d io) (u_main_v75 (F := F) s io)
def u_main_c_19 : (⟨S_, .i32⟩ : BufTy).Contents (Elt F) :=
  constantI S_ 32 0#32
def u_main_v77 : (⟨S412000, .i32⟩ : BufTy).Contents (Elt F) :=
  broadcastInDim S412000 ![] bcast_S_S412000 (u_main_c_19 (F := F))
def u_main_v78 (d : (⟨S400000, .i32⟩ : BufTy).Contents (Elt F)) (io : (⟨S12000, .i32⟩ : BufTy).Contents (Elt F)) : (⟨S412000, .i1⟩ : BufTy).Contents (Elt F) :=
  cmpi .slt (u_main_v60 (F := F) d io) (u_main_v77 (F := F))
def u_main_c_20 : (⟨S_, .i32⟩ : BufTy).Contents (Elt F) :=
  constantI S_ 32 12000#32
def u_main_v79 : (⟨S412000, .i32⟩ : BufTy).Contents (Elt F) :=
  broadcastInDim S412000 ![] bcast_S_S412000 (u_main_c_20 (F := F))
def u_main_v80 (d : (⟨S400000, .i32⟩ : BufTy).Contents (Elt F)) (io : (⟨S12000, .i32⟩ : BufTy).Contents (Elt F)) : (⟨S412000, .i32⟩ : BufTy).Contents (Elt F) :=
  addi (u_main_v60 (F := F) d io) (u_main_v79 (F := F))
def u_main_v81 (d : (⟨S400000, .i32⟩ : BufTy).Contents (Elt F)) (io : (⟨S12000, .i32⟩ : BufTy).Contents (Elt F)) : (⟨S412000, .i32⟩ : BufTy).Contents (Elt F) :=
  select (u_main_v78 (F := F) d io) (u_main_v80 (F := F) d io) (u_main_v60 (F := F) d io)
def u_main_v82 (d : (⟨S400000, .i32⟩ : BufTy).Contents (Elt F)) (io : (⟨S12000, .i32⟩ : BufTy).Contents (Elt F)) : (⟨S412000x1, .i32⟩ : BufTy).Contents (Elt F) :=
  broadcastInDim S412000x1 ![0] bcast_S412000_S412000x1_0 (u_main_v81 (F := F) d io)
def u_main_v83 (d : (⟨S400000, .i32⟩ : BufTy).Contents (Elt F)) (io : (⟨S12000, .i32⟩ : BufTy).Contents (Elt F)) : (⟨S412000, .f32⟩ : BufTy).Contents (Elt F) :=
  Host.gather gather_S12000_S412000x1_S412000_n_0_n_n_0_1_1 (u_main_v69 (F := F) d io) (u_main_v82 (F := F) d io)
def u_main_v84 (s : (⟨S400000, .i32⟩ : BufTy).Contents (Elt F)) (d : (⟨S400000, .i32⟩ : BufTy).Contents (Elt F)) (io : (⟨S12000, .i32⟩ : BufTy).Contents (Elt F)) : (⟨S412000, .f32⟩ : BufTy).Contents (Elt F) :=
  mulf (u_main_v76 (F := F) s d io) (u_main_v83 (F := F) d io)
def u_main_v85 (h : (⟨S12000x64, .f32⟩ : BufTy).Contents (Elt F)) (x6 : (⟨S64x128, .f32⟩ : BufTy).Contents (Elt F)) : (⟨S12000x128, .f32⟩ : BufTy).Contents (Elt F) :=
  Host.dotGeneral dot_S12000x64_S64x128_S12000x128_1_0_0_1_n_n none (h) (x6)
def u_main_v86 (s : (⟨S400000, .i32⟩ : BufTy).Contents (Elt F)) (d : (⟨S400000, .i32⟩ : BufTy).Contents (Elt F)) (io : (⟨S12000, .i32⟩ : BufTy).Contents (Elt F)) : (⟨S412000x1, .f32⟩ : BufTy).Contents (Elt F) :=
  broadcastInDim S412000x1 ![0] bcast_S412000_S412000x1_0 (u_main_v84 (F := F) s d io)
def u_main_c_21 : (⟨S_, .i32⟩ : BufTy).Contents (Elt F) :=
  constantI S_ 32 0#32
def u_main_v87 : (⟨S412000, .i32⟩ : BufTy).Contents (Elt F) :=
  broadcastInDim S412000 ![] bcast_S_S412000 (u_main_c_21 (F := F))
def u_main_v88 (s : (⟨S400000, .i32⟩ : BufTy).Contents (Elt F)) (io : (⟨S12000, .i32⟩ : BufTy).Contents (Elt F)) : (⟨S412000, .i1⟩ : BufTy).Contents (Elt F) :=
  cmpi .slt (u_main_v59 (F := F) s io) (u_main_v87 (F := F))
def u_main_c_22 : (⟨S_, .i32⟩ : BufTy).Contents (Elt F) :=
  constantI S_ 32 12000#32
def u_main_v89 : (⟨S412000, .i32⟩ : BufTy).Contents (Elt F) :=
  broadcastInDim S412000 ![] bcast_S_S412000 (u_main_c_22 (F := F))
def u_main_v90 (s : (⟨S400000, .i32⟩ : BufTy).Contents (Elt F)) (io : (⟨S12000, .i32⟩ : BufTy).Contents (Elt F)) : (⟨S412000, .i32⟩ : BufTy).Contents (Elt F) :=
  addi (u_main_v59 (F := F) s io) (u_main_v89 (F := F))
def u_main_v91 (s : (⟨S400000, .i32⟩ : BufTy).Contents (Elt F)) (io : (⟨S12000, .i32⟩ : BufTy).Contents (Elt F)) : (⟨S412000, .i32⟩ : BufTy).Contents (Elt F) :=
  select (u_main_v88 (F := F) s io) (u_main_v90 (F := F) s io) (u_main_v59 (F := F) s io)
def u_main_v92 (s : (⟨S400000, .i32⟩ : BufTy).Contents (Elt F)) (io : (⟨S12000, .i32⟩ : BufTy).Contents (Elt F)) : (⟨S412000x1, .i32⟩ : BufTy).Contents (Elt F) :=
  broadcastInDim S412000x1 ![0] bcast_S412000_S412000x1_0 (u_main_v91 (F := F) s io)
def u_main_v93 (h : (⟨S12000x64, .f32⟩ : BufTy).Contents (Elt F)) (s : (⟨S400000, .i32⟩ : BufTy).Contents (Elt F)) (io : (⟨S12000, .i32⟩ : BufTy).Contents (Elt F)) (x6 : (⟨S64x128, .f32⟩ : BufTy).Contents (Elt F)) : (⟨S412000x128, .f32⟩ : BufTy).Contents (Elt F) :=
  Host.gather gather_S12000x128_S412000x1_S412000x128_1_0_n_n_0_1_1128 (u_main_v85 (F := F) h x6) (u_main_v92 (F := F) s io)
def u_main_v94 (s : (⟨S400000, .i32⟩ : BufTy).Contents (Elt F)) (d : (⟨S400000, .i32⟩ : BufTy).Contents (Elt F)) (io : (⟨S12000, .i32⟩ : BufTy).Contents (Elt F)) : (⟨S412000x128, .f32⟩ : BufTy).Contents (Elt F) :=
  broadcastInDim S412000x128 ![0, 1] bcast_S412000x1_S412000x128_0_1 (u_main_v86 (F := F) s d io)
def u_main_v95 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) : (⟨S412000x128, .f32⟩ : BufTy).Contents (Elt F) :=
  mulf (u_main_v94 (F := F) s d io) (u_main_v93 (F := F) h s io x6)
def u_main_cst_23 : (⟨S_, .f32⟩ : BufTy).Contents (Elt F) :=
  constant S_ .f32 0x00000000#32
def u_main_v96 : (⟨S12000x128, .f32⟩ : BufTy).Contents (Elt F) :=
  broadcastInDim S12000x128 ![] bcast_S_S12000x128 (u_main_cst_23 (F := F))
def u_main_v97 (d : (⟨S400000, .i32⟩ : BufTy).Contents (Elt F)) (io : (⟨S12000, .i32⟩ : BufTy).Contents (Elt F)) : (⟨S412000x1, .i32⟩ : BufTy).Contents (Elt F) :=
  broadcastInDim S412000x1 ![0] bcast_S412000_S412000x1_0 (u_main_v60 (F := F) d io)
def u_main_v98 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) : (⟨S12000x128, .f32⟩ : BufTy).Contents (Elt F) :=
  Host.scatterAdd scatter_S12000x128_S412000x1_S412000x128_1_0_0_1 (u_main_v96 (F := F)) (u_main_v97 (F := F) d io) (u_main_v95 (F := F) h s d io x6)
def u_main_v99 (x7 : (⟨S128, .f32⟩ : BufTy).Contents (Elt F)) : (⟨S1x128, .f32⟩ : BufTy).Contents (Elt F) :=
  broadcastInDim S1x128 ![1] bcast_S128_S1x128_1 (x7)
def u_main_v100 (x7 : (⟨S128, .f32⟩ : BufTy).Contents (Elt F)) : (⟨S12000x128, .f32⟩ : BufTy).Contents (Elt F) :=
  broadcastInDim S12000x128 ![0, 1] bcast_S1x128_S12000x128_0_1 (u_main_v99 (F := F) x7)
def u_main_v101 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) : (⟨S12000x128, .f32⟩ : BufTy).Contents (Elt F) :=
  addf (u_main_v98 (F := F) h s d io x6) (u_main_v100 (F := F) x7)
def u_main_call3_cst : (⟨S_, .f32⟩ : BufTy).Contents (Elt F) :=
  constant S_ .f32 0x00000000#32
def u_main_call3_v0 : (⟨S12000x128, .f32⟩ : BufTy).Contents (Elt F) :=
  broadcastInDim S12000x128 ![] bcast_S_S12000x128 (u_main_call3_cst (F := F))
def u_main_v102 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) : (⟨S12000x128, .f32⟩ : BufTy).Contents (Elt F) :=
  maximumf (u_main_v101 (F := F) h s d io x6 x7) (u_main_call3_v0 (F := F))
def u_main_v103 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) : (⟨S12000x128, .f32⟩ : BufTy).Contents (Elt F) :=
  Host.dotGeneral dot_S12000x128_S128x128_S12000x128_1_0_0_1_n_n none (u_main_v102 (F := F) h s d io x6 x7) (x8)
def u_main_v104 (s : (⟨S400000, .i32⟩ : BufTy).Contents (Elt F)) (d : (⟨S400000, .i32⟩ : BufTy).Contents (Elt F)) (io : (⟨S12000, .i32⟩ : BufTy).Contents (Elt F)) : (⟨S412000x1, .f32⟩ : BufTy).Contents (Elt F) :=
  broadcastInDim S412000x1 ![0] bcast_S412000_S412000x1_0 (u_main_v84 (F := F) s d io)
def u_main_c_24 : (⟨S_, .i32⟩ : BufTy).Contents (Elt F) :=
  constantI S_ 32 0#32
def u_main_v105 : (⟨S412000, .i32⟩ : BufTy).Contents (Elt F) :=
  broadcastInDim S412000 ![] bcast_S_S412000 (u_main_c_24 (F := F))
def u_main_v106 (s : (⟨S400000, .i32⟩ : BufTy).Contents (Elt F)) (io : (⟨S12000, .i32⟩ : BufTy).Contents (Elt F)) : (⟨S412000, .i1⟩ : BufTy).Contents (Elt F) :=
  cmpi .slt (u_main_v59 (F := F) s io) (u_main_v105 (F := F))
def u_main_c_25 : (⟨S_, .i32⟩ : BufTy).Contents (Elt F) :=
  constantI S_ 32 12000#32
def u_main_v107 : (⟨S412000, .i32⟩ : BufTy).Contents (Elt F) :=
  broadcastInDim S412000 ![] bcast_S_S412000 (u_main_c_25 (F := F))
def u_main_v108 (s : (⟨S400000, .i32⟩ : BufTy).Contents (Elt F)) (io : (⟨S12000, .i32⟩ : BufTy).Contents (Elt F)) : (⟨S412000, .i32⟩ : BufTy).Contents (Elt F) :=
  addi (u_main_v59 (F := F) s io) (u_main_v107 (F := F))
def u_main_v109 (s : (⟨S400000, .i32⟩ : BufTy).Contents (Elt F)) (io : (⟨S12000, .i32⟩ : BufTy).Contents (Elt F)) : (⟨S412000, .i32⟩ : BufTy).Contents (Elt F) :=
  select (u_main_v106 (F := F) s io) (u_main_v108 (F := F) s io) (u_main_v59 (F := F) s io)
def u_main_v110 (s : (⟨S400000, .i32⟩ : BufTy).Contents (Elt F)) (io : (⟨S12000, .i32⟩ : BufTy).Contents (Elt F)) : (⟨S412000x1, .i32⟩ : BufTy).Contents (Elt F) :=
  broadcastInDim S412000x1 ![0] bcast_S412000_S412000x1_0 (u_main_v109 (F := F) s io)
def u_main_v111 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) : (⟨S412000x128, .f32⟩ : BufTy).Contents (Elt F) :=
  Host.gather gather_S12000x128_S412000x1_S412000x128_1_0_n_n_0_1_1128 (u_main_v103 (F := F) h s d io x6 x7 x8) (u_main_v110 (F := F) s io)
def u_main_v112 (s : (⟨S400000, .i32⟩ : BufTy).Contents (Elt F)) (d : (⟨S400000, .i32⟩ : BufTy).Contents (Elt F)) (io : (⟨S12000, .i32⟩ : BufTy).Contents (Elt F)) : (⟨S412000x128, .f32⟩ : BufTy).Contents (Elt F) :=
  broadcastInDim S412000x128 ![0, 1] bcast_S412000x1_S412000x128_0_1 (u_main_v104 (F := F) s d io)
def u_main_v113 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) : (⟨S412000x128, .f32⟩ : BufTy).Contents (Elt F) :=
  mulf (u_main_v112 (F := F) s d io) (u_main_v111 (F := F) h s d io x6 x7 x8)
def u_main_cst_26 : (⟨S_, .f32⟩ : BufTy).Contents (Elt F) :=
  constant S_ .f32 0x00000000#32
def u_main_v114 : (⟨S12000x128, .f32⟩ : BufTy).Contents (Elt F) :=
  broadcastInDim S12000x128 ![] bcast_S_S12000x128 (u_main_cst_26 (F := F))
def u_main_v115 (d : (⟨S400000, .i32⟩ : BufTy).Contents (Elt F)) (io : (⟨S12000, .i32⟩ : BufTy).Contents (Elt F)) : (⟨S412000x1, .i32⟩ : BufTy).Contents (Elt F) :=
  broadcastInDim S412000x1 ![0] bcast_S412000_S412000x1_0 (u_main_v60 (F := F) d io)
def u_main_v116 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) : (⟨S12000x128, .f32⟩ : BufTy).Contents (Elt F) :=
  Host.scatterAdd scatter_S12000x128_S412000x1_S412000x128_1_0_0_1 (u_main_v114 (F := F)) (u_main_v115 (F := F) d io) (u_main_v113 (F := F) h s d io x6 x7 x8)
def u_main_v117 (x9 : (⟨S128, .f32⟩ : BufTy).Contents (Elt F)) : (⟨S1x128, .f32⟩ : BufTy).Contents (Elt F) :=
  broadcastInDim S1x128 ![1] bcast_S128_S1x128_1 (x9)
def u_main_v118 (x9 : (⟨S128, .f32⟩ : BufTy).Contents (Elt F)) : (⟨S12000x128, .f32⟩ : BufTy).Contents (Elt F) :=
  broadcastInDim S12000x128 ![0, 1] bcast_S1x128_S12000x128_0_1 (u_main_v117 (F := F) x9)
def u_main_v119 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S12000x128, .f32⟩ : BufTy).Contents (Elt F) :=
  addf (u_main_v116 (F := F) h s d io x6 x7 x8) (u_main_v118 (F := F) x9)
def u_main_call4_cst : (⟨S_, .f32⟩ : BufTy).Contents (Elt F) :=
  constant S_ .f32 0x00000000#32
def u_main_call4_v0 : (⟨S12000x128, .f32⟩ : BufTy).Contents (Elt F) :=
  broadcastInDim S12000x128 ![] bcast_S_S12000x128 (u_main_call4_cst (F := F))
def u_main_v120 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S12000x128, .f32⟩ : BufTy).Contents (Elt F) :=
  maximumf (u_main_v119 (F := F) h s d io x6 x7 x8 x9) (u_main_call4_v0 (F := F))
def u_main_v121 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) : (⟨S12000x6, .f32⟩ : BufTy).Contents (Elt F) :=
  Host.dotGeneral dot_S12000x128_S128x6_S12000x6_1_0_0_1_n_n none (u_main_v120 (F := F) h s d io x6 x7 x8 x9) (x10)
def u_main_v122 (s : (⟨S400000, .i32⟩ : BufTy).Contents (Elt F)) (d : (⟨S400000, .i32⟩ : BufTy).Contents (Elt F)) (io : (⟨S12000, .i32⟩ : BufTy).Contents (Elt F)) : (⟨S412000x1, .f32⟩ : BufTy).Contents (Elt F) :=
  broadcastInDim S412000x1 ![0] bcast_S412000_S412000x1_0 (u_main_v84 (F := F) s d io)
def u_main_c_27 : (⟨S_, .i32⟩ : BufTy).Contents (Elt F) :=
  constantI S_ 32 0#32
def u_main_v123 : (⟨S412000, .i32⟩ : BufTy).Contents (Elt F) :=
  broadcastInDim S412000 ![] bcast_S_S412000 (u_main_c_27 (F := F))
def u_main_v124 (s : (⟨S400000, .i32⟩ : BufTy).Contents (Elt F)) (io : (⟨S12000, .i32⟩ : BufTy).Contents (Elt F)) : (⟨S412000, .i1⟩ : BufTy).Contents (Elt F) :=
  cmpi .slt (u_main_v59 (F := F) s io) (u_main_v123 (F := F))
def u_main_c_28 : (⟨S_, .i32⟩ : BufTy).Contents (Elt F) :=
  constantI S_ 32 12000#32
def u_main_v125 : (⟨S412000, .i32⟩ : BufTy).Contents (Elt F) :=
  broadcastInDim S412000 ![] bcast_S_S412000 (u_main_c_28 (F := F))
def u_main_v126 (s : (⟨S400000, .i32⟩ : BufTy).Contents (Elt F)) (io : (⟨S12000, .i32⟩ : BufTy).Contents (Elt F)) : (⟨S412000, .i32⟩ : BufTy).Contents (Elt F) :=
  addi (u_main_v59 (F := F) s io) (u_main_v125 (F := F))
def u_main_v127 (s : (⟨S400000, .i32⟩ : BufTy).Contents (Elt F)) (io : (⟨S12000, .i32⟩ : BufTy).Contents (Elt F)) : (⟨S412000, .i32⟩ : BufTy).Contents (Elt F) :=
  select (u_main_v124 (F := F) s io) (u_main_v126 (F := F) s io) (u_main_v59 (F := F) s io)
def u_main_v128 (s : (⟨S400000, .i32⟩ : BufTy).Contents (Elt F)) (io : (⟨S12000, .i32⟩ : BufTy).Contents (Elt F)) : (⟨S412000x1, .i32⟩ : BufTy).Contents (Elt F) :=
  broadcastInDim S412000x1 ![0] bcast_S412000_S412000x1_0 (u_main_v127 (F := F) s io)
def u_main_v129 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) : (⟨S412000x6, .f32⟩ : BufTy).Contents (Elt F) :=
  Host.gather gather_S12000x6_S412000x1_S412000x6_1_0_n_n_0_1_16 (u_main_v121 (F := F) h s d io x6 x7 x8 x9 x10) (u_main_v128 (F := F) s io)
def u_main_v130 (s : (⟨S400000, .i32⟩ : BufTy).Contents (Elt F)) (d : (⟨S400000, .i32⟩ : BufTy).Contents (Elt F)) (io : (⟨S12000, .i32⟩ : BufTy).Contents (Elt F)) : (⟨S412000x6, .f32⟩ : BufTy).Contents (Elt F) :=
  broadcastInDim S412000x6 ![0, 1] bcast_S412000x1_S412000x6_0_1 (u_main_v122 (F := F) s d io)
def u_main_v131 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) : (⟨S412000x6, .f32⟩ : BufTy).Contents (Elt F) :=
  mulf (u_main_v130 (F := F) s d io) (u_main_v129 (F := F) h s d io x6 x7 x8 x9 x10)
def u_main_cst_29 : (⟨S_, .f32⟩ : BufTy).Contents (Elt F) :=
  constant S_ .f32 0x00000000#32
def u_main_v132 : (⟨S12000x6, .f32⟩ : BufTy).Contents (Elt F) :=
  broadcastInDim S12000x6 ![] bcast_S_S12000x6 (u_main_cst_29 (F := F))
def u_main_v133 (d : (⟨S400000, .i32⟩ : BufTy).Contents (Elt F)) (io : (⟨S12000, .i32⟩ : BufTy).Contents (Elt F)) : (⟨S412000x1, .i32⟩ : BufTy).Contents (Elt F) :=
  broadcastInDim S412000x1 ![0] bcast_S412000_S412000x1_0 (u_main_v60 (F := F) d io)
def u_main_v134 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) : (⟨S12000x6, .f32⟩ : BufTy).Contents (Elt F) :=
  Host.scatterAdd scatter_S12000x6_S412000x1_S412000x6_1_0_0_1 (u_main_v132 (F := F)) (u_main_v133 (F := F) d io) (u_main_v131 (F := F) h s d io x6 x7 x8 x9 x10)
def u_main_v135 (x11 : (⟨S6, .f32⟩ : BufTy).Contents (Elt F)) : (⟨S1x6, .f32⟩ : BufTy).Contents (Elt F) :=
  broadcastInDim S1x6 ![1] bcast_S6_S1x6_1 (x11)
def u_main_v136 (x11 : (⟨S6, .f32⟩ : BufTy).Contents (Elt F)) : (⟨S12000x6, .f32⟩ : BufTy).Contents (Elt F) :=
  broadcastInDim S12000x6 ![0, 1] bcast_S1x6_S12000x6_0_1 (u_main_v135 (F := F) x11)
def u_main_v137 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x6, .f32⟩ : BufTy).Contents (Elt F) :=
  addf (u_main_v134 (F := F) h s d io x6 x7 x8 x9 x10) (u_main_v136 (F := F) x11)
def u_main_call5_cst : (⟨S_, .f32⟩ : BufTy).Contents (Elt F) :=
  constant S_ .f32 0xFF800000#32
def u_main_call5_v0 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000, .f32⟩ : BufTy).Contents (Elt F) :=
  Host.reduce FloatOps.maximumf (u_main_v137 (F := F) h s d io x6 x7 x8 x9 x10 x11) (u_main_call5_cst (F := F)) reducesTo_S12000x6_S12000_d1 h_S_
def u_main_call5_cst_0 : (⟨S_, .f32⟩ : BufTy).Contents (Elt F) :=
  constant S_ .f32 0xFF800000#32
def u_main_call5_v1 : (⟨S12000, .f32⟩ : BufTy).Contents (Elt F) :=
  broadcastInDim S12000 ![] bcast_S_S12000 (u_main_call5_cst_0 (F := F))
def u_main_call5_v2 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000, .f32⟩ : BufTy).Contents (Elt F) :=
  maximumf (u_main_call5_v1 (F := F)) (u_main_call5_v0 (F := F) h s d io x6 x7 x8 x9 x10 x11)
def u_main_call5_v3 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x1, .f32⟩ : BufTy).Contents (Elt F) :=
  broadcastInDim S12000x1 ![0] bcast_S12000_S12000x1_0 (u_main_call5_v2 (F := F) h s d io x6 x7 x8 x9 x10 x11)
def u_main_call5_v4 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x6, .f32⟩ : BufTy).Contents (Elt F) :=
  broadcastInDim S12000x6 ![0, 1] bcast_S12000x1_S12000x6_0_1 (u_main_call5_v3 (F := F) h s d io x6 x7 x8 x9 x10 x11)
def u_main_call5_v5 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x6, .f32⟩ : BufTy).Contents (Elt F) :=
  subf (u_main_v137 (F := F) h s d io x6 x7 x8 x9 x10 x11) (u_main_call5_v4 (F := F) h s d io x6 x7 x8 x9 x10 x11)
def u_main_call5_v6 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x6, .f32⟩ : BufTy).Contents (Elt F) :=
  Host.exp (u_main_call5_v5 (F := F) h s d io x6 x7 x8 x9 x10 x11)
def u_main_call5_cst_1 : (⟨S_, .f32⟩ : BufTy).Contents (Elt F) :=
  constant S_ .f32 0x00000000#32
def u_main_call5_v7 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000, .f32⟩ : BufTy).Contents (Elt F) :=
  Host.reduceAdd (u_main_call5_v6 (F := F) h s d io x6 x7 x8 x9 x10 x11) (u_main_call5_cst_1 (F := F)) reducesTo_S12000x6_S12000_d1 h_S_
def u_main_call5_v8 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x1, .f32⟩ : BufTy).Contents (Elt F) :=
  broadcastInDim S12000x1 ![0] bcast_S12000_S12000x1_0 (u_main_call5_v7 (F := F) h s d io x6 x7 x8 x9 x10 x11)
def u_main_call5_v9 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x1, .f32⟩ : BufTy).Contents (Elt F) :=
  Host.log (u_main_call5_v8 (F := F) h s d io x6 x7 x8 x9 x10 x11)
def u_main_call5_v10 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x6, .f32⟩ : BufTy).Contents (Elt F) :=
  broadcastInDim S12000x6 ![0, 1] bcast_S12000x1_S12000x6_0_1 (u_main_call5_v9 (F := F) h s d io x6 x7 x8 x9 x10 x11)
def u_main_v138 (h : (⟨S12000x64, .f32⟩ : BufTy).Contents (Elt F)) (s : (⟨S400000, .i32⟩ : BufTy).Contents (Elt F)) (d : (⟨S400000, .i32⟩ : BufTy).Contents (Elt F)) (io : (⟨S12000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x6, .f32⟩ : BufTy).Contents (Elt F) :=
  subf (u_main_call5_v5 (F := F) h s d io x6 x7 x8 x9 x10 x11) (u_main_call5_v10 (F := F) h s d io x6 x7 x8 x9 x10 x11)

/-- The reference's last stage is this function at the reference's own second dense layer, edge rows and node numbering: the two
    chains of stages are the same text from there on. -/
theorem val_main_v138_eq_tail (x0 : (⟨S12000x512, .f32⟩ : BufTy).Contents (Elt F)) (x1 : (⟨S2x400000, .i32⟩ : BufTy).Contents (Elt F)) (x2 : (⟨S512x32, .f32⟩ : BufTy).Contents (Elt F)) (x3 : (⟨S32, .f32⟩ : BufTy).Contents (Elt F)) (x4 : (⟨S32x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) :
    val_main_v138 (F := F) x0 x1 x2 x3 x4 x5 x6 x7 x8 x9 x10 x11
      = u_main_v138 (F := F) (val_main_v58 (F := F) x0 x1 x2 x3 x4 x5) (val_main_v1 (F := F) x1) (val_main_v3 (F := F) x1)
          (val_main_v4 (F := F)) x6 x7 x8 x9 x10 x11 := rfl

/-- The same function with the edge rows and the node numbering taken from the edge list x1 by the reference's own first stages. -/
def t_main_v138 (h : (⟨S12000x64, .f32⟩ : BufTy).Contents (Elt F)) (x1 : (⟨S2x400000, .i32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) : (⟨S12000x6, .f32⟩ : BufTy).Contents (Elt F) :=
  u_main_v138 (F := F) h (val_main_v1 (F := F) x1) (val_main_v3 (F := F) x1) (val_main_v4 (F := F)) x6 x7 x8 x9 x10 x11

/-- The reference's last stage in that form. -/
theorem val_main_v138_eq_t (x0 : (⟨S12000x512, .f32⟩ : BufTy).Contents (Elt F)) (x1 : (⟨S2x400000, .i32⟩ : BufTy).Contents (Elt F)) (x2 : (⟨S512x32, .f32⟩ : BufTy).Contents (Elt F)) (x3 : (⟨S32, .f32⟩ : BufTy).Contents (Elt F)) (x4 : (⟨S32x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x6, .f32⟩ : BufTy).Contents (Elt F)) (x11 : (⟨S6, .f32⟩ : BufTy).Contents (Elt F)) :
    val_main_v138 (F := F) x0 x1 x2 x3 x4 x5 x6 x7 x8 x9 x10 x11 = t_main_v138 (F := F) (val_main_v58 (F := F) x0 x1 x2 x3 x4 x5) x1 x6 x7 x8 x9 x10 x11 :=
  val_main_v138_eq_tail x0 x1 x2 x3 x4 x5 x6 x7 x8 x9 x10 x11

end Cert.Bridge

end
-- ==== Proof.HPre.lean ====
/- The kernel program's plain operations around its two dense layers compute the reference's own stages: the two rows of the edge
   list, the node numbering, the symmetrically normalized dense adjacency D^-1/2 (A with unit diagonal) D^-1/2 with D = max(row sum, 1),
   and the feature product x · W of each dense layer. Each is the same chain of operations in both programs, so each equation below is
   closed by comparing the two spellings operation by operation; nothing is computed. -/
import proofs.«101834_j14396730376572_1_alg».proof.Proof.RefRead
import proofs.«101834_j14396730376572_1_alg».proof.Proof.Gen.KernelIdeal.Regions

noncomputable section

namespace Cert.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

/-- The first row of the edge list (the sources), after the first stretch of plain operations. -/
theorem V1_src : V1 m c main_v1 = Cert.ReferenceIdeal.ReadP.val_main_v1 (F := Ideal) (m ((c.tc : Thread nD τ).loc main_arg1)) := by
  show StableHlo.after hostOps0 (V0 m c) (Proc.devRef .tc main_v1) = _
  dsimp only [hostOps0]
  after_results_simp
  rfl

/-- The second row of the edge list (the destinations). -/
theorem V1_dst : V1 m c main_v3 = Cert.ReferenceIdeal.ReadP.val_main_v3 (F := Ideal) (m ((c.tc : Thread nD τ).loc main_arg1)) := by
  show StableHlo.after hostOps0 (V0 m c) (Proc.devRef .tc main_v3) = _
  dsimp only [hostOps0]
  after_results_simp
  rfl

/-- The node numbering 0, 1, …, 11999. -/
theorem V1_iota : V1 m c main_v4 = Cert.ReferenceIdeal.ReadP.val_main_v4 (F := Ideal) := by
  show StableHlo.after hostOps0 (V0 m c) (Proc.devRef .tc main_v4) = _
  dsimp only [hostOps0]
  after_results_simp
  rfl

set_option maxRecDepth 8192 in
set_option maxHeartbeats 4000000 in
/-- The normalized dense adjacency. -/
theorem V1_adj : V1 m c main_v46 = Cert.ReferenceIdeal.ReadP.val_main_v46 (F := Ideal) (m ((c.tc : Thread nD τ).loc main_arg1)) := by
  show StableHlo.after hostOps0 (V0 m c) (Proc.devRef .tc main_v46) = _
  dsimp only [hostOps0]
  after_results_simp
  rfl

end Cert.Bridge

end
-- ==== Proof.HKTailAny.lean ====
/- The kernel program's last eight stretches of plain operations, run from ANY buffer contents W, leave in the result buffer
   the shared tail function of: the first 12000 rows of W's second dense result, W's two edge rows and node numbering,
   and W's last six parameters. Stated for any float instance: nothing is evaluated, the two spellings are compared. -/
import proofs.«101834_j14396730376572_1_alg».proof.Proof.HTail
import proofs.«101834_j14396730376572_1_alg».proof.Proof.LibRun
import proofs.«101834_j14396730376572_1_alg».proof.Proof.Gen.KernelIdeal.Regions

noncomputable section

namespace Cert.Bridge

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 80000000 in
theorem tail_any (W : Valuation τ sig (Elt F)) :
    StableHlo.after hostOps2_7 (StableHlo.after hostOps2_6 (StableHlo.after hostOps2_5 (StableHlo.after hostOps2_4
      (StableHlo.after hostOps2_3 (StableHlo.after hostOps2_2 (StableHlo.after hostOps2_1 (StableHlo.after hostOps2 W)))))))
      (Proc.devRef .tc main_v140)
    = u_main_v138 (F := F) (extractStridedSlice S12000x64 ![0, 0] (W (Proc.devRef .tc main_v59)) slices_S12288x64_S12000x64_0_0)
        (W (Proc.devRef .tc main_v1)) (W (Proc.devRef .tc main_v3)) (W (Proc.devRef .tc main_v4))
        (W (Proc.devRef .tc main_arg6)) (W (Proc.devRef .tc main_arg7)) (W (Proc.devRef .tc main_arg8))
        (W (Proc.devRef .tc main_arg9)) (W (Proc.devRef .tc main_arg10)) (W (Proc.devRef .tc main_arg11)) := by
  dsimp only [hostOps2, hostOps2_1, hostOps2_2, hostOps2_3, hostOps2_4, hostOps2_5, hostOps2_6, hostOps2_7]
  after_results_simp
  simp only [concat2_eq]
  after_results_simp
  simp only [StableHlo.ofBuf_toBuf]
  rfl

end Cert.Bridge

end
-- ==== Proof.HKTail.lean ====
/- The kernel program after its second dense layer: the same stretch of operations as the reference's, so the kernel program's
   result is the shared function of HTail.lean at the rows the second layer left (the first 12000 rows of its padded result),
   the edge list and the last six parameters. The stretch reads, of what came before it, only those rows, the two rows of the
   edge list and the node numbering; none of the operations in between rewrites them. -/
import proofs.«101834_j14396730376572_1_alg».proof.Proof.HTail
import proofs.«101834_j14396730376572_1_alg».proof.Proof.HPre
import proofs.«101834_j14396730376572_1_alg».proof.Proof.LibRun
import proofs.«101834_j14396730376572_1_alg».proof.Proof.HKTailAny

noncomputable section

namespace Cert.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

/-- The edge sources reach the last stretch as first computed. -/
theorem V10_src : V10 m outs c main_v1 = Cert.ReferenceIdeal.ReadP.val_main_v1 (F := Ideal) (m ((c.tc : Thread nD τ).loc main_arg1)) :=
  (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m c main_v1 (by decide)).trans <| (V4_of m c main_v1 (by decide)).trans <| (V3_of m c main_v1 (by decide)).trans <| (V2_of m c main_v1 (by decide)).trans <| V1_src m c
/-- The edge destinations reach the last stretch as first computed. -/
theorem V10_dst : V10 m outs c main_v3 = Cert.ReferenceIdeal.ReadP.val_main_v3 (F := Ideal) (m ((c.tc : Thread nD τ).loc main_arg1)) :=
  (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m c main_v3 (by decide)).trans <| (V4_of m c main_v3 (by decide)).trans <| (V3_of m c main_v3 (by decide)).trans <| (V2_of m c main_v3 (by decide)).trans <| V1_dst m c
/-- The node numbering reaches the last stretch as first computed. -/
theorem V10_iota : V10 m outs c main_v4 = Cert.ReferenceIdeal.ReadP.val_main_v4 (F := Ideal) :=
  (V10_of m outs c main_v4 (by decide)).trans <| (V9_of m outs c main_v4 (by decide)).trans <| (V8_of m outs c main_v4 (by decide)).trans <| (V7_of m outs c main_v4 (by decide)).trans <| (V6_of m outs c main_v4 (by decide)).trans <| (V5_of m c main_v4 (by decide)).trans <| (V4_of m c main_v4 (by decide)).trans <| (V3_of m c main_v4 (by decide)).trans <| (V2_of m c main_v4 (by decide)).trans <| V1_iota m c
/-- Parameter 6 reaches the last stretch as launched. -/
theorem V10_arg6 : V10 m outs c main_arg6 = m ((c.tc : Thread nD τ).loc main_arg6) :=
  (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
/-- Parameter 7 reaches the last stretch as launched. -/
theorem V10_arg7 : V10 m outs c main_arg7 = m ((c.tc : Thread nD τ).loc main_arg7) :=
  (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
/-- Parameter 8 reaches the last stretch as launched. -/
theorem V10_arg8 : V10 m outs c main_arg8 = m ((c.tc : Thread nD τ).loc main_arg8) :=
  (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
/-- Parameter 9 reaches the last stretch as launched. -/
theorem V10_arg9 : V10 m outs c main_arg9 = m ((c.tc : Thread nD τ).loc main_arg9) :=
  (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
/-- Parameter 10 reaches the last stretch as launched. -/
theorem V10_arg10 : V10 m outs c main_arg10 = m ((c.tc : Thread nD τ).loc main_arg10) :=
  (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))
/-- Parameter 11 reaches the last stretch as launched. -/
theorem V10_arg11 : V10 m outs c main_arg11 = m ((c.tc : Thread nD τ).loc main_arg11) :=
  (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))

/-- The rows the last stretch starts from: the first 12000 of the second dense layer's padded result. -/
theorem V11_rows : V11 m outs c main_v60
    = extractStridedSlice S12000x64 ![0, 0] (V10 m outs c main_v59) slices_S12288x64_S12000x64_0_0 := by
  show StableHlo.after hostOps2 (V10 m outs c) (Proc.devRef .tc main_v60) = _
  dsimp only [hostOps2]
  after_results

/-- The kernel program's result is the shared function of what its second dense layer left: the last eight stretches run
    from the buffers the second dense layer leaves, whose edge rows, node numbering and parameters are the launch's. -/
theorem V18_result : V18 m outs c main_v140
    = t_main_v138 (F := Ideal) (V11 m outs c main_v60) (m ((c.tc : Thread nD τ).loc main_arg1))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := by
  rw [V11_rows m outs c]
  refine (tail_any (F := Ideal) (V10 m outs c)).trans ?_
  rw [show V10 m outs c (Proc.devRef .tc main_v1) = _ from V10_src m outs c,
    show V10 m outs c (Proc.devRef .tc main_v3) = _ from V10_dst m outs c,
    show V10 m outs c (Proc.devRef .tc main_v4) = _ from V10_iota m outs c,
    show V10 m outs c (Proc.devRef .tc main_arg6) = _ from V10_arg6 m outs c,
    show V10 m outs c (Proc.devRef .tc main_arg7) = _ from V10_arg7 m outs c,
    show V10 m outs c (Proc.devRef .tc main_arg8) = _ from V10_arg8 m outs c,
    show V10 m outs c (Proc.devRef .tc main_arg9) = _ from V10_arg9 m outs c,
    show V10 m outs c (Proc.devRef .tc main_arg10) = _ from V10_arg10 m outs c,
    show V10 m outs c (Proc.devRef .tc main_arg11) = _ from V10_arg11 m outs c]
  rfl

end Cert.Bridge

end
-- ==== Proof.HMid.lean ====
/- What the kernel program's dense layers are fed, besides the padded arrays: the normalized adjacency and the first layer's feature
   product x · W1 are the reference's own stages (the same operations on the same arguments), and the second layer's feature product
   is the same dot product with W12, of whatever rows the first layer left. -/
import proofs.«101834_j14396730376572_1_alg».proof.Proof.HPre

noncomputable section

namespace Cert.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

/-- The normalized adjacency, as the first dense layer finds it. -/
theorem V5_adj : V5 m c main_v46 = Cert.ReferenceIdeal.ReadP.val_main_v46 (F := Ideal) (m ((c.tc : Thread nD τ).loc main_arg1)) :=
  (V5_of m c main_v46 (by decide)).trans <| (V4_of m c main_v46 (by decide)).trans <| (V3_of m c main_v46 (by decide)).trans <| (V2_of m c main_v46 (by decide)).trans <| V1_adj m c

/-- The stretch that forms x · W1, from any contents W: the reference's stage of W's first and third arguments. -/
theorem xw1_any (W : Valuation τ sig (Elt Ideal)) : StableHlo.after hostOps0_2 W (Proc.devRef .tc main_v49)
    = Cert.ReferenceIdeal.ReadP.val_main_v47 (F := Ideal) (W (Proc.devRef .tc main_arg0)) (W (Proc.devRef .tc main_arg2)) := by
  dsimp only [hostOps0_2]
  after_results
  rfl

/-- The first layer's feature product x · W1. -/
theorem V5_xw1 : V5 m c main_v49
    = Cert.ReferenceIdeal.ReadP.val_main_v47 (F := Ideal) (m ((c.tc : Thread nD τ).loc main_arg0)) (m ((c.tc : Thread nD τ).loc main_arg2)) :=
  (V5_of m c main_v49 (by decide)).trans <| (V4_of m c main_v49 (by decide)).trans <| (xw1_any (V2 m c)).trans <|
    congrArg₂ (Cert.ReferenceIdeal.ReadP.val_main_v47 (F := Ideal))
      ((V2_of m c main_arg0 (by decide)).trans (V1_of m c main_arg0 (by decide)))
      ((V2_of m c main_arg2 (by decide)).trans (V1_of m c main_arg2 (by decide)))

/-- The stretch after the first dense layer, from any contents W: the first 12000 rows of the layer's padded result. -/
theorem rows1_any (W : Valuation τ sig (Elt Ideal)) : StableHlo.after hostOps1 W (Proc.devRef .tc main_v54)
    = extractStridedSlice S12000x32 ![0, 0] (W (Proc.devRef .tc main_v53)) slices_S12288x32_S12000x32_0_0 := by
  dsimp only [hostOps1]
  after_results

/-- The same stretch, from any contents W: those rows times W's fifth argument. -/
theorem xw2_any (W : Valuation τ sig (Elt Ideal)) : StableHlo.after hostOps1 W (Proc.devRef .tc main_v55)
    = Host.dotGeneral (F := Ideal) (φ₁ := .f32) (φ₂ := .f32) Cert.ReferenceIdeal.dot_S12000x32_S32x64_S12000x64_1_0_0_1_n_n none
        (extractStridedSlice S12000x32 ![0, 0] (W (Proc.devRef .tc main_v53)) slices_S12288x32_S12000x32_0_0)
        (W (Proc.devRef .tc main_arg4)) := by
  dsimp only [hostOps1]
  after_results
  rfl

/-- The rows the first dense layer left: the first 12000 of its padded result. -/
theorem V9_rows : V9 m outs c main_v54
    = extractStridedSlice S12000x32 ![0, 0] (V6 m outs c main_v53) slices_S12288x32_S12000x32_0_0 :=
  (V9_of m outs c main_v54 (by decide)).trans <| (V8_of m outs c main_v54 (by decide)).trans <| rows1_any (V6 m outs c)

/-- The second layer's feature product: those rows times W12. -/
theorem V9_xw2 : V9 m outs c main_v55
    = Host.dotGeneral (F := Ideal) (φ₁ := .f32) (φ₂ := .f32) Cert.ReferenceIdeal.dot_S12000x32_S32x64_S12000x64_1_0_0_1_n_n none
        (V9 m outs c main_v54) (m ((c.tc : Thread nD τ).loc main_arg4)) :=
  (V9_of m outs c main_v55 (by decide)).trans <| (V8_of m outs c main_v55 (by decide)).trans <| (xw2_any (V6 m outs c)).trans <|
    congrArg₂ (Host.dotGeneral (F := Ideal) (φ₁ := .f32) (φ₂ := .f32) Cert.ReferenceIdeal.dot_S12000x32_S32x64_S12000x64_1_0_0_1_n_n none)
      (V9_rows m outs c).symm
      ((V6_of m outs c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)))

end Cert.Bridge

end
-- ==== Proof.Spec.lean ====
/- The mathematics of one dense graph-convolution layer, free of any program: row p of a square matrix A against
   column q of a feature matrix H, plus a bias, clamped below at zero — over the extended reals, where sums may be
   regrouped freely (addition is commutative and associative there, infinities included). -/
import Mathlib.Data.EReal.Basic
import Mathlib.Algebra.BigOperators.Fin

namespace Cert.Spec

open scoped BigOperators

/-- One dense layer at an entry: (sum over K of A p K * H K q) + B q, clamped below at zero. -/
noncomputable def dense {n d : ℕ} (A : Fin n → Fin n → EReal) (H : Fin n → Fin d → EReal) (B : Fin d → EReal) (p : Fin n) (q : Fin d) : EReal :=
  max ((∑ K : Fin n, A p K * H K q) + B q) 0

/-- A sum over 12288 = 8 · 1536 positions, regrouped as eight consecutive tiles of 1536. -/
theorem sum_tiles (f : Fin 12288 → EReal) :
    (∑ K : Fin 12288, f K) = ∑ k : Fin 8, ∑ kk : Fin 1536, f ⟨1536 * k.val + kk.val, by omega⟩ := by
  rw [← Equiv.sum_comp (finProdFinEquiv : Fin 8 × Fin 1536 ≃ Fin 12288) f, Fintype.sum_prod_type]
  refine Finset.sum_congr rfl fun k _ => Finset.sum_congr rfl fun kk _ => ?_
  refine congrArg f (Fin.ext ?_)
  show kk.val + 1536 * k.val = 1536 * k.val + kk.val
  omega

/-- Eight terms added one after another onto zero are their sum. -/
theorem acc_steps (s : Fin 8 → EReal) :
    (0 + s 0 + s 1 + s 2 + s 3 + s 4 + s 5 + s 6 + s 7) = ∑ k : Fin 8, s k := by
  rw [Fin.sum_univ_eight, zero_add]

/-- Padding with zeros does not change a dense layer: if A' and H' extend A and H by zero beyond position n
    (0 * 0 = 0 and x + 0 = x hold for every extended real), the padded layer agrees with the original on the
    original rows. -/
theorem dense_pad {n N d : ℕ} (hn : n ≤ N) (A : Fin n → Fin n → EReal) (H : Fin n → Fin d → EReal) (B : Fin d → EReal)
    (A' : Fin N → Fin N → EReal) (H' : Fin N → Fin d → EReal)
    (hA : ∀ (p : Fin n) (K : Fin N), A' ⟨p.val, by omega⟩ K = if h : K.val < n then A p ⟨K.val, h⟩ else 0)
    (hH : ∀ (K : Fin N) (q : Fin d), H' K q = if h : K.val < n then H ⟨K.val, h⟩ q else 0)
    (p : Fin n) (q : Fin d) : dense A' H' B ⟨p.val, by omega⟩ q = dense A H B p q := by
  unfold dense
  refine congrArg (fun x => max (x + B q) 0) ?_
  symm
  refine Fintype.sum_of_injective (fun K : Fin n => (⟨K.val, by omega⟩ : Fin N)) ?_ _ _ ?_ ?_
  · intro a b h
    exact Fin.ext (Fin.mk.inj h)
  · intro K hK
    have hKn : ¬ K.val < n := fun h => hK ⟨⟨K.val, h⟩, rfl⟩
    rw [hA, hH, dif_neg hKn, dif_neg hKn, mul_zero]
  · intro K
    rw [hA, hH, dif_pos K.isLt, dif_pos K.isLt]

end Cert.Spec
-- ==== Proof.HRefDense.lean ====
/- The reference's two dense layers at an entry: relu(adj_norm @ (x @ W) + b) at row r, column q is the dense-layer formula of
   Spec.lean over the reference's own stages — the row r of the normalized adjacency against the column q of the feature product,
   plus the bias at q, clamped below at zero. Only the shapes of the indices have to be matched; the arithmetic is the same. -/
import proofs.«101834_j14396730376572_1_alg».proof.Proof.RefRead
import proofs.«101834_j14396730376572_1_alg».proof.Proof.Spec

noncomputable section

namespace Cert.Bridge

open Cert.ReferenceIdeal Cert.ReferenceIdeal.ReadP Idealize.ShloMosaic Idealize.ShloMosaic.TcCoe Idealize.SL.Sem Idealize.ShloMosaic.StableHlo
open ValueIdx (ix1 ix2)

/-- The first dense layer of the reference at (r, q). -/
theorem ref_layer1 (x0 : (⟨S12000x512, .f32⟩ : BufTy).Contents (Elt Ideal)) (x1 : (⟨S2x400000, .i32⟩ : BufTy).Contents (Elt Ideal))
    (x2 : (⟨S512x32, .f32⟩ : BufTy).Contents (Elt Ideal)) (x3 : (⟨S32, .f32⟩ : BufTy).Contents (Elt Ideal)) (r : Fin 12000) (q : Fin 32) :
    val_main_v52 (F := Ideal) x0 x1 x2 x3 (ix2 r q)
      = Cert.Spec.dense (fun p K => val_main_v46 (F := Ideal) x1 (ix2 p K)) (fun K q => val_main_v47 (F := Ideal) x0 x2 (ix2 K q))
          (fun q => x3 (ix1 q)) r q := by
  have el : ∀ k : Fin 12000, lidx_main_v48 (ix2 r q) k = ix2 r k := fun k => funext fun a => by
    match a with
    | ⟨0, _⟩ => rfl
    | ⟨1, _⟩ => rfl
  have er : ∀ k : Fin 12000, ridx_main_v48 (ix2 r q) k = ix2 k q := fun k => funext fun a => by
    match a with
    | ⟨0, _⟩ => rfl
    | ⟨1, _⟩ => rfl
  have eb : idx_main_v49 (idx_main_v50 (ix2 r q)) = ix1 q := funext fun a => by
    match a with
    | ⟨0, _⟩ => rfl
  rw [val_main_v52_apply, val_main_v51_apply, val_main_v48_apply, val_main_v50_apply, val_main_v49_apply, val_main_call0_v0_apply,
    val_main_call0_cst_apply]
  simp only [el, er, eb, Ideal.maximumf_def, Ideal.addf_def, Ideal.ofBits_def, Ideal.ofBits_zero_f32]
  rfl

/-- The second dense layer of the reference at (r, q). -/
theorem ref_layer2 (x0 : (⟨S12000x512, .f32⟩ : BufTy).Contents (Elt Ideal)) (x1 : (⟨S2x400000, .i32⟩ : BufTy).Contents (Elt Ideal))
    (x2 : (⟨S512x32, .f32⟩ : BufTy).Contents (Elt Ideal)) (x3 : (⟨S32, .f32⟩ : BufTy).Contents (Elt Ideal))
    (x4 : (⟨S32x64, .f32⟩ : BufTy).Contents (Elt Ideal)) (x5 : (⟨S64, .f32⟩ : BufTy).Contents (Elt Ideal)) (r : Fin 12000) (q : Fin 64) :
    val_main_v58 (F := Ideal) x0 x1 x2 x3 x4 x5 (ix2 r q)
      = Cert.Spec.dense (fun p K => val_main_v46 (F := Ideal) x1 (ix2 p K))
          (fun K q => val_main_v53 (F := Ideal) x0 x1 x2 x3 x4 (ix2 K q)) (fun q => x5 (ix1 q)) r q := by
  have el : ∀ k : Fin 12000, lidx_main_v54 (ix2 r q) k = ix2 r k := fun k => funext fun a => by
    match a with
    | ⟨0, _⟩ => rfl
    | ⟨1, _⟩ => rfl
  have er : ∀ k : Fin 12000, ridx_main_v54 (ix2 r q) k = ix2 k q := fun k => funext fun a => by
    match a with
    | ⟨0, _⟩ => rfl
    | ⟨1, _⟩ => rfl
  have eb : idx_main_v55 (idx_main_v56 (ix2 r q)) = ix1 q := funext fun a => by
    match a with
    | ⟨0, _⟩ => rfl
  rw [val_main_v58_apply, val_main_v57_apply, val_main_v54_apply, val_main_v56_apply, val_main_v55_apply, val_main_call1_v0_apply,
    val_main_call1_cst_apply]
  simp only [el, er, eb, Ideal.maximumf_def, Ideal.addf_def, Ideal.ofBits_def, Ideal.ofBits_zero_f32]
  rfl

end Cert.Bridge

end
-- ==== Proof.HKern.lean ====
/- What the host operations around the two dense layers leave in the arrays the layers read and write, at one entry,
   over the extended reals: the normalized adjacency matrix and the feature matrices padded with zeros from 12000 to
   12288 rows (and columns), a change of float format being the identity; each bias vector viewed as a one-row matrix;
   and each layer's result cut back to its first 12000 rows. -/
import proofs.«101834_j14396730376572_1_alg».proof.Proof.Gen.KernelIdeal.Regions
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

set_option maxRecDepth 1420

noncomputable section

namespace Cert.KernelIdeal.Host

open Idealize.ShloMosaic Idealize.ShloMosaic.TcCoe Idealize.SL.Sem Cert.KernelIdeal.Gen Idealize.ShloMosaic.ValueIdx

variable (m : (ℓ : Loc nD τ sig) → Buf (Elt Ideal) ℓ) (outs : Outs (F := Ideal)) (c : Dev nD)

/-! ## Two layout operations read at a row and a column -/

section Layout
variable {α : Type}

/-- A matrix padded on the high side only, with nothing between its entries, reads at (p, q) the matrix there when
    (p, q) lies inside it, and the padding value elsewhere. -/
theorem HK_pad2_apply {a b a' b' : ℕ} (hi : Fin 2 → ℕ) (x : (⟨2, ![a, b]⟩ : Shape).Idx → α) {u : Shape} (v : u.Idx → α)
    (h : (⟨2, ![a, b]⟩ : Shape).Pads ![0, 0] hi ![0, 0] ⟨2, ![a', b']⟩) (hu : 0 < u.numel) (p : Fin a') (q : Fin b') :
    pad ⟨2, ![a', b']⟩ ![0, 0] hi ![0, 0] x v h hu (ix2 p q)
      = if hh : p.val < a ∧ q.val < b then x (ix2 ⟨p.val, hh.1⟩ ⟨q.val, hh.2⟩) else v (Shape.Idx.first hu) := by
  by_cases hh : p.val < a ∧ q.val < b
  · rw [dif_pos hh]
    refine pad_apply_of_inside _ _ _ x v h hu (ix2 p q) (ix2 ⟨p.val, hh.1⟩ ⟨q.val, hh.2⟩) fun ax => ?_
    match ax with
    | ⟨0, _⟩ => show p.val = 0 + p.val * (0 + 1); omega
    | ⟨1, _⟩ => show q.val = 0 + q.val * (0 + 1); omega
  · rw [dif_neg hh]
    by_cases hp : p.val < a
    · refine pad_apply_of_not_inside _ _ _ x v h hu (ix2 p q) (1 : Fin 2) ?_
      show ¬(0 ≤ q.val ∧ (q.val - 0) % (0 + 1) = 0 ∧ (q.val - 0) / (0 + 1) < b)
      have hq : ¬ q.val < b := fun hq => hh ⟨hp, hq⟩
      rw [Nat.sub_zero, Nat.div_one]
      exact fun h3 => hq h3.2.2
    · refine pad_apply_of_not_inside _ _ _ x v h hu (ix2 p q) (0 : Fin 2) ?_
      show ¬(0 ≤ p.val ∧ (p.val - 0) % (0 + 1) = 0 ∧ (p.val - 0) / (0 + 1) < a)
      rw [Nat.sub_zero, Nat.div_one]
      exact fun h3 => hp h3.2.2

end Layout

/-- The integer zero, converted to a float and read as the one element of a rank-zero array, is the extended real zero. -/
theorem HK_padval (φ : FTy) (i : S_.Idx) : (sitofp (F := Ideal) φ (constantI S_ 32 0#32)) i = (0 : EReal) :=
  sitofp_zero

/-! ## Each stretch of host operations, from any contents `W` before it -/

section Stretch
variable (W : Valuation τ sig (Elt Ideal))

/-- The last two operations of the first stretch: the change of format of the normalized matrix, and an integer zero. -/
abbrev HK_ops0_tail : List (HloOp τ sig (Elt Ideal)) :=
  [ StableHlo.unary main_v46 main_v47 ((truncf (F := Ideal) (s := S12000x12000) .bf16 · bitsLt_bf16_f32) : (⟨S12000x12000, .f32⟩ : BufTy).Contents (Elt Ideal) → (⟨S12000x12000, .bf16⟩ : BufTy).Contents (Elt Ideal)),
    StableHlo.nullary main_c_12 (constantI S_ 32 0#32) ]

theorem HK_ops0_split : (hostOps0 : List (HloOp τ sig (Elt Ideal))) = hostOps0.take 61 ++ HK_ops0_tail :=
  (List.take_append_drop 61 (hostOps0 : List (HloOp τ sig (Elt Ideal)))).symm

theorem HK_after0 : StableHlo.after hostOps0 W = StableHlo.after HK_ops0_tail (StableHlo.after (hostOps0.take 61) W) :=
  (congrArg (fun l => StableHlo.after l W) HK_ops0_split).trans (StableHlo.after_append _ _ _)

theorem HK_tail0_v47 : StableHlo.after HK_ops0_tail W main_v47 = (truncf (F := Ideal) (s := S12000x12000) .bf16 (W main_v46) bitsLt_bf16_f32 : Vec Ideal S12000x12000 .bf16) := by
  dsimp only [HK_ops0_tail]; after_results
theorem HK_tail0_v46 : StableHlo.after HK_ops0_tail W main_v46 = W main_v46 := by
  dsimp only [HK_ops0_tail]; after_results
theorem HK_tail0_c12 : StableHlo.after HK_ops0_tail W main_c_12 = (constantI S_ 32 0#32 : IVec S_ 32) := by
  dsimp only [HK_ops0_tail]; after_results

theorem HK_pad48 : StableHlo.after hostOps0_1 W main_v48
    = pad S12288x12288 ![0, 0] ![288, 288] ![0, 0] (W main_v47 : Vec Ideal S12000x12000 .bf16) (sitofp (F := Ideal) .bf16 (W main_c_12 : IVec S_ 32)) pads_S12000x12000_S12288x12288_02880_02880 h_S_ := by
  dsimp only [hostOps0_1]; after_results; rfl

/-- The feature stretch of width 32: a product, its change of format, an integer zero; then the padding of its rows. -/
theorem HK_v50 : StableHlo.after hostOps0_2 W main_v50
    = (truncf (F := Ideal) (s := S12000x32) .bf16 (StableHlo.after hostOps0_2 W main_v49) bitsLt_bf16_f32 : Vec Ideal S12000x32 .bf16) := by
  dsimp only [hostOps0_2]; after_results
theorem HK_c13 : StableHlo.after hostOps0_2 W main_c_13 = (constantI S_ 32 0#32 : IVec S_ 32) := by
  dsimp only [hostOps0_2]; after_results
theorem HK_pad51 : StableHlo.after hostOps0_3 W main_v51
    = pad S12288x32 ![0, 0] ![288, 0] ![0, 0] (W main_v50 : Vec Ideal S12000x32 .bf16) (sitofp (F := Ideal) .bf16 (W main_c_13 : IVec S_ 32)) pads_S12000x32_S12288x32_02880_000 h_S_ := by
  dsimp only [hostOps0_3]; after_results; rfl
theorem HK_v52 : StableHlo.after hostOps0_4 W main_v52 = shapeCast S1x32 (W main_arg3 : Vec Ideal S32 .f32) shapeCasts_S32_S1x32 := by
  dsimp only [hostOps0_4]; after_results; rfl

/-- The stretch after the first layer: the slice of its result, a product, its change of format, an integer zero; then the padding. -/
theorem HK_v54 : StableHlo.after hostOps1 W main_v54
    = extractStridedSlice S12000x32 ![0, 0] (W main_v53 : Vec Ideal S12288x32 .f32) slices_S12288x32_S12000x32_0_0 := by
  dsimp only [hostOps1]; after_results
theorem HK_v56 : StableHlo.after hostOps1 W main_v56
    = (truncf (F := Ideal) (s := S12000x64) .bf16 (StableHlo.after hostOps1 W main_v55) bitsLt_bf16_f32 : Vec Ideal S12000x64 .bf16) := by
  dsimp only [hostOps1]; after_results
theorem HK_c14 : StableHlo.after hostOps1 W main_c_14 = (constantI S_ 32 0#32 : IVec S_ 32) := by
  dsimp only [hostOps1]; after_results
theorem HK_pad57 : StableHlo.after hostOps1_1 W main_v57
    = pad S12288x64 ![0, 0] ![288, 0] ![0, 0] (W main_v56 : Vec Ideal S12000x64 .bf16) (sitofp (F := Ideal) .bf16 (W main_c_14 : IVec S_ 32)) pads_S12000x64_S12288x64_02880_000 h_S_ := by
  dsimp only [hostOps1_1]; after_results; rfl
theorem HK_v58 : StableHlo.after hostOps1_2 W main_v58 = shapeCast S1x64 (W main_arg5 : Vec Ideal S64 .f32) shapeCasts_S64_S1x64 := by
  dsimp only [hostOps1_2]; after_results; rfl

/-- The first operation after the second layer: the slice of its result. -/
theorem HK_v60 : StableHlo.after hostOps2 W main_v60
    = extractStridedSlice S12000x64 ![0, 0] (W main_v59 : Vec Ideal S12288x64 .f32) slices_S12288x64_S12000x64_0_0 := by
  dsimp only [hostOps2]; after_results

end Stretch

theorem HK1 (p K : Fin 12288) :
    ((V5 m c main_v48) (ix2 p K) : EReal)
      = if h : p.val < 12000 ∧ K.val < 12000 then ((V5 m c main_v46) (ix2 ⟨p.val, h.1⟩ ⟨K.val, h.2⟩) : EReal) else (0 : EReal) := by
  have e48 : V5 m c main_v48 = V2 m c main_v48 :=
    (V5_of m c main_v48 (by decide)).trans ((V4_of m c main_v48 (by decide)).trans (V3_of m c main_v48 (by decide)))
  have e46 : V5 m c main_v46 = V1 m c main_v46 :=
    (V5_of m c main_v46 (by decide)).trans ((V4_of m c main_v46 (by decide)).trans ((V3_of m c main_v46 (by decide)).trans (V2_of m c main_v46 (by decide))))
  rw [e48, e46]
  show (StableHlo.after hostOps0_1 (V1 m c) main_v48) (ix2 p K) = _
  rw [HK_pad48]
  show pad S12288x12288 ![0, 0] ![288, 288] ![0, 0] (StableHlo.after hostOps0 (V0 m c) main_v47 : Vec Ideal S12000x12000 .bf16) (sitofp (F := Ideal) .bf16 (StableHlo.after hostOps0 (V0 m c) main_c_12 : IVec S_ 32)) pads_S12000x12000_S12288x12288_02880_02880 h_S_ (ix2 p K)
    = if h : p.val < 12000 ∧ K.val < 12000 then (StableHlo.after hostOps0 (V0 m c) main_v46) (ix2 ⟨p.val, h.1⟩ ⟨K.val, h.2⟩) else (0 : EReal)
  rw [HK_after0, HK_tail0_v47, HK_tail0_c12, HK_tail0_v46]
  generalize StableHlo.after (List.take 61 hostOps0) (V0 m c) (Proc.devRef .tc main_v46) = x
  refine (HK_pad2_apply ![288, 288] _ _ pads_S12000x12000_S12288x12288_02880_02880 h_S_ p K).trans ?_
  by_cases h : p.val < 12000 ∧ K.val < 12000
  · rw [dif_pos h, dif_pos h]; rfl
  · rw [dif_neg h, dif_neg h]; exact HK_padval .bf16 _

theorem HK2 (K : Fin 12288) (q : Fin 32) :
    (V5 m c main_v51) (ix2 K q) = if h : K.val < 12000 then (V5 m c main_v49) (ix2 ⟨K.val, h⟩ q) else (0 : EReal) := by
  have e51 : V5 m c main_v51 = V4 m c main_v51 := V5_of m c main_v51 (by decide)
  have e49 : V5 m c main_v49 = V3 m c main_v49 := (V5_of m c main_v49 (by decide)).trans (V4_of m c main_v49 (by decide))
  rw [e51, e49]
  show (StableHlo.after hostOps0_3 (V3 m c) main_v51) (ix2 K q) = _
  rw [HK_pad51]
  show pad S12288x32 ![0, 0] ![288, 0] ![0, 0] (StableHlo.after hostOps0_2 (V2 m c) main_v50 : Vec Ideal S12000x32 .bf16) (sitofp (F := Ideal) .bf16 (StableHlo.after hostOps0_2 (V2 m c) main_c_13 : IVec S_ 32)) pads_S12000x32_S12288x32_02880_000 h_S_ (ix2 K q)
    = if h : K.val < 12000 then (StableHlo.after hostOps0_2 (V2 m c) main_v49) (ix2 ⟨K.val, h⟩ q) else (0 : EReal)
  rw [HK_v50, HK_c13]
  generalize StableHlo.after hostOps0_2 (V2 m c) (Proc.devRef .tc main_v49) = x
  refine (HK_pad2_apply ![288, 0] _ _ pads_S12000x32_S12288x32_02880_000 h_S_ K q).trans ?_
  by_cases h : K.val < 12000
  · rw [dif_pos h, dif_pos ⟨h, q.isLt⟩]; rfl
  · rw [dif_neg h, dif_neg (fun hh => h hh.1)]; exact HK_padval .bf16 _

theorem HK3 (q : Fin 32) : (V5 m c main_v52) (ix2 (0 : Fin 1) q) = (V0 m c main_arg3) (ix1 q) := by
  have e : V4 m c main_arg3 = V0 m c main_arg3 :=
    (V4_of m c main_arg3 (by decide)).trans ((V3_of m c main_arg3 (by decide)).trans ((V2_of m c main_arg3 (by decide)).trans (V1_of m c main_arg3 (by decide))))
  show (StableHlo.after hostOps0_4 (V4 m c) main_v52) (ix2 (0 : Fin 1) q) = _
  rw [HK_v52, e]
  exact shapeCast_a_1a_apply _ shapeCasts_S32_S1x32 0 q

theorem HK4 : V9 m outs c main_v48 = V5 m c main_v48 :=
  (V9_of m outs c main_v48 (by decide)).trans ((V8_of m outs c main_v48 (by decide)).trans ((V7_of m outs c main_v48 (by decide)).trans (V6_of m outs c main_v48 (by decide))))

theorem HK5 (K : Fin 12288) (q : Fin 64) :
    (V9 m outs c main_v57) (ix2 K q) = if h : K.val < 12000 then (V9 m outs c main_v55) (ix2 ⟨K.val, h⟩ q) else (0 : EReal) := by
  have e57 : V9 m outs c main_v57 = V8 m outs c main_v57 := V9_of m outs c main_v57 (by decide)
  have e55 : V9 m outs c main_v55 = V7 m outs c main_v55 := (V9_of m outs c main_v55 (by decide)).trans (V8_of m outs c main_v55 (by decide))
  rw [e57, e55]
  show (StableHlo.after hostOps1_1 (V7 m outs c) main_v57) (ix2 K q) = _
  rw [HK_pad57]
  show pad S12288x64 ![0, 0] ![288, 0] ![0, 0] (StableHlo.after hostOps1 (V6 m outs c) main_v56 : Vec Ideal S12000x64 .bf16) (sitofp (F := Ideal) .bf16 (StableHlo.after hostOps1 (V6 m outs c) main_c_14 : IVec S_ 32)) pads_S12000x64_S12288x64_02880_000 h_S_ (ix2 K q)
    = if h : K.val < 12000 then (StableHlo.after hostOps1 (V6 m outs c) main_v55) (ix2 ⟨K.val, h⟩ q) else (0 : EReal)
  rw [HK_v56, HK_c14]
  generalize StableHlo.after hostOps1 (V6 m outs c) (Proc.devRef .tc main_v55) = x
  refine (HK_pad2_apply ![288, 0] _ _ pads_S12000x64_S12288x64_02880_000 h_S_ K q).trans ?_
  by_cases h : K.val < 12000
  · rw [dif_pos h, dif_pos ⟨h, q.isLt⟩]; rfl
  · rw [dif_neg h, dif_neg (fun hh => h hh.1)]; exact HK_padval .bf16 _

theorem HK6 (q : Fin 64) : (V9 m outs c main_v58) (ix2 (0 : Fin 1) q) = (V0 m c main_arg5) (ix1 q) := by
  have e : V8 m outs c main_arg5 = V0 m c main_arg5 :=
    (V8_of m outs c main_arg5 (by decide)).trans ((V7_of m outs c main_arg5 (by decide)).trans ((V6_of m outs c main_arg5 (by decide)).trans
      ((V5_of m c main_arg5 (by decide)).trans ((V4_of m c main_arg5 (by decide)).trans ((V3_of m c main_arg5 (by decide)).trans
        ((V2_of m c main_arg5 (by decide)).trans (V1_of m c main_arg5 (by decide))))))))
  show (StableHlo.after hostOps1_2 (V8 m outs c) main_v58) (ix2 (0 : Fin 1) q) = _
  rw [HK_v58, e]
  exact shapeCast_a_1a_apply _ shapeCasts_S64_S1x64 0 q

theorem HK7 (r : Fin 12000) (q : Fin 32) :
    (V9 m outs c main_v54) (ix2 r q) = (outs 6 main_v53 c) (ix2 ⟨r.val, by omega⟩ q) := by
  have e : V9 m outs c main_v54 = V7 m outs c main_v54 := (V9_of m outs c main_v54 (by decide)).trans (V8_of m outs c main_v54 (by decide))
  have e53 : V6 m outs c main_v53 = outs 6 main_v53 c := Function.update_self _ _ _
  rw [e]
  show (StableHlo.after hostOps1 (V6 m outs c) main_v54) (ix2 r q) = _
  rw [HK_v54, e53]
  exact slice2_axis0_apply 0 _ slices_S12288x32_S12000x32_0_0 r q ⟨r.val, by omega⟩ (Nat.zero_add _).symm

theorem HK8 (r : Fin 12000) (q : Fin 64) :
    (V11 m outs c main_v60) (ix2 r q) = (outs 10 main_v59 c) (ix2 ⟨r.val, by omega⟩ q) := by
  have e59 : V10 m outs c main_v59 = outs 10 main_v59 c := Function.update_self _ _ _
  show (StableHlo.after hostOps2 (V10 m outs c) main_v60) (ix2 r q) = _
  rw [HK_v60, e59]
  exact slice2_axis0_apply 0 _ slices_S12288x64_S12000x64_0_0 r q ⟨r.val, by omega⟩ (Nat.zero_add _).symm

end Cert.KernelIdeal.Host
end
-- ==== Proof.HDense.lean ====
/- The two dense layers of the kernel program against the reference's. Each kernel region leaves, at every entry of its padded
   12288-row result, the dense-layer formula over its padded operands (the hypotheses h6, h10). The padded adjacency is the normalized
   adjacency extended by zero rows and columns, the padded feature product is the feature product extended by zero rows, the bias
   row is the bias; a zero-padded summand is 0 * 0 = 0 and adds nothing, so on the first 12000 rows the padded layer is the layer
   itself — which is what the reference computes entry by entry. Hence the rows each layer hands on are the reference's stage. -/
import proofs.«101834_j14396730376572_1_alg».proof.Proof.HMid
import proofs.«101834_j14396730376572_1_alg».proof.Proof.HRefDense
import proofs.«101834_j14396730376572_1_alg».proof.Proof.HKern

noncomputable section

namespace Cert.Bridge

open Cert.KernelIdeal Cert.KernelIdeal.Gen Cert.KernelIdeal.Host Idealize.ShloMosaic Idealize.ShloMosaic.TcCoe Idealize.SL.Sem Idealize.ShloMosaic.StableHlo
open ValueIdx (ix1 ix2)

/-- The padding law in the shape both layers use: operands extended by zero from 12000 to 12288, the same bias. -/
theorem dense_rows {d : ℕ} (adj : Fin 12000 → Fin 12000 → EReal) (H : Fin 12000 → Fin d → EReal) (B : Fin d → EReal)
    (A' : Fin 12288 → Fin 12288 → EReal) (H' : Fin 12288 → Fin d → EReal) (B' : Fin d → EReal)
    (hA : ∀ p K : Fin 12288, A' p K = if h : p.val < 12000 ∧ K.val < 12000 then adj ⟨p.val, h.1⟩ ⟨K.val, h.2⟩ else 0)
    (hH : ∀ (K : Fin 12288) (q : Fin d), H' K q = if h : K.val < 12000 then H ⟨K.val, h⟩ q else 0)
    (hB : ∀ q, B' q = B q) (r : Fin 12000) (q : Fin d) :
    Cert.Spec.dense A' H' B' ⟨r.val, by omega⟩ q = Cert.Spec.dense adj H B r q := by
  have eB : B' = B := funext hB
  rw [eB]
  refine Cert.Spec.dense_pad (by omega) adj H B A' H' (fun p K => ?_) hH r q
  rw [hA]
  by_cases hK : K.val < 12000
  · rw [dif_pos ⟨p.isLt, hK⟩, dif_pos hK]
  · rw [dif_neg (fun h => hK h.2), dif_neg hK]

variable (m : (ℓ : Loc nD τ sig) → Buf (Elt Ideal) ℓ) (outs : Outs (F := Ideal)) (c : Dev nD)

/-- The rows the first dense layer hands on are the reference's first layer. -/
theorem layer1_rows
    (h6 : ∀ (p : Fin 12288) (q : Fin 32), (outs 6 main_v53 c) (ix2 p q)
            = Cert.Spec.dense (fun p K => (V5 m c main_v48) (ix2 p K)) (fun K q => (V5 m c main_v51) (ix2 K q))
                (fun q => (V5 m c main_v52) (ix2 (0 : Fin 1) q)) p q) :
    V9 m outs c main_v54 = Cert.ReferenceIdeal.ReadP.val_main_v52 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨r, q, rfl⟩ : ∃ (r : Fin 12000) (q : Fin 32), i = ix2 r q := ⟨i 0, i 1, ValueIdx.eq_ix2 i⟩
  refine (HK7 m outs c r q).trans <| (h6 _ q).trans <| Eq.trans ?_ (ref_layer1 _ _ _ _ r q).symm
  refine dense_rows _ _ _ _ _ _ (fun p K => ?_) (fun K q => ?_) (fun q => ?_) r q
  · refine (HK1 m c p K).trans ?_
    by_cases h : p.val < 12000 ∧ K.val < 12000
    · rw [dif_pos h, dif_pos h, V5_adj m c]
    · rw [dif_neg h, dif_neg h]
  · refine (HK2 m c K q).trans ?_
    by_cases h : K.val < 12000
    · rw [dif_pos h, dif_pos h, V5_xw1 m c]
    · rw [dif_neg h, dif_neg h]
  · exact HK3 m c q

/-- The second layer's feature product is the reference's: the same dot product of equal rows. -/
theorem V9_xw2_ref
    (h6 : ∀ (p : Fin 12288) (q : Fin 32), (outs 6 main_v53 c) (ix2 p q)
            = Cert.Spec.dense (fun p K => (V5 m c main_v48) (ix2 p K)) (fun K q => (V5 m c main_v51) (ix2 K q))
                (fun q => (V5 m c main_v52) (ix2 (0 : Fin 1) q)) p q) :
    V9 m outs c main_v55 = Cert.ReferenceIdeal.ReadP.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (V9_xw2 m outs c).trans <|
    congrArg (fun h => Host.dotGeneral (F := Ideal) (φ₁ := .f32) (φ₂ := .f32) Cert.ReferenceIdeal.dot_S12000x32_S32x64_S12000x64_1_0_0_1_n_n none h
      (m ((c.tc : Thread nD τ).loc main_arg4))) (layer1_rows m outs c h6)

/-- The rows the second dense layer hands on are the reference's second layer. -/
theorem layer2_rows
    (h6 : ∀ (p : Fin 12288) (q : Fin 32), (outs 6 main_v53 c) (ix2 p q)
            = Cert.Spec.dense (fun p K => (V5 m c main_v48) (ix2 p K)) (fun K q => (V5 m c main_v51) (ix2 K q))
                (fun q => (V5 m c main_v52) (ix2 (0 : Fin 1) q)) p q)
    (h10 : ∀ (p : Fin 12288) (q : Fin 64), (outs 10 main_v59 c) (ix2 p q)
            = Cert.Spec.dense (fun p K => (V9 m outs c main_v48) (ix2 p K)) (fun K q => (V9 m outs c main_v57) (ix2 K q))
                (fun q => (V9 m outs c main_v58) (ix2 (0 : Fin 1) q)) p q) :
    V11 m outs c main_v60
      = Cert.ReferenceIdeal.ReadP.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e55 := V9_xw2_ref m outs c h6
  funext i
  obtain ⟨r, q, rfl⟩ : ∃ (r : Fin 12000) (q : Fin 64), i = ix2 r q := ⟨i 0, i 1, ValueIdx.eq_ix2 i⟩
  refine (HK8 m outs c r q).trans <| (h10 _ q).trans <| Eq.trans ?_ (ref_layer2 _ _ _ _ _ _ r q).symm
  refine dense_rows _ _ _ _ _ _ (fun p K => ?_) (fun K q => ?_) (fun q => ?_) r q
  · refine Eq.trans (by rw [HK4 m outs c]) <| (HK1 m c p K).trans ?_
    by_cases h : p.val < 12000 ∧ K.val < 12000
    · rw [dif_pos h, dif_pos h, V5_adj m c]
    · rw [dif_neg h, dif_neg h]
  · refine (HK5 m outs c K q).trans ?_
    by_cases h : K.val < 12000
    · rw [dif_pos h, dif_pos h, e55]
    · rw [dif_neg h, dif_neg h]
  · exact HK6 m outs c q

end Cert.Bridge

end
-- ==== Proof.HRef.lean ====
/- The reference's run ends with its result buffer at the last of its stages, taken at the twelve argument arrays as launched. -/
import proofs.«101834_j14396730376572_1_alg».proof.Proof.RefRun
import proofs.«101834_j14396730376572_1_alg».proof.Proof.RefRead

noncomputable section

namespace Cert.Bridge

open Idealize.ShloMosaic Idealize.ShloMosaic.TcCoe Idealize.SL.Sem

set_option maxRecDepth 65536 in
set_option maxHeartbeats 4000000 in
/-- The composed term the run states for the result is the last stage: the same operations, written once as one term and once
    stage by stage. -/
theorem res_eq {F : FTy → Type} [FloatOps F]
    (m' : (ℓ : Loc Cert.ReferenceIdeal.nD Cert.ReferenceIdeal.τ Cert.ReferenceIdeal.sig) → Buf (Elt F) ℓ) (c : Dev Cert.ReferenceIdeal.nD) :
    Cert.ReferenceIdeal.ValueP.res_main_v138 m' c
      = Cert.ReferenceIdeal.ReadP.val_main_v138 (F := F) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) := by
  unfold Cert.ReferenceIdeal.ValueP.res_main_v138; rfl

end Cert.Bridge

end
-- ==== Proof.HBridge.lean ====
/- The two programs end with equal results. The kernel program's result is the shared last stretch (sparse layers and log-softmax)
   applied to the rows its second dense layer hands on; those rows are the reference's second dense layer (zero padding adds nothing to a
   dense layer, and each kernel region computes the dense-layer formula on its padded operands); and the reference's result is the same
   shared stretch applied to its own second dense layer. -/
import proofs.«101834_j14396730376572_1_alg».proof.Proof.HKTail
import proofs.«101834_j14396730376572_1_alg».proof.Proof.HDense
import proofs.«101834_j14396730376572_1_alg».proof.Proof.HRef

noncomputable section

namespace Cert.Bridge

open Idealize.ShloMosaic Idealize.ShloMosaic.TcCoe Idealize.SL.Sem

/-- The kernel program's result is the reference's last stage at the kernel program's own twelve arguments. -/
theorem result_eq_core
    (m : (ℓ : Loc Cert.KernelIdeal.nD Cert.KernelIdeal.τ Cert.KernelIdeal.sig) → Buf (Elt Ideal) ℓ)
    (outs : Cert.KernelIdeal.Gen.Outs (F := Ideal)) (c : Dev Cert.KernelIdeal.nD)
    (h6 : ∀ (p : Fin 12288) (q : Fin 32), (outs 6 Cert.KernelIdeal.main_v53 c) (ValueIdx.ix2 p q)
            = Cert.Spec.dense (fun p K => (Cert.KernelIdeal.Gen.V5 m c Cert.KernelIdeal.main_v48) (ValueIdx.ix2 p K))
                (fun K q => (Cert.KernelIdeal.Gen.V5 m c Cert.KernelIdeal.main_v51) (ValueIdx.ix2 K q))
                (fun q => (Cert.KernelIdeal.Gen.V5 m c Cert.KernelIdeal.main_v52) (ValueIdx.ix2 (0 : Fin 1) q)) p q)
    (h10 : ∀ (p : Fin 12288) (q : Fin 64), (outs 10 Cert.KernelIdeal.main_v59 c) (ValueIdx.ix2 p q)
            = Cert.Spec.dense (fun p K => (Cert.KernelIdeal.Gen.V9 m outs c Cert.KernelIdeal.main_v48) (ValueIdx.ix2 p K))
                (fun K q => (Cert.KernelIdeal.Gen.V9 m outs c Cert.KernelIdeal.main_v57) (ValueIdx.ix2 K q))
                (fun q => (Cert.KernelIdeal.Gen.V9 m outs c Cert.KernelIdeal.main_v58) (ValueIdx.ix2 (0 : Fin 1) q)) p q) :
    Cert.KernelIdeal.Gen.V18 m outs c Cert.KernelIdeal.main_v140
      = Cert.ReferenceIdeal.ReadP.val_main_v138 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
  (V18_result m outs c).trans <|
    (congrArg (fun h => t_main_v138 (F := Ideal) h (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
      (layer2_rows m outs c h6 h10)).trans
    (val_main_v138_eq_t (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).symm

/-- From memories agreeing on the twelve arguments, the kernel program's result is the result the reference's run ends with. -/
theorem result_eq
    (m : (ℓ : Loc Cert.KernelIdeal.nD Cert.KernelIdeal.τ Cert.KernelIdeal.sig) → Buf (Elt Ideal) ℓ)
    (outs : Cert.KernelIdeal.Gen.Outs (F := Ideal)) (c : Dev Cert.KernelIdeal.nD)
    (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h6 : ∀ (p : Fin 12288) (q : Fin 32), (outs 6 Cert.KernelIdeal.main_v53 c) (ValueIdx.ix2 p q)
            = Cert.Spec.dense (fun p K => (Cert.KernelIdeal.Gen.V5 m c Cert.KernelIdeal.main_v48) (ValueIdx.ix2 p K))
                (fun K q => (Cert.KernelIdeal.Gen.V5 m c Cert.KernelIdeal.main_v51) (ValueIdx.ix2 K q))
                (fun q => (Cert.KernelIdeal.Gen.V5 m c Cert.KernelIdeal.main_v52) (ValueIdx.ix2 (0 : Fin 1) q)) p q)
    (h10 : ∀ (p : Fin 12288) (q : Fin 64), (outs 10 Cert.KernelIdeal.main_v59 c) (ValueIdx.ix2 p q)
            = Cert.Spec.dense (fun p K => (Cert.KernelIdeal.Gen.V9 m outs c Cert.KernelIdeal.main_v48) (ValueIdx.ix2 p K))
                (fun K q => (Cert.KernelIdeal.Gen.V9 m outs c Cert.KernelIdeal.main_v57) (ValueIdx.ix2 K q))
                (fun q => (Cert.KernelIdeal.Gen.V9 m outs c Cert.KernelIdeal.main_v58) (ValueIdx.ix2 (0 : Fin 1) q)) p q) :
    Cert.KernelIdeal.Gen.V18 m outs c Cert.KernelIdeal.main_v140 = Cert.ReferenceIdeal.ValueP.res_main_v138 (F := Ideal) m' c := by
  obtain ⟨e0, e1, e2, e3, e4, e5, e6, e7, e8, e9, e10, e11⟩ := hagree
  rw [res_eq m' c, e0, e1, e2, e3, e4, e5, e6, e7, e8, e9, e10, e11]
  exact result_eq_core m outs c h6 h10

end Cert.Bridge

end
-- ==== Proof.IV0a.lean ====
/- What each control case of region 0 leaves behind, as values. Every load and store of the body goes through the
   whole-shape rectangle at zero offsets, so a buffer read back after the body's stores holds exactly the payload
   stored last, and every load of a whole buffer reads its contents. -/
import proofs.«101834_j14396730376572_1_alg».proof.Proof.IR0
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zeros2 : (![0, 0] : Fin 2 → Nat) = fun _ => 0 := funext fun a => by fin_cases a <;> rfl

/-- Reduction coordinate 0: the accumulator is zeroed, read back, and the first tile product is added to it. -/
theorem sout0_A_0_eq (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : cond0_0 i) (hc1 : ¬cond0_1 i) (x0 : Vec F S1536x1536 .bf16) (x1 : Vec F S1536x32 .bf16) (x2 : Vec F S1x32 .f32) :
    sout0_A_0 c i arg2 harg2 arg3 harg3 arg4 harg4 arg5 harg5 arg6 harg6 hc0 hc1 x0 x1 x2 = k0_pay2 (k0_pay1 (F := F)) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1536x32) zeros2, View.readCov_unit_zero (S := S1536x32) _ zeros2]
  simp only [View.readAt_eq_ld, harg2.read_unread, harg3.read_unread, View.ld_unit_zero (S := S1536x1536) zeros2, View.ld_unit_zero (S := S1536x32) zeros2]

/-- A middle reduction coordinate: the tile product is added to the accumulator as the point before left it. -/
theorem sout0_B_0_eq (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : ¬cond0_1 i) (x0 : Vec F S1536x1536 .bf16) (x1 : Vec F S1536x32 .bf16) (x2 : Vec F S1x32 .f32) (xs0 : Vec F S1536x32 .f32) :
    sout0_B_0 c i arg2 harg2 arg3 harg3 arg4 harg4 arg5 harg5 arg6 harg6 hc0 hc1 x0 x1 x2 xs0 = k0_pay2 xs0 x0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only

  sl_unfold_words
  rw [View.canon_unit_zero (S := S1536x32) zeros2]
  simp only [View.readAt_eq_ld, harg2.read_unread, harg3.read_unread, harg6.read_unread, View.ld_unit_zero (S := S1536x1536) zeros2, View.ld_unit_zero (S := S1536x32) zeros2]

/-- Reduction coordinate 7, the accumulator: the last tile product is added. -/
theorem sout0_C_0_eq (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i) (x0 : Vec F S1536x1536 .bf16) (x1 : Vec F S1536x32 .bf16) (x2 : Vec F S1x32 .f32) (xs0 : Vec F S1536x32 .f32) :
    sout0_C_0 c i arg2 harg2 arg3 harg3 arg4 harg4 arg5 harg5 arg6 harg6 hc0 hc1 x0 x1 x2 xs0 = k0_pay2 xs0 x0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only

  sl_unfold_words
  rw [View.canon_unit_zero (S := S1536x32) zeros2]
  simp only [View.readAt_eq_ld, harg2.read_unread, harg3.read_unread, harg6.read_unread, View.ld_unit_zero (S := S1536x1536) zeros2, View.ld_unit_zero (S := S1536x32) zeros2]

/-- Reduction coordinate 7, the output tile: the finished accumulator plus the bias row, clamped below at zero. -/
theorem out0_C_3_eq (c : Dev nD) (i : grid0.Coords) (arg2 : Memref sig .tc .vmem S1536x1536 .bf16) (harg2 : arg2.IsWhole) (arg3 : Memref sig .tc .vmem S1536x32 .bf16) (harg3 : arg3.IsWhole) (arg4 : Memref sig .tc .vmem S1x32 .f32) (harg4 : arg4.IsWhole) (arg5 : Memref sig .tc .vmem S1536x32 .f32) (harg5 : arg5.IsWhole) (arg6 : Memref sig .tc .vmem S1536x32 .f32) (harg6 : arg6.IsWhole) (hc0 : ¬cond0_0 i) (hc1 : cond0_1 i) (x0 : Vec F S1536x1536 .bf16) (x1 : Vec F S1536x32 .bf16) (x2 : Vec F S1x32 .f32) (xs0 : Vec F S1536x32 .f32) :
    out0_C_3 c i arg2 harg2 arg3 harg3 arg4 harg4 arg5 harg5 arg6 harg6 hc0 hc1 x0 x1 x2 xs0 = k0_pay3 (k0_pay2 xs0 x0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only

  sl_unfold_words
  rw [View.canon_unit_zero (S := S1536x32) zeros2, View.readCov_unit_zero (S := S1536x32) _ zeros2]
  simp only [View.readAt_eq_ld, harg2.read_unread, harg3.read_unread, harg4.read_unread, harg6.read_unread, View.ld_unit_zero (S := S1536x1536) zeros2, View.ld_unit_zero (S := S1536x32) zeros2, View.ld_unit_zero (S := S1x32) zeros2]

end Cert.KernelIdeal.Frm

end
-- ==== Proof.IV0b.lean ====
/- Region 0: where each window's block sits in its array. At point t = 8 * i + k the block of the square matrix is
   (row tile i, column tile k), the block of the feature matrix is row tile k, the bias row is the whole of its array,
   and the output block is row tile i. An element of a block sits, on each axis, at block index times block size plus
   its own coordinate. -/
import proofs.«101834_j14396730376572_1_alg».proof.Proof.IR0a
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix2)

variable {F : FTy → Type} [FloatOps F]

variable (V : (c : Dev nD) → (b : Ref sig .tc) → Buf (Elt F) ((c : Thread nD τ).loc b))

/-- The printed index maps, decided once over the 64 grid points. -/
theorem idx0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The square matrix's block at point t, entry (p', kk), is the matrix's entry (1536 * (t / 8) + p', 1536 * (t % 8) + kk). -/
theorem iblk0_0_apply (c : Dev nD) (t : Fin cfg0.N) (p' kk : Fin 1536) (r s : Fin 12288)
    (hr : r.val = 1536 * (t.val / 8) + p'.val) (hs : s.val = 1536 * (t.val % 8) + kk.val) :
    (iblk0 V c 0 t : Vec F S1536x1536 .bf16) (ix2 p' kk) = V c main_v48 (ix2 r s) := by
  obtain ⟨e0, e1, -⟩ := idx0 t
  unfold iblk0
  rw [View.read_apply]
  show V c main_v48 (((cfg0.win 0).blk t).view.emb (ix2 p' kk)) = V c main_v48 (ix2 r s)
  refine congrArg (V c main_v48) ?_
  funext a; apply Fin.ext
  match a with
  | ⟨0, _⟩ => show win0_0.index t (0 : Fin 2) * 1536 + 1 * p'.val = r.val; rw [e0, hr]; omega
  | ⟨1, _⟩ => show win0_0.index t (1 : Fin 2) * 1536 + 1 * kk.val = s.val; rw [e1, hs]; omega

/-- The feature matrix's block at point t, entry (kk, q), is the matrix's entry (1536 * (t % 8) + kk, q). -/
theorem iblk0_1_apply (c : Dev nD) (t : Fin cfg0.N) (kk : Fin 1536) (q : Fin 32) (s : Fin 12288)
    (hs : s.val = 1536 * (t.val % 8) + kk.val) :
    (iblk0 V c 1 t : Vec F S1536x32 .bf16) (ix2 kk q) = V c main_v51 (ix2 s q) := by
  obtain ⟨-, -, e0, e1, -⟩ := idx0 t
  unfold iblk0
  rw [View.read_apply]
  show V c main_v51 (((cfg0.win 1).blk t).view.emb (ix2 kk q)) = V c main_v51 (ix2 s q)
  refine congrArg (V c main_v51) ?_
  funext a; apply Fin.ext
  match a with
  | ⟨0, _⟩ => show win0_1.index t (0 : Fin 2) * 1536 + 1 * kk.val = s.val; rw [e0, hs]; omega
  | ⟨1, _⟩ => show win0_1.index t (1 : Fin 2) * 32 + 1 * q.val = q.val; rw [e1]; omega

/-- The bias row's block at any point is the bias row. -/
theorem iblk0_2_apply (c : Dev nD) (t : Fin cfg0.N) (q : Fin 32) :
    (iblk0 V c 2 t : Vec F S1x32 .f32) (ix2 0 q) = V c main_v52 (ix2 0 q) := by
  obtain ⟨-, -, -, -, e0, e1, -⟩ := idx0 t
  unfold iblk0
  rw [View.read_apply]
  show V c main_v52 (((cfg0.win 2).blk t).view.emb (ix2 0 q)) = V c main_v52 (ix2 0 q)
  refine congrArg (V c main_v52) ?_
  funext a; apply Fin.ext
  match a with
  | ⟨0, _⟩ => show win0_2.index t (0 : Fin 2) * 1 + 1 * 0 = 0; rw [e0]
  | ⟨1, _⟩ => show win0_2.index t (1 : Fin 2) * 32 + 1 * q.val = q.val; rw [e1]; omega

end Cert.KernelIdeal.Frm

end
-- ==== Proof.IPay.lean ====
/- The three values each kernel body stores, read at one entry (row p, column q) over the extended reals:
   a zero; the running entry plus a 1536-term slice of a row-by-column product; the entry plus a bias, clamped
   below at zero. Every float operation is the exact one on the extended reals and every same-shape cast is the
   identity, so each is an identity between extended reals. -/
import proofs.«101834_j14396730376572_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.SL.Sem Cert.KernelIdeal.Gen
open scoped BigOperators

/-! ## The bodies of the 32-column layer -/

/-- The first payload is the zero tile. -/
theorem pay1_0 (p : Fin 1536) (q : Fin 32) : k0_pay1 (F := Ideal) (ValueIdx.ix2 p q) = 0 := by
  unfold k0_pay1
  simp only [shapeCast_self]
  show Ideal.ofBits .f32 0x00000000#32 = 0
  exact Ideal.ofBits_zero_f32

theorem lhs_0_0 (i : S1536x32.Idx) (c : dot_S1536x1536_S1536x32_S1536x32_1_0_0_1_n_n.contr.Idx) :
    (dot_S1536x1536_S1536x32_S1536x32_1_0_0_1_n_n.lhsIdx i c 0).val = (i 0).val := by
  unfold DotDims.lhsIdx
  rw [dif_neg (show ¬(0 : Fin S1536x1536.rank) ∈ dot_S1536x1536_S1536x32_S1536x32_1_0_0_1_n_n.lhsBatch by decide), dif_pos (show (0 : Fin S1536x1536.rank) ∈ dot_S1536x1536_S1536x32_S1536x32_1_0_0_1_n_n.lhsNonContracting by decide)]
  rfl
theorem lhs_0_1 (i : S1536x32.Idx) (c : dot_S1536x1536_S1536x32_S1536x32_1_0_0_1_n_n.contr.Idx) :
    (dot_S1536x1536_S1536x32_S1536x32_1_0_0_1_n_n.lhsIdx i c 1).val = (c ⟨0, by decide⟩).val :=
  dot_S1536x1536_S1536x32_S1536x32_1_0_0_1_n_n.lhsIdx_val_of_single rfl i c
theorem rhs_0_0 (i : S1536x32.Idx) (c : dot_S1536x1536_S1536x32_S1536x32_1_0_0_1_n_n.contr.Idx) :
    (dot_S1536x1536_S1536x32_S1536x32_1_0_0_1_n_n.rhsIdx i c 0).val = (c ⟨0, by decide⟩).val :=
  dot_S1536x1536_S1536x32_S1536x32_1_0_0_1_n_n.rhsIdx_val_of_single rfl i c
theorem rhs_0_1 (i : S1536x32.Idx) (c : dot_S1536x1536_S1536x32_S1536x32_1_0_0_1_n_n.contr.Idx) :
    (dot_S1536x1536_S1536x32_S1536x32_1_0_0_1_n_n.rhsIdx i c 1).val = (i 1).val := by
  unfold DotDims.rhsIdx
  rw [dif_neg (show ¬(1 : Fin S1536x32.rank) ∈ dot_S1536x1536_S1536x32_S1536x32_1_0_0_1_n_n.rhsBatch by decide), dif_pos (show (1 : Fin S1536x32.rank) ∈ dot_S1536x1536_S1536x32_S1536x32_1_0_0_1_n_n.rhsNonContracting by decide)]
  rfl

/-- The second payload adds, to the running tile, one 1536-term slice of the row-by-column product. -/
theorem pay2_0 (a : Vec Ideal S1536x32 .f32) (x0 : Vec Ideal S1536x1536 .bf16) (x1 : Vec Ideal S1536x32 .bf16) (p : Fin 1536) (q : Fin 32) :
    k0_pay2 (F := Ideal) a x0 x1 (ValueIdx.ix2 p q)
      = a (ValueIdx.ix2 p q) + ∑ kk : Fin 1536, x0 (ValueIdx.ix2 p kk) * x1 (ValueIdx.ix2 kk q) := by
  unfold k0_pay2
  simp only [shapeCast_self]
  rw [ValueIdx.addf_apply]
  refine congrArg (a (ValueIdx.ix2 p q) + ·) ?_
  simp only [matmul]
  rw [Ideal.matmul_constant_zero_apply, ← Equiv.sum_comp (ValueIdx.contrEquiv1 dot_S1536x1536_S1536x32_S1536x32_1_0_0_1_n_n 1536 rfl rfl).symm]
  refine Finset.sum_congr rfl fun kk _ => ?_
  have hk := ValueIdx.contrEquiv1_symm_val dot_S1536x1536_S1536x32_S1536x32_1_0_0_1_n_n 1536 rfl rfl kk
  have el : dot_S1536x1536_S1536x32_S1536x32_1_0_0_1_n_n.lhsIdx (ValueIdx.ix2 p q) ((ValueIdx.contrEquiv1 dot_S1536x1536_S1536x32_S1536x32_1_0_0_1_n_n 1536 rfl rfl).symm kk) = ValueIdx.ix2 p kk := funext fun ax => Fin.ext (by
    match ax with
    | ⟨0, _⟩ => exact lhs_0_0 _ _
    | ⟨1, _⟩ => exact (lhs_0_1 _ _).trans hk)
  have er : dot_S1536x1536_S1536x32_S1536x32_1_0_0_1_n_n.rhsIdx (ValueIdx.ix2 p q) ((ValueIdx.contrEquiv1 dot_S1536x1536_S1536x32_S1536x32_1_0_0_1_n_n 1536 rfl rfl).symm kk) = ValueIdx.ix2 kk q := funext fun ax => Fin.ext (by
    match ax with
    | ⟨0, _⟩ => exact (rhs_0_0 _ _).trans hk
    | ⟨1, _⟩ => exact rhs_0_1 _ _)
  rw [el, er]

/-- The third payload adds the one bias row to every row and clamps below at zero. -/
theorem pay3_0 (a : Vec Ideal S1536x32 .f32) (b : Vec Ideal S1x32 .f32) (p : Fin 1536) (q : Fin 32) :
    k0_pay3 (F := Ideal) a b (ValueIdx.ix2 p q) = max (a (ValueIdx.ix2 p q) + b (ValueIdx.ix2 0 q)) 0 := by
  unfold k0_pay3
  simp only [shapeCast_self]
  rw [ValueIdx.maximumf_apply, ValueIdx.addf_apply, ValueIdx.broadcast_apply, ValueIdx.broadcastTo_1b_ab_apply]
  show max (a (ValueIdx.ix2 p q) + b (ValueIdx.ix2 0 q)) (Ideal.ofBits .f32 0x00000000#32) = _
  rw [Ideal.ofBits_zero_f32]

/-! ## The bodies of the 64-column layer -/

/-- The first payload is the zero tile. -/
theorem pay1_1 (p : Fin 1536) (q : Fin 64) : k1_pay1 (F := Ideal) (ValueIdx.ix2 p q) = 0 := by
  unfold k1_pay1
  simp only [shapeCast_self]
  show Ideal.ofBits .f32 0x00000000#32 = 0
  exact Ideal.ofBits_zero_f32

theorem lhs_1_0 (i : S1536x64.Idx) (c : dot_S1536x1536_S1536x64_S1536x64_1_0_0_1_n_n.contr.Idx) :
    (dot_S1536x1536_S1536x64_S1536x64_1_0_0_1_n_n.lhsIdx i c 0).val = (i 0).val := by
  unfold DotDims.lhsIdx
  rw [dif_neg (show ¬(0 : Fin S1536x1536.rank) ∈ dot_S1536x1536_S1536x64_S1536x64_1_0_0_1_n_n.lhsBatch by decide), dif_pos (show (0 : Fin S1536x1536.rank) ∈ dot_S1536x1536_S1536x64_S1536x64_1_0_0_1_n_n.lhsNonContracting by decide)]
  rfl
theorem lhs_1_1 (i : S1536x64.Idx) (c : dot_S1536x1536_S1536x64_S1536x64_1_0_0_1_n_n.contr.Idx) :
    (dot_S1536x1536_S1536x64_S1536x64_1_0_0_1_n_n.lhsIdx i c 1).val = (c ⟨0, by decide⟩).val :=
  dot_S1536x1536_S1536x64_S1536x64_1_0_0_1_n_n.lhsIdx_val_of_single rfl i c
theorem rhs_1_0 (i : S1536x64.Idx) (c : dot_S1536x1536_S1536x64_S1536x64_1_0_0_1_n_n.contr.Idx) :
    (dot_S1536x1536_S1536x64_S1536x64_1_0_0_1_n_n.rhsIdx i c 0).val = (c ⟨0, by decide⟩).val :=
  dot_S1536x1536_S1536x64_S1536x64_1_0_0_1_n_n.rhsIdx_val_of_single rfl i c
theorem rhs_1_1 (i : S1536x64.Idx) (c : dot_S1536x1536_S1536x64_S1536x64_1_0_0_1_n_n.contr.Idx) :
    (dot_S1536x1536_S1536x64_S1536x64_1_0_0_1_n_n.rhsIdx i c 1).val = (i 1).val := by
  unfold DotDims.rhsIdx
  rw [dif_neg (show ¬(1 : Fin S1536x64.rank) ∈ dot_S1536x1536_S1536x64_S1536x64_1_0_0_1_n_n.rhsBatch by decide), dif_pos (show (1 : Fin S1536x64.rank) ∈ dot_S1536x1536_S1536x64_S1536x64_1_0_0_1_n_n.rhsNonContracting by decide)]
  rfl

/-- The second payload adds, to the running tile, one 1536-term slice of the row-by-column product. -/
theorem pay2_1 (a : Vec Ideal S1536x64 .f32) (x0 : Vec Ideal S1536x1536 .bf16) (x1 : Vec Ideal S1536x64 .bf16) (p : Fin 1536) (q : Fin 64) :
    k1_pay2 (F := Ideal) a x0 x1 (ValueIdx.ix2 p q)
      = a (ValueIdx.ix2 p q) + ∑ kk : Fin 1536, x0 (ValueIdx.ix2 p kk) * x1 (ValueIdx.ix2 kk q) := by
  unfold k1_pay2
  simp only [shapeCast_self]
  rw [ValueIdx.addf_apply]
  refine congrArg (a (ValueIdx.ix2 p q) + ·) ?_
  simp only [matmul]
  rw [Ideal.matmul_constant_zero_apply, ← Equiv.sum_comp (ValueIdx.contrEquiv1 dot_S1536x1536_S1536x64_S1536x64_1_0_0_1_n_n 1536 rfl rfl).symm]
  refine Finset.sum_congr rfl fun kk _ => ?_
  have hk := ValueIdx.contrEquiv1_symm_val dot_S1536x1536_S1536x64_S1536x64_1_0_0_1_n_n 1536 rfl rfl kk
  have el : dot_S1536x1536_S1536x64_S1536x64_1_0_0_1_n_n.lhsIdx (ValueIdx.ix2 p q) ((ValueIdx.contrEquiv1 dot_S1536x1536_S1536x64_S1536x64_1_0_0_1_n_n 1536 rfl rfl).symm kk) = ValueIdx.ix2 p kk := funext fun ax => Fin.ext (by
    match ax with
    | ⟨0, _⟩ => exact lhs_1_0 _ _
    | ⟨1, _⟩ => exact (lhs_1_1 _ _).trans hk)
  have er : dot_S1536x1536_S1536x64_S1536x64_1_0_0_1_n_n.rhsIdx (ValueIdx.ix2 p q) ((ValueIdx.contrEquiv1 dot_S1536x1536_S1536x64_S1536x64_1_0_0_1_n_n 1536 rfl rfl).symm kk) = ValueIdx.ix2 kk q := funext fun ax => Fin.ext (by
    match ax with
    | ⟨0, _⟩ => exact (rhs_1_0 _ _).trans hk
    | ⟨1, _⟩ => exact rhs_1_1 _ _)
  rw [el, er]

/-- The third payload adds the one bias row to every row and clamps below at zero. -/
theorem pay3_1 (a : Vec Ideal S1536x64 .f32) (b : Vec Ideal S1x64 .f32) (p : Fin 1536) (q : Fin 64) :
    k1_pay3 (F := Ideal) a b (ValueIdx.ix2 p q) = max (a (ValueIdx.ix2 p q) + b (ValueIdx.ix2 0 q)) 0 := by
  unfold k1_pay3
  simp only [shapeCast_self]
  rw [ValueIdx.maximumf_apply, ValueIdx.addf_apply, ValueIdx.broadcast_apply, ValueIdx.broadcastTo_1b_ab_apply]
  show max (a (ValueIdx.ix2 p q) + b (ValueIdx.ix2 0 q)) (Ideal.ofBits .f32 0x00000000#32) = _
  rw [Ideal.ofBits_zero_f32]

end Cert.KernelIdeal.Pay

end
-- ==== Proof.IV0c.lean ====
/- Region 0 over the extended reals: the accumulator along the grid. After point t = 8 * i + k the accumulator's entry
   (p', q) is the sum over the reduction tiles 0 .. k of the tile products of row 1536 * i + p' of the square matrix
   against column q of the feature matrix: it is zeroed where k = 0 and one tile product is added at every point. -/
import proofs.«101834_j14396730376572_1_alg».proof.Proof.IR0
import proofs.«101834_j14396730376572_1_alg».proof.Proof.IV0a
import proofs.«101834_j14396730376572_1_alg».proof.Proof.IV0b
import proofs.«101834_j14396730376572_1_alg».proof.Proof.IPay
import proofs.«101834_j14396730376572_1_alg».proof.Proof.Spec
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix2)

variable (V : (c : Dev nD) → (b : Ref sig .tc) → Buf (Elt Ideal) ((c : Thread nD τ).loc b))

/-- The square matrix, the feature matrix and the bias row as the region finds them, entry by entry. -/
abbrev A0 (c : Dev nD) : Fin 12288 → Fin 12288 → EReal := fun p K => V c main_v48 (ix2 p K)
abbrev H0 (c : Dev nD) : Fin 12288 → Fin 32 → EReal := fun K q => V c main_v51 (ix2 K q)
abbrev B0 (c : Dev nD) : Fin 32 → EReal := fun q => V c main_v52 (ix2 0 q)

/-- Position p' of tile i along an axis of length 12288 = 8 * 1536 (i is read modulo 8 so that no bound has to be carried). -/
def posOf (i : ℕ) (p' : Fin 1536) : Fin 12288 := ⟨1536 * (i % 8) + p'.val, by omega⟩

/-- The product of row tile i against reduction tile k at entry (p', q): 1536 terms. -/
def tile0 (c : Dev nD) (i k : ℕ) (p' : Fin 1536) (q : Fin 32) : EReal :=
  ∑ kk : Fin 1536, A0 V c (posOf i p') (posOf k kk) * H0 V c (posOf k kk) q

/-- The blocks at point t multiply to the tile product (t / 8, t % 8). -/
theorem blocks_mul (c : Dev nD) (t : Fin cfg0.N) (x0 : Vec Ideal S1536x1536 .bf16) (x1 : Vec Ideal S1536x32 .bf16)
    (hx0 : x0 = iblk0 V c 0 t) (hx1 : x1 = iblk0 V c 1 t) (p' : Fin 1536) (q : Fin 32) :
    (∑ kk : Fin 1536, x0 (ix2 p' kk) * x1 (ix2 kk q)) = tile0 V c (t.val / 8) (t.val % 8) p' q := by
  have hN : t.val < 64 := lt_of_lt_of_eq t.isLt (show cfg0.N = 64 from N_0)
  subst hx0 hx1
  unfold tile0
  refine Finset.sum_congr rfl fun kk _ => ?_
  rw [iblk0_0_apply V c t p' kk (posOf (t.val / 8) p') (posOf (t.val % 8) kk) (by show 1536 * (t.val / 8 % 8) + p'.val = _; omega) (by show 1536 * (t.val % 8 % 8) + kk.val = _; omega),
    iblk0_1_apply V c t kk q (posOf (t.val % 8) kk) (by show 1536 * (t.val % 8 % 8) + kk.val = _; omega)]

/-- Zeroing then adding one tile product leaves that product. -/
theorem first_step (x0 : Vec Ideal S1536x1536 .bf16) (x1 : Vec Ideal S1536x32 .bf16) (p' : Fin 1536) (q : Fin 32) :
    k0_pay2 (F := Ideal) (k0_pay1 (F := Ideal)) x0 x1 (ix2 p' q) = ∑ kk : Fin 1536, x0 (ix2 p' kk) * x1 (ix2 kk q) := by
  rw [Pay.pay2_0, Pay.pay1_0, zero_add]

/-- The accumulator does not depend on how the position's bound was proved. -/
theorem outsAt0_congr (c : Dev nD) (n n' : ℕ) (h : n < cfg0.N) (h' : n' < cfg0.N) (e : n = n') :
    outsAt0 V c n h = outsAt0 V c n' h' := by subst e; rfl

/-- The accumulator after position n. -/
theorem acc0_eq (c : Dev nD) : ∀ (n : ℕ) (hn : n < cfg0.N) (p' : Fin 1536) (q : Fin 32),
    (outsAt0 V c n hn).2 (ix2 p' q) = ∑ k' ∈ Finset.range (n % 8 + 1), tile0 V c (n / 8) k' p' q
  | 0, hn, p', q => by
    rw [outsAt0_A V c ⟨0, hn⟩ (Nat.zero_mod _) (by dsimp only; omega)]
    dsimp only
    rw [sout0_A_0_eq, first_step]
    refine (blocks_mul V c ⟨0, hn⟩ (iblk0 V c 0 ⟨0, hn⟩) (iblk0 V c 1 ⟨0, hn⟩) rfl rfl p' q).trans ?_
    simp only [Nat.zero_mod, Nat.zero_div, zero_add, Finset.range_one, Finset.sum_singleton]
  | n + 1, hn, p', q => by
    have hN : cfg0.N = 64 := N_0
    have ih := acc0_eq c n (Nat.lt_of_succ_lt hn) p' q
    by_cases h0 : (n + 1) % 8 = 0
    · rw [outsAt0_A V c ⟨n + 1, hn⟩ h0 (by dsimp only; omega)]
      dsimp only
      rw [sout0_A_0_eq, first_step]
      refine (blocks_mul V c ⟨n + 1, hn⟩ (iblk0 V c 0 ⟨n + 1, hn⟩) (iblk0 V c 1 ⟨n + 1, hn⟩) rfl rfl p' q).trans ?_
      dsimp only
      rw [h0]
      simp only [zero_add, Finset.range_one, Finset.sum_singleton]
    · by_cases h1 : (n + 1) % 8 = 7
      · rw [outsAt0_C V c ⟨n + 1, hn⟩ h0 h1]
        dsimp only
        rw [sout0_C_0_eq, Pay.pay2_0]
        rw [blocks_mul V c ⟨n + 1, hn⟩ (iblk0 V c 0 ⟨n + 1, hn⟩) (iblk0 V c 1 ⟨n + 1, hn⟩) rfl rfl p' q]
        dsimp only
        rw [outsAt0_congr V c (n + 1 - 1) n _ (Nat.lt_of_succ_lt hn) (by omega), ih]
        rw [show (n + 1) / 8 = n / 8 by omega, show (n + 1) % 8 = n % 8 + 1 by omega]
        exact (Finset.sum_range_succ _ _).symm
      · rw [outsAt0_B V c ⟨n + 1, hn⟩ h0 h1]
        dsimp only
        rw [sout0_B_0_eq, Pay.pay2_0]
        rw [blocks_mul V c ⟨n + 1, hn⟩ (iblk0 V c 0 ⟨n + 1, hn⟩) (iblk0 V c 1 ⟨n + 1, hn⟩) rfl rfl p' q]
        dsimp only
        rw [outsAt0_congr V c (n + 1 - 1) n _ (Nat.lt_of_succ_lt hn) (by omega), ih]
        rw [show (n + 1) / 8 = n / 8 by omega, show (n + 1) % 8 = n % 8 + 1 by omega]
        exact (Finset.sum_range_succ _ _).symm

/-- The eight tile products of a row tile add up to the whole row against the whole column. -/
theorem row_sum (c : Dev nD) (i : ℕ) (p' : Fin 1536) (q : Fin 32) :
    (∑ k' ∈ Finset.range 8, tile0 V c i k' p' q) = ∑ K : Fin 12288, A0 V c (posOf i p') K * H0 V c K q := by
  rw [Cert.Spec.sum_tiles, Finset.sum_range]
  refine Finset.sum_congr rfl fun k _ => ?_
  unfold tile0
  refine Finset.sum_congr rfl fun kk _ => ?_
  have e : posOf k.val kk = ⟨1536 * k.val + kk.val, by omega⟩ := Fin.ext (by show 1536 * (k.val % 8) + kk.val = 1536 * k.val + kk.val; omega)
  rw [e]

/-- For any accumulator and blocks: one more tile product is added, then the bias row, and the sum is clamped below at zero. -/
theorem last_step (a : Vec Ideal S1536x32 .f32) (x0 : Vec Ideal S1536x1536 .bf16) (x1 : Vec Ideal S1536x32 .bf16) (x2 : Vec Ideal S1x32 .f32)
    (p' : Fin 1536) (q : Fin 32) :
    k0_pay3 (F := Ideal) (k0_pay2 (F := Ideal) a x0 x1) x2 (ix2 p' q)
      = max ((a (ix2 p' q) + ∑ kk : Fin 1536, x0 (ix2 p' kk) * x1 (ix2 kk q)) + x2 (ix2 0 q)) 0 := by
  rw [Pay.pay3_0, Pay.pay2_0]

/-- The output tile stored at a point with reduction coordinate 7 is the dense layer on the tile's rows. -/
theorem out0_eq (c : Dev nD) (t : Fin cfg0.N) (h0 : ¬t.val % 8 = 0) (h1 : t.val % 8 = 7) (p' : Fin 1536) (q : Fin 32) :
    (outsAt0 V c t.val t.isLt).1 (ix2 p' q) = Cert.Spec.dense (A0 V c) (H0 V c) (B0 V c) (posOf (t.val / 8) p') q := by
  have hN : cfg0.N = 64 := N_0
  have hlt := t.isLt
  rw [outsAt0_C V c t h0 h1]
  dsimp only
  rw [out0_C_3_eq, last_step]
  rw [blocks_mul V c t (iblk0 V c 0 t) (iblk0 V c 1 t) rfl rfl p' q, iblk0_2_apply V c t q, acc0_eq V c (t.val - 1) _ p' q]
  unfold Cert.Spec.dense
  rw [← row_sum V c (t.val / 8) p' q, show (t.val - 1) % 8 + 1 = 7 by omega, show (t.val - 1) / 8 = t.val / 8 by omega, h1,
    Finset.sum_range_succ _ 7]

/-- The same at any index of the tile. -/
theorem out0_eq' (c : Dev nD) (t : Fin cfg0.N) (h0 : ¬t.val % 8 = 0) (h1 : t.val % 8 = 7) (y : S1536x32.Idx) :
    (outsAt0 V c t.val t.isLt).1 y = Cert.Spec.dense (A0 V c) (H0 V c) (B0 V c) (posOf (t.val / 8) (y 0)) (y 1) := by
  obtain ⟨p', q, rfl⟩ : ∃ (p' : Fin 1536) (q : Fin 32), y = ix2 p' q := ⟨y 0, y 1, ValueIdx.eq_ix2 y⟩
  exact out0_eq V c t h0 h1 p' q

end Cert.KernelIdeal.Frm

end
-- ==== Proof.IV0.lean ====
/- Region 0 over the extended reals: the output array after the region. Every point with reduction coordinate 7 writes
   back one row tile of the dense layer; the eight such points cover the 12288 rows, so the array ends holding the
   dense layer of the square matrix, the feature matrix and the bias row as the region found them. -/
import proofs.«101834_j14396730376572_1_alg».proof.Proof.IV0c

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix2)

variable (V : (c : Dev nD) → (b : Ref sig .tc) → Buf (Elt Ideal) ((c : Thread nD τ).loc b))

/-- The whole output array as one function of the arrays the region finds. -/
def G0 (c : Dev nD) : S12288x32.Idx → EReal :=
  fun j => Cert.Spec.dense (A0 V c) (H0 V c) (B0 V c) (j 0) (j 1)

/-- What a point with reduction coordinate 7 writes back is its block of that function: row tile t / 8. -/
theorem flushed0_eq (c : Dev nD) (t : Fin cfg0.N) (hf : (cfg0.win 3).flush t = true) :
    (dat0 V c).flushed 3 t = ((cfg0.win 3).blk t).view.read (Elt Ideal) (G0 V c) := by
  have h1 : t.val % 8 = 7 := (flush0_3 t).mp hf
  have h0 : ¬t.val % 8 = 0 := by omega
  have hN : t.val < 64 := lt_of_lt_of_eq t.isLt (show cfg0.N = 64 from N_0)
  obtain ⟨-, -, -, -, -, -, e0, e1⟩ := idx0 t
  show (cfg0.win 3).cut (grid0.coords t) ((dat0 V c).after 3 t) = _
  rw [after0_3]
  funext y
  refine (out0_eq' V c t h0 h1 y).trans ?_
  rw [View.read_apply]
  show _ = G0 V c (((cfg0.win 3).blk t).view.emb y)
  unfold G0
  refine congrArg₂ (Cert.Spec.dense (A0 V c) (H0 V c) (B0 V c)) (Fin.ext ?_) (Fin.ext ?_)
  · show 1536 * (t.val / 8 % 8) + (y 0).val = win0_3.index t (0 : Fin 2) * 1536 + 1 * (y 0).val
    rw [e0]; omega
  · show (y 1).val = win0_3.index t (1 : Fin 2) * 32 + 1 * (y 1).val
    rw [e1]; omega

/-- Row r of the output array is in the block written back at point 8 * (r / 1536) + 7. -/
theorem cover0 (i : S12288x32.Idx) :
    ∃ t : Fin cfg0.N, (cfg0.win 3).flush t = true ∧ i ∈ ((cfg0.win 3).blk t).view.set := by
  have hi0 : (i 0).val < 12288 := (i 0).isLt
  have hi1 : (i 1).val < 32 := (i 1).isLt
  have hN : cfg0.N = 64 := N_0
  let t : Fin cfg0.N := ⟨8 * ((i 0).val / 1536) + 7, by omega⟩
  have ht : t.val = 8 * ((i 0).val / 1536) + 7 := rfl
  obtain ⟨-, -, -, -, -, -, e0, e1⟩ := idx0 t
  refine ⟨t, (flush0_3 t).mpr (by omega), ?_⟩
  show i ∈ ((View.whole main_v53).slice (win0_3.rect t)).set
  rw [View.set_slice_whole, Rect.mem_set_unit]
  intro a
  match a with
  | ⟨0, _⟩ =>
    show win0_3.index t (0 : Fin 2) * 1536 ≤ (i 0).val ∧ (i 0).val < win0_3.index t (0 : Fin 2) * 1536 + 1536
    rw [e0, ht]; omega
  | ⟨1, _⟩ =>
    show win0_3.index t (1 : Fin 2) * 32 ≤ (i 1).val ∧ (i 1).val < win0_3.index t (1 : Fin 2) * 32 + 32
    rw [e1]; omega

/-- The output array after the region is the dense layer, entry by entry. -/
theorem arr0_eq (c : Dev nD) : (dat0 V c).arrAt 3 cfg0.N = G0 V c :=
  (dat0 V c).arrAt_eq_of_cover 3 (G0 V c) (flushed0_eq V c) cover0

/-- Entry (p, q) of the output array after the region is the dense layer's entry (p, q). -/
theorem arr0_val (c : Dev nD) (p : Fin 12288) (q : Fin 32) :
    ((dat0 (F := Ideal) V c).arrAt 3 cfg0.N) (ix2 p q)
      = Cert.Spec.dense (fun p K => (V c main_v48) (ix2 p K)) (fun K q => (V c main_v51) (ix2 K q)) (fun q => (V c main_v52) (ix2 0 q)) p q := by
  rw [arr0_eq V c]
  rfl

end Cert.KernelIdeal.Frm

end
-- ==== Proof.IV1a.lean ====
/- What each control case of region 1 leaves behind, as values. Every load and store of the body goes through the
   whole-shape rectangle at zero offsets, so a buffer read back after the body's stores holds exactly the payload
   stored last, and every load of a whole buffer reads its contents. -/
import proofs.«101834_j14396730376572_1_alg».proof.Proof.IR1
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zeros2_1 : (![0, 0] : Fin 2 → Nat) = fun _ => 0 := funext fun a => by fin_cases a <;> rfl

/-- Reduction coordinate 0: the accumulator is zeroed, read back, and the first tile product is added to it. -/
theorem sout1_A_0_eq (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : cond1_0 i) (hc1 : ¬cond1_1 i) (x0 : Vec F S1536x1536 .bf16) (x1 : Vec F S1536x64 .bf16) (x2 : Vec F S1x64 .f32) :
    sout1_A_0 c i arg2 harg2 arg3 harg3 arg4 harg4 arg5 harg5 arg6 harg6 hc0 hc1 x0 x1 x2 = k1_pay2 (k1_pay1 (F := F)) x0 x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1536x64) zeros2_1, View.readCov_unit_zero (S := S1536x64) _ zeros2_1]
  simp only [View.readAt_eq_ld, harg2.read_unread, harg3.read_unread, View.ld_unit_zero (S := S1536x1536) zeros2_1, View.ld_unit_zero (S := S1536x64) zeros2_1]

/-- A middle reduction coordinate: the tile product is added to the accumulator as the point before left it. -/
theorem sout1_B_0_eq (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : ¬cond1_1 i) (x0 : Vec F S1536x1536 .bf16) (x1 : Vec F S1536x64 .bf16) (x2 : Vec F S1x64 .f32) (xs0 : Vec F S1536x64 .f32) :
    sout1_B_0 c i arg2 harg2 arg3 harg3 arg4 harg4 arg5 harg5 arg6 harg6 hc0 hc1 x0 x1 x2 xs0 = k1_pay2 xs0 x0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only

  sl_unfold_words
  rw [View.canon_unit_zero (S := S1536x64) zeros2_1]
  simp only [View.readAt_eq_ld, harg2.read_unread, harg3.read_unread, harg6.read_unread, View.ld_unit_zero (S := S1536x1536) zeros2_1, View.ld_unit_zero (S := S1536x64) zeros2_1]

/-- Reduction coordinate 7, the accumulator: the last tile product is added. -/
theorem sout1_C_0_eq (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i) (x0 : Vec F S1536x1536 .bf16) (x1 : Vec F S1536x64 .bf16) (x2 : Vec F S1x64 .f32) (xs0 : Vec F S1536x64 .f32) :
    sout1_C_0 c i arg2 harg2 arg3 harg3 arg4 harg4 arg5 harg5 arg6 harg6 hc0 hc1 x0 x1 x2 xs0 = k1_pay2 xs0 x0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only

  sl_unfold_words
  rw [View.canon_unit_zero (S := S1536x64) zeros2_1]
  simp only [View.readAt_eq_ld, harg2.read_unread, harg3.read_unread, harg6.read_unread, View.ld_unit_zero (S := S1536x1536) zeros2_1, View.ld_unit_zero (S := S1536x64) zeros2_1]

/-- Reduction coordinate 7, the output tile: the finished accumulator plus the bias row, clamped below at zero. -/
theorem out1_C_3_eq (c : Dev nD) (i : grid1.Coords) (arg2 : Memref sig .tc .vmem S1536x1536 .bf16) (harg2 : arg2.IsWhole) (arg3 : Memref sig .tc .vmem S1536x64 .bf16) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬cond1_0 i) (hc1 : cond1_1 i) (x0 : Vec F S1536x1536 .bf16) (x1 : Vec F S1536x64 .bf16) (x2 : Vec F S1x64 .f32) (xs0 : Vec F S1536x64 .f32) :
    out1_C_3 c i arg2 harg2 arg3 harg3 arg4 harg4 arg5 harg5 arg6 harg6 hc0 hc1 x0 x1 x2 xs0 = k1_pay3 (k1_pay2 xs0 x0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only

  sl_unfold_words
  rw [View.canon_unit_zero (S := S1536x64) zeros2_1, View.readCov_unit_zero (S := S1536x64) _ zeros2_1]
  simp only [View.readAt_eq_ld, harg2.read_unread, harg3.read_unread, harg4.read_unread, harg6.read_unread, View.ld_unit_zero (S := S1536x1536) zeros2_1, View.ld_unit_zero (S := S1536x64) zeros2_1, View.ld_unit_zero (S := S1x64) zeros2_1]

end Cert.KernelIdeal.Frm

end
-- ==== Proof.IV1b.lean ====
/- Region 1: where each window's block sits in its array. At point t = 8 * i + k the block of the square matrix is
   (row tile i, column tile k), the block of the feature matrix is row tile k, the bias row is the whole of its array,
   and the output block is row tile i. An element of a block sits, on each axis, at block index times block size plus
   its own coordinate. -/
import proofs.«101834_j14396730376572_1_alg».proof.Proof.IR1a
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix2)

variable {F : FTy → Type} [FloatOps F]

variable (V : (c : Dev nD) → (b : Ref sig .tc) → Buf (Elt F) ((c : Thread nD τ).loc b))

/-- The printed index maps, decided once over the 64 grid points. -/
theorem idx1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The square matrix's block at point t, entry (p', kk), is the matrix's entry (1536 * (t / 8) + p', 1536 * (t % 8) + kk). -/
theorem iblk1_0_apply (c : Dev nD) (t : Fin cfg1.N) (p' kk : Fin 1536) (r s : Fin 12288)
    (hr : r.val = 1536 * (t.val / 8) + p'.val) (hs : s.val = 1536 * (t.val % 8) + kk.val) :
    (iblk1 V c 0 t : Vec F S1536x1536 .bf16) (ix2 p' kk) = V c main_v48 (ix2 r s) := by
  obtain ⟨e0, e1, -⟩ := idx1 t
  unfold iblk1
  rw [View.read_apply]
  show V c main_v48 (((cfg1.win 0).blk t).view.emb (ix2 p' kk)) = V c main_v48 (ix2 r s)
  refine congrArg (V c main_v48) ?_
  funext a; apply Fin.ext
  match a with
  | ⟨0, _⟩ => show win1_0.index t (0 : Fin 2) * 1536 + 1 * p'.val = r.val; rw [e0, hr]; omega
  | ⟨1, _⟩ => show win1_0.index t (1 : Fin 2) * 1536 + 1 * kk.val = s.val; rw [e1, hs]; omega

/-- The feature matrix's block at point t, entry (kk, q), is the matrix's entry (1536 * (t % 8) + kk, q). -/
theorem iblk1_1_apply (c : Dev nD) (t : Fin cfg1.N) (kk : Fin 1536) (q : Fin 64) (s : Fin 12288)
    (hs : s.val = 1536 * (t.val % 8) + kk.val) :
    (iblk1 V c 1 t : Vec F S1536x64 .bf16) (ix2 kk q) = V c main_v57 (ix2 s q) := by
  obtain ⟨-, -, e0, e1, -⟩ := idx1 t
  unfold iblk1
  rw [View.read_apply]
  show V c main_v57 (((cfg1.win 1).blk t).view.emb (ix2 kk q)) = V c main_v57 (ix2 s q)
  refine congrArg (V c main_v57) ?_
  funext a; apply Fin.ext
  match a with
  | ⟨0, _⟩ => show win1_1.index t (0 : Fin 2) * 1536 + 1 * kk.val = s.val; rw [e0, hs]; omega
  | ⟨1, _⟩ => show win1_1.index t (1 : Fin 2) * 64 + 1 * q.val = q.val; rw [e1]; omega

/-- The bias row's block at any point is the bias row. -/
theorem iblk1_2_apply (c : Dev nD) (t : Fin cfg1.N) (q : Fin 64) :
    (iblk1 V c 2 t : Vec F S1x64 .f32) (ix2 0 q) = V c main_v58 (ix2 0 q) := by
  obtain ⟨-, -, -, -, e0, e1, -⟩ := idx1 t
  unfold iblk1
  rw [View.read_apply]
  show V c main_v58 (((cfg1.win 2).blk t).view.emb (ix2 0 q)) = V c main_v58 (ix2 0 q)
  refine congrArg (V c main_v58) ?_
  funext a; apply Fin.ext
  match a with
  | ⟨0, _⟩ => show win1_2.index t (0 : Fin 2) * 1 + 1 * 0 = 0; rw [e0]
  | ⟨1, _⟩ => show win1_2.index t (1 : Fin 2) * 64 + 1 * q.val = q.val; rw [e1]; omega

end Cert.KernelIdeal.Frm

end
-- ==== Proof.IV1c.lean ====
/- Region 1 over the extended reals: the accumulator along the grid. After point t = 8 * i + k the accumulator's entry
   (p', q) is the sum over the reduction tiles 0 .. k of the tile products of row 1536 * i + p' of the square matrix
   against column q of the feature matrix: it is zeroed where k = 0 and one tile product is added at every point. -/
import proofs.«101834_j14396730376572_1_alg».proof.Proof.IR1
import proofs.«101834_j14396730376572_1_alg».proof.Proof.IV1a
import proofs.«101834_j14396730376572_1_alg».proof.Proof.IV1b
import proofs.«101834_j14396730376572_1_alg».proof.Proof.IPay
import proofs.«101834_j14396730376572_1_alg».proof.Proof.Spec
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix2)

variable (V : (c : Dev nD) → (b : Ref sig .tc) → Buf (Elt Ideal) ((c : Thread nD τ).loc b))

/-- The square matrix, the feature matrix and the bias row as the region finds them, entry by entry. -/
abbrev A1 (c : Dev nD) : Fin 12288 → Fin 12288 → EReal := fun p K => V c main_v48 (ix2 p K)
abbrev H1 (c : Dev nD) : Fin 12288 → Fin 64 → EReal := fun K q => V c main_v57 (ix2 K q)
abbrev B1 (c : Dev nD) : Fin 64 → EReal := fun q => V c main_v58 (ix2 0 q)

/-- Position p' of tile i along an axis of length 12288 = 8 * 1536 (i is read modulo 8 so that no bound has to be carried). -/
def posOf1 (i : ℕ) (p' : Fin 1536) : Fin 12288 := ⟨1536 * (i % 8) + p'.val, by omega⟩

/-- The product of row tile i against reduction tile k at entry (p', q): 1536 terms. -/
def tile1 (c : Dev nD) (i k : ℕ) (p' : Fin 1536) (q : Fin 64) : EReal :=
  ∑ kk : Fin 1536, A1 V c (posOf1 i p') (posOf1 k kk) * H1 V c (posOf1 k kk) q

/-- The blocks at point t multiply to the tile product (t / 8, t % 8). -/
theorem blocks_mul1 (c : Dev nD) (t : Fin cfg1.N) (x0 : Vec Ideal S1536x1536 .bf16) (x1 : Vec Ideal S1536x64 .bf16)
    (hx0 : x0 = iblk1 V c 0 t) (hx1 : x1 = iblk1 V c 1 t) (p' : Fin 1536) (q : Fin 64) :
    (∑ kk : Fin 1536, x0 (ix2 p' kk) * x1 (ix2 kk q)) = tile1 V c (t.val / 8) (t.val % 8) p' q := by
  have hN : t.val < 64 := lt_of_lt_of_eq t.isLt (show cfg1.N = 64 from N_1)
  subst hx0 hx1
  unfold tile1
  refine Finset.sum_congr rfl fun kk _ => ?_
  rw [iblk1_0_apply V c t p' kk (posOf1 (t.val / 8) p') (posOf1 (t.val % 8) kk) (by show 1536 * (t.val / 8 % 8) + p'.val = _; omega) (by show 1536 * (t.val % 8 % 8) + kk.val = _; omega),
    iblk1_1_apply V c t kk q (posOf1 (t.val % 8) kk) (by show 1536 * (t.val % 8 % 8) + kk.val = _; omega)]

/-- Zeroing then adding one tile product leaves that product. -/
theorem first_step1 (x0 : Vec Ideal S1536x1536 .bf16) (x1 : Vec Ideal S1536x64 .bf16) (p' : Fin 1536) (q : Fin 64) :
    k1_pay2 (F := Ideal) (k1_pay1 (F := Ideal)) x0 x1 (ix2 p' q) = ∑ kk : Fin 1536, x0 (ix2 p' kk) * x1 (ix2 kk q) := by
  rw [Pay.pay2_1, Pay.pay1_1, zero_add]

/-- The accumulator does not depend on how the position's bound was proved. -/
theorem outsAt1_congr (c : Dev nD) (n n' : ℕ) (h : n < cfg1.N) (h' : n' < cfg1.N) (e : n = n') :
    outsAt1 V c n h = outsAt1 V c n' h' := by subst e; rfl

/-- The accumulator after position n. -/
theorem acc1_eq (c : Dev nD) : ∀ (n : ℕ) (hn : n < cfg1.N) (p' : Fin 1536) (q : Fin 64),
    (outsAt1 V c n hn).2 (ix2 p' q) = ∑ k' ∈ Finset.range (n % 8 + 1), tile1 V c (n / 8) k' p' q
  | 0, hn, p', q => by
    rw [outsAt1_A V c ⟨0, hn⟩ (Nat.zero_mod _) (by dsimp only; omega)]
    dsimp only
    rw [sout1_A_0_eq, first_step1]
    refine (blocks_mul1 V c ⟨0, hn⟩ (iblk1 V c 0 ⟨0, hn⟩) (iblk1 V c 1 ⟨0, hn⟩) rfl rfl p' q).trans ?_
    simp only [Nat.zero_mod, Nat.zero_div, zero_add, Finset.range_one, Finset.sum_singleton]
  | n + 1, hn, p', q => by
    have hN : cfg1.N = 64 := N_1
    have ih := acc1_eq c n (Nat.lt_of_succ_lt hn) p' q
    by_cases h0 : (n + 1) % 8 = 0
    · rw [outsAt1_A V c ⟨n + 1, hn⟩ h0 (by dsimp only; omega)]
      dsimp only
      rw [sout1_A_0_eq, first_step1]
      refine (blocks_mul1 V c ⟨n + 1, hn⟩ (iblk1 V c 0 ⟨n + 1, hn⟩) (iblk1 V c 1 ⟨n + 1, hn⟩) rfl rfl p' q).trans ?_
      dsimp only
      rw [h0]
      simp only [zero_add, Finset.range_one, Finset.sum_singleton]
    · by_cases h1 : (n + 1) % 8 = 7
      · rw [outsAt1_C V c ⟨n + 1, hn⟩ h0 h1]
        dsimp only
        rw [sout1_C_0_eq, Pay.pay2_1]
        rw [blocks_mul1 V c ⟨n + 1, hn⟩ (iblk1 V c 0 ⟨n + 1, hn⟩) (iblk1 V c 1 ⟨n + 1, hn⟩) rfl rfl p' q]
        dsimp only
        rw [outsAt1_congr V c (n + 1 - 1) n _ (Nat.lt_of_succ_lt hn) (by omega), ih]
        rw [show (n + 1) / 8 = n / 8 by omega, show (n + 1) % 8 = n % 8 + 1 by omega]
        exact (Finset.sum_range_succ _ _).symm
      · rw [outsAt1_B V c ⟨n + 1, hn⟩ h0 h1]
        dsimp only
        rw [sout1_B_0_eq, Pay.pay2_1]
        rw [blocks_mul1 V c ⟨n + 1, hn⟩ (iblk1 V c 0 ⟨n + 1, hn⟩) (iblk1 V c 1 ⟨n + 1, hn⟩) rfl rfl p' q]
        dsimp only
        rw [outsAt1_congr V c (n + 1 - 1) n _ (Nat.lt_of_succ_lt hn) (by omega), ih]
        rw [show (n + 1) / 8 = n / 8 by omega, show (n + 1) % 8 = n % 8 + 1 by omega]
        exact (Finset.sum_range_succ _ _).symm

/-- The eight tile products of a row tile add up to the whole row against the whole column. -/
theorem row_sum1 (c : Dev nD) (i : ℕ) (p' : Fin 1536) (q : Fin 64) :
    (∑ k' ∈ Finset.range 8, tile1 V c i k' p' q) = ∑ K : Fin 12288, A1 V c (posOf1 i p') K * H1 V c K q := by
  rw [Cert.Spec.sum_tiles, Finset.sum_range]
  refine Finset.sum_congr rfl fun k _ => ?_
  unfold tile1
  refine Finset.sum_congr rfl fun kk _ => ?_
  have e : posOf1 k.val kk = ⟨1536 * k.val + kk.val, by omega⟩ := Fin.ext (by show 1536 * (k.val % 8) + kk.val = 1536 * k.val + kk.val; omega)
  rw [e]

/-- For any accumulator and blocks: one more tile product is added, then the bias row, and the sum is clamped below at zero. -/
theorem last_step1 (a : Vec Ideal S1536x64 .f32) (x0 : Vec Ideal S1536x1536 .bf16) (x1 : Vec Ideal S1536x64 .bf16) (x2 : Vec Ideal S1x64 .f32)
    (p' : Fin 1536) (q : Fin 64) :
    k1_pay3 (F := Ideal) (k1_pay2 (F := Ideal) a x0 x1) x2 (ix2 p' q)
      = max ((a (ix2 p' q) + ∑ kk : Fin 1536, x0 (ix2 p' kk) * x1 (ix2 kk q)) + x2 (ix2 0 q)) 0 := by
  rw [Pay.pay3_1, Pay.pay2_1]

/-- The output tile stored at a point with reduction coordinate 7 is the dense layer on the tile's rows. -/
theorem out1_eq (c : Dev nD) (t : Fin cfg1.N) (h0 : ¬t.val % 8 = 0) (h1 : t.val % 8 = 7) (p' : Fin 1536) (q : Fin 64) :
    (outsAt1 V c t.val t.isLt).1 (ix2 p' q) = Cert.Spec.dense (A1 V c) (H1 V c) (B1 V c) (posOf1 (t.val / 8) p') q := by
  have hN : cfg1.N = 64 := N_1
  have hlt := t.isLt
  rw [outsAt1_C V c t h0 h1]
  dsimp only
  rw [out1_C_3_eq, last_step1]
  rw [blocks_mul1 V c t (iblk1 V c 0 t) (iblk1 V c 1 t) rfl rfl p' q, iblk1_2_apply V c t q, acc1_eq V c (t.val - 1) _ p' q]
  unfold Cert.Spec.dense
  rw [← row_sum1 V c (t.val / 8) p' q, show (t.val - 1) % 8 + 1 = 7 by omega, show (t.val - 1) / 8 = t.val / 8 by omega, h1,
    Finset.sum_range_succ _ 7]

/-- The same at any index of the tile. -/
theorem out1_eq' (c : Dev nD) (t : Fin cfg1.N) (h0 : ¬t.val % 8 = 0) (h1 : t.val % 8 = 7) (y : S1536x64.Idx) :
    (outsAt1 V c t.val t.isLt).1 y = Cert.Spec.dense (A1 V c) (H1 V c) (B1 V c) (posOf1 (t.val / 8) (y 0)) (y 1) := by
  obtain ⟨p', q, rfl⟩ : ∃ (p' : Fin 1536) (q : Fin 64), y = ix2 p' q := ⟨y 0, y 1, ValueIdx.eq_ix2 y⟩
  exact out1_eq V c t h0 h1 p' q

end Cert.KernelIdeal.Frm

end
-- ==== Proof.IV1.lean ====
/- Region 1 over the extended reals: the output array after the region. Every point with reduction coordinate 7 writes
   back one row tile of the dense layer; the eight such points cover the 12288 rows, so the array ends holding the
   dense layer of the square matrix, the feature matrix and the bias row as the region found them. -/
import proofs.«101834_j14396730376572_1_alg».proof.Proof.IV1c

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix2)

variable (V : (c : Dev nD) → (b : Ref sig .tc) → Buf (Elt Ideal) ((c : Thread nD τ).loc b))

/-- The whole output array as one function of the arrays the region finds. -/
def G1 (c : Dev nD) : S12288x64.Idx → EReal :=
  fun j => Cert.Spec.dense (A1 V c) (H1 V c) (B1 V c) (j 0) (j 1)

/-- What a point with reduction coordinate 7 writes back is its block of that function: row tile t / 8. -/
theorem flushed1_eq (c : Dev nD) (t : Fin cfg1.N) (hf : (cfg1.win 3).flush t = true) :
    (dat1 V c).flushed 3 t = ((cfg1.win 3).blk t).view.read (Elt Ideal) (G1 V c) := by
  have h1 : t.val % 8 = 7 := (flush1_3 t).mp hf
  have h0 : ¬t.val % 8 = 0 := by omega
  have hN : t.val < 64 := lt_of_lt_of_eq t.isLt (show cfg1.N = 64 from N_1)
  obtain ⟨-, -, -, -, -, -, e0, e1⟩ := idx1 t
  show (cfg1.win 3).cut (grid1.coords t) ((dat1 V c).after 3 t) = _
  rw [after1_3]
  funext y
  refine (out1_eq' V c t h0 h1 y).trans ?_
  rw [View.read_apply]
  show _ = G1 V c (((cfg1.win 3).blk t).view.emb y)
  unfold G1
  refine congrArg₂ (Cert.Spec.dense (A1 V c) (H1 V c) (B1 V c)) (Fin.ext ?_) (Fin.ext ?_)
  · show 1536 * (t.val / 8 % 8) + (y 0).val = win1_3.index t (0 : Fin 2) * 1536 + 1 * (y 0).val
    rw [e0]; omega
  · show (y 1).val = win1_3.index t (1 : Fin 2) * 64 + 1 * (y 1).val
    rw [e1]; omega

/-- Row r of the output array is in the block written back at point 8 * (r / 1536) + 7. -/
theorem cover1 (i : S12288x64.Idx) :
    ∃ t : Fin cfg1.N, (cfg1.win 3).flush t = true ∧ i ∈ ((cfg1.win 3).blk t).view.set := by
  have hi0 : (i 0).val < 12288 := (i 0).isLt
  have hi1 : (i 1).val < 64 := (i 1).isLt
  have hN : cfg1.N = 64 := N_1
  let t : Fin cfg1.N := ⟨8 * ((i 0).val / 1536) + 7, by omega⟩
  have ht : t.val = 8 * ((i 0).val / 1536) + 7 := rfl
  obtain ⟨-, -, -, -, -, -, e0, e1⟩ := idx1 t
  refine ⟨t, (flush1_3 t).mpr (by omega), ?_⟩
  show i ∈ ((View.whole main_v59).slice (win1_3.rect t)).set
  rw [View.set_slice_whole, Rect.mem_set_unit]
  intro a
  match a with
  | ⟨0, _⟩ =>
    show win1_3.index t (0 : Fin 2) * 1536 ≤ (i 0).val ∧ (i 0).val < win1_3.index t (0 : Fin 2) * 1536 + 1536
    rw [e0, ht]; omega
  | ⟨1, _⟩ =>
    show win1_3.index t (1 : Fin 2) * 64 ≤ (i 1).val ∧ (i 1).val < win1_3.index t (1 : Fin 2) * 64 + 64
    rw [e1]; omega

/-- The output array after the region is the dense layer, entry by entry. -/
theorem arr1_eq (c : Dev nD) : (dat1 V c).arrAt 3 cfg1.N = G1 V c :=
  (dat1 V c).arrAt_eq_of_cover 3 (G1 V c) (flushed1_eq V c) cover1

/-- Entry (p, q) of the output array after the region is the dense layer's entry (p, q). -/
theorem arr1_val (c : Dev nD) (p : Fin 12288) (q : Fin 64) :
    ((dat1 (F := Ideal) V c).arrAt 3 cfg1.N) (ix2 p q)
      = Cert.Spec.dense (fun p K => (V c main_v48) (ix2 p K)) (fun K q => (V c main_v57) (ix2 K q)) (fun q => (V c main_v58) (ix2 0 q)) p q := by
  rw [arr1_eq V c]
  rfl

end Cert.KernelIdeal.Frm

end
-- ==== Proof.HAsm.lean ====
/- The certificate's last conjunct, assembled: the kernel program's run (each of its two regions leaving the dense-layer formula over
   its padded operands in its result array), the reference's run, and the equality of the two results. -/
import proofs.«101834_j14396730376572_1_alg».proof.Proof.HBridge
import proofs.«101834_j14396730376572_1_alg».proof.Proof.IRun
import proofs.«101834_j14396730376572_1_alg».proof.Proof.IV0
import proofs.«101834_j14396730376572_1_alg».proof.Proof.IV1
import proofs.«101834_j14396730376572_1_alg».proof.Defs
import proofs.«101834_j14396730376572_1_alg».proof.Proof.Gen.KernelIdeal
import proofs.«101834_j14396730376572_1_alg».proof.Proof.Gen.ReferenceIdeal
import proofs.«101834_j14396730376572_1_alg».proof.Proof.Gen.Pre_finite_inputs

noncomputable section

namespace Cert.Bridge

open Idealize.ShloMosaic Idealize.ShloMosaic.TcCoe Idealize.SL.Sem

/-- What the first kernel region leaves at every entry of its padded result: the dense-layer formula over its padded operands. -/
theorem h6_outs (m : (ℓ : Loc Cert.KernelIdeal.nD Cert.KernelIdeal.τ Cert.KernelIdeal.sig) → Buf (Elt Ideal) ℓ) (c : Dev Cert.KernelIdeal.nD) (p : Fin 12288) (q : Fin 32) :
    (Cert.KernelIdeal.Frm.outs m 6 Cert.KernelIdeal.main_v53 c) (ValueIdx.ix2 p q)
      = Cert.Spec.dense (fun p K => (Cert.KernelIdeal.Gen.V5 m c Cert.KernelIdeal.main_v48) (ValueIdx.ix2 p K))
          (fun K q => (Cert.KernelIdeal.Gen.V5 m c Cert.KernelIdeal.main_v51) (ValueIdx.ix2 K q))
          (fun q => (Cert.KernelIdeal.Gen.V5 m c Cert.KernelIdeal.main_v52) (ValueIdx.ix2 (0 : Fin 1) q)) p q := by
  have e := Cert.KernelIdeal.Frm.arr0_val (Cert.KernelIdeal.Frm.Vt5 m) c p q
  rw [Cert.KernelIdeal.Frm.outs_v53 m c]
  exact e

/-- What the second kernel region leaves at every entry of its padded result. -/
theorem h10_outs (m : (ℓ : Loc Cert.KernelIdeal.nD Cert.KernelIdeal.τ Cert.KernelIdeal.sig) → Buf (Elt Ideal) ℓ) (c : Dev Cert.KernelIdeal.nD) (p : Fin 12288) (q : Fin 64) :
    (Cert.KernelIdeal.Frm.outs m 10 Cert.KernelIdeal.main_v59 c) (ValueIdx.ix2 p q)
      = Cert.Spec.dense (fun p K => (Cert.KernelIdeal.Gen.V9 m (Cert.KernelIdeal.Frm.outs m) c Cert.KernelIdeal.main_v48) (ValueIdx.ix2 p K))
          (fun K q => (Cert.KernelIdeal.Gen.V9 m (Cert.KernelIdeal.Frm.outs m) c Cert.KernelIdeal.main_v57) (ValueIdx.ix2 K q))
          (fun q => (Cert.KernelIdeal.Gen.V9 m (Cert.KernelIdeal.Frm.outs m) c Cert.KernelIdeal.main_v58) (ValueIdx.ix2 (0 : Fin 1) q)) p q := by
  have e := Cert.KernelIdeal.Frm.arr1_val (Cert.KernelIdeal.Frm.Vt9 m) c p q
  rw [Cert.KernelIdeal.Frm.outs_v59 m c, Cert.KernelIdeal.Frm.V9_outs m c]
  exact e

/-- The two idealized programs, run from memories agreeing on the twelve arguments, end with equal results and unchanged arguments:
    the common result is what the kernel program's last stretch leaves in its result buffer. -/
theorem algebraic : Cert.algebraic_KernelIdeal_ReferenceIdeal := by
  intro m ρ m' ρ' _ hagree
  refine ⟨fun c => Cert.KernelIdeal.Gen.V18 m (Cert.KernelIdeal.Frm.outs m) c Cert.KernelIdeal.main_v140, ?_, ?_⟩
  · exact (θ_run (Cert.KernelIdeal.defs (F := Ideal)) _ _).mono (fun _ h c =>
      ⟨h c _ (Cert.KernelIdeal.Frm.mem_uc Cert.KernelIdeal.main_v140 (by decide)),
       (h c _ (Cert.KernelIdeal.Frm.mem_uc Cert.KernelIdeal.main_arg0 (by decide))).trans (Cert.KernelIdeal.Gen.V18_main_arg0 m (Cert.KernelIdeal.Frm.outs m) c),
       (h c _ (Cert.KernelIdeal.Frm.mem_uc Cert.KernelIdeal.main_arg1 (by decide))).trans (Cert.KernelIdeal.Gen.V18_main_arg1 m (Cert.KernelIdeal.Frm.outs m) c),
       (h c _ (Cert.KernelIdeal.Frm.mem_uc Cert.KernelIdeal.main_arg2 (by decide))).trans (Cert.KernelIdeal.Gen.V18_main_arg2 m (Cert.KernelIdeal.Frm.outs m) c),
       (h c _ (Cert.KernelIdeal.Frm.mem_uc Cert.KernelIdeal.main_arg3 (by decide))).trans (Cert.KernelIdeal.Gen.V18_main_arg3 m (Cert.KernelIdeal.Frm.outs m) c),
       (h c _ (Cert.KernelIdeal.Frm.mem_uc Cert.KernelIdeal.main_arg4 (by decide))).trans (Cert.KernelIdeal.Gen.V18_main_arg4 m (Cert.KernelIdeal.Frm.outs m) c),
       (h c _ (Cert.KernelIdeal.Frm.mem_uc Cert.KernelIdeal.main_arg5 (by decide))).trans (Cert.KernelIdeal.Gen.V18_main_arg5 m (Cert.KernelIdeal.Frm.outs m) c),
       (h c _ (Cert.KernelIdeal.Frm.mem_uc Cert.KernelIdeal.main_arg6 (by decide))).trans (Cert.KernelIdeal.Gen.V18_main_arg6 m (Cert.KernelIdeal.Frm.outs m) c),
       (h c _ (Cert.KernelIdeal.Frm.mem_uc Cert.KernelIdeal.main_arg7 (by decide))).trans (Cert.KernelIdeal.Gen.V18_main_arg7 m (Cert.KernelIdeal.Frm.outs m) c),
       (h c _ (Cert.KernelIdeal.Frm.mem_uc Cert.KernelIdeal.main_arg8 (by decide))).trans (Cert.KernelIdeal.Gen.V18_main_arg8 m (Cert.KernelIdeal.Frm.outs m) c),
       (h c _ (Cert.KernelIdeal.Frm.mem_uc Cert.KernelIdeal.main_arg9 (by decide))).trans (Cert.KernelIdeal.Gen.V18_main_arg9 m (Cert.KernelIdeal.Frm.outs m) c),
       (h c _ (Cert.KernelIdeal.Frm.mem_uc Cert.KernelIdeal.main_arg10 (by decide))).trans (Cert.KernelIdeal.Gen.V18_main_arg10 m (Cert.KernelIdeal.Frm.outs m) c),
       (h c _ (Cert.KernelIdeal.Frm.mem_uc Cert.KernelIdeal.main_arg11 (by decide))).trans (Cert.KernelIdeal.Gen.V18_main_arg11 m (Cert.KernelIdeal.Frm.outs m) c)⟩)
      (Cert.KernelIdeal.Frm.run_all (F := Ideal) m ρ)
  · exact (θ_run (Cert.ReferenceIdeal.defs (F := Ideal)) _ _).mono (fun _ h c =>
      ⟨(h c).1.trans (result_eq m (Cert.KernelIdeal.Frm.outs m) c m' (hagree c) (h6_outs m c) (h10_outs m c)).symm, (h c).2⟩)
      (Cert.ReferenceIdeal.ValueP.run (F := Ideal) m' ρ')

end Cert.Bridge

end
-- ==== Proof.lean ====
/- The certificate of a two-layer dense graph convolution followed by three sparse layers and a log-softmax.
   The kernel program computes each dense layer relu(A_norm (x W) + b) by a tiled product on operands padded with zeros
   from 12000 to 12288 rows and columns: an accumulator is zeroed at reduction tile 0, one 1536-wide tile product is added
   per reduction tile, and at reduction tile 7 the bias is added and the result clamped below at zero. The reference
   computes the same layer as one product. Over the extended reals the two agree entry by entry: a padded summand is
   0 * 0 = 0, and a sum may be regrouped into tiles because addition is commutative and associative there. Everything
   else of the two programs is the same sequence of host operations applied to equal values. -/
import proofs.«101834_j14396730376572_1_alg».proof.Defs
import proofs.«101834_j14396730376572_1_alg».proof.Proof.Gen.Kernel
import proofs.«101834_j14396730376572_1_alg».proof.Proof.Gen.KernelIdeal
import proofs.«101834_j14396730376572_1_alg».proof.Proof.Gen.ReferenceIdeal
import proofs.«101834_j14396730376572_1_alg».proof.Proof.Gen.Pre_finite_inputs
import proofs.«101834_j14396730376572_1_alg».proof.Proof.BRun
import proofs.«101834_j14396730376572_1_alg».proof.Proof.IRun
import proofs.«101834_j14396730376572_1_alg».proof.Proof.RefRun
import proofs.«101834_j14396730376572_1_alg».proof.Proof.HAsm
import Idealize.ShloMosaic.Adequacy
import Idealize.ShloMosaic.Init

noncomputable section

namespace Cert.Proof

open Idealize.ShloMosaic Idealize.SL.Sem

/-- The word-level kernel program runs to the end, faults nowhere, and leaves its arguments unchanged. -/
theorem frame_k : Cert.frame_Kernel := fun m ρ _ => Cert.Kernel.Frm.frame (F := Bits) m ρ

/-- So does the idealized kernel program. -/
theorem frame_ki : Cert.frame_KernelIdeal := fun m ρ _ => Cert.KernelIdeal.Frm.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- All five claims: the three frames; the idealization rewrote nothing, so it preserves trivially; and the two
    idealized programs end with equal results. -/
theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
